-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x65536x4 : Shape := ⟨3, ![32, 65536, 4]⟩
abbrev S32x65536 : Shape := ⟨2, ![32, 65536]⟩
abbrev S32 : Shape := ⟨1, ![32]⟩
abbrev S_ : Shape := ⟨0, ![]⟩

class Facts : Prop where
  bcast_S_S32x65536x4 : S_.BroadcastsInDim S32x65536x4 (![] : Fin 0 → Fin S32x65536x4.rank)
  reducesTo_S32x65536x4_S_d0_1_2 : S32x65536x4.ReducesTo [0, 1, 2] S_
  h_S_ : 0 < S_.numel
  bcast_S_S32x65536 : S_.BroadcastsInDim S32x65536 (![] : Fin 0 → Fin S32x65536.rank)
  reducesTo_S32x65536_S_d0_1 : S32x65536.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : IVec S32 32) (main_v13 : IVec S_ 1) (main_v16 : IVec S32x65536 1) : IVec S_ 1 :=
  let main_c_5 : IVec S_ 1 := constantI S_ 1 1#1
  let main_v17 : IVec S_ 1 := (fun x v => Host.reduce IntOp.andi x v reducesTo_S32x65536_S_d0_1 h_S_) main_v16 main_c_5
  let main_v18 : IVec S_ 1 := andi main_v13 main_v17
  let main_c_6 : IVec S_ 32 := constantI S_ 32 0#32
  let main_v19 : IVec S32 32 := broadcastInDim S32 ![] bcast_S_S32 main_c_6
  let main_v20 : IVec S32 1 := cmpi .sge main_arg4 main_v19
  let main_c_7 : IVec S_ 1 := constantI S_ 1 1#1
  let main_v21 : IVec S_ 1 := (fun x v => Host.reduce IntOp.andi x v reducesTo_S32_S_d0 h_S_) main_v20 main_c_7
  let main_v22 : IVec S_ 1 := andi main_v18 main_v21
  let main_c_8 : IVec S_ 32 := constantI S_ 32 65536#32
  let main_v23 : IVec S32 32 := broadcastInDim S32 ![] bcast_S_S32 main_c_8
  let main_v24 : IVec S32 1 := cmpi .sle main_arg4 main_v23
  let main_c_9 : IVec S_ 1 := constantI S_ 1 1#1
  let main_v25 : IVec S_ 1 := (fun x v => Host.reduce IntOp.andi x v reducesTo_S32_S_d0 h_S_) main_v24 main_c_9
  let main_v26 : IVec S_ 1 := andi main_v22 main_v25
  main_v26

def fn {F : FTy → Type} [FloatOps F] (main_arg0 : FVec F S32x65536x4 .f32) (main_arg1 : FVec F S32x65536 .f32) (main_arg2 : FVec F S32x65536x4 .f32) (main_arg3 : FVec F S32x65536 .f32) (main_arg4 : IVec S32 32) : IVec S_ 1 :=
  let main_v0 : FVec F S32x65536x4 .f32 := Host.absf main_arg0
  let main_cst : FVec F S_ .f32 := constant S_ .f32 0x7F800000#32
  let main_v1 : FVec F S32x65536x4 .f32 := broadcastInDim S32x65536x4 ![] bcast_S_S32x65536x4 main_cst
  let main_v2 : IVec S32x65536x4 1 := cmpf .olt main_v0 main_v1
  let main_c : IVec S_ 1 := constantI S_ 1 1#1
  let main_v3 : IVec S_ 1 := (fun x v => Host.reduce IntOp.andi x v reducesTo_S32x65536x4_S_d0_1_2 h_S_) main_v2 main_c
  let main_v4 : FVec F S32x65536 .f32 := Host.absf main_arg1
  let main_cst_0 : FVec F S_ .f32 := constant S_ .f32 0x7F800000#32
  let main_v5 : FVec F S32x65536 .f32 := broadcastInDim S32x65536 ![] bcast_S_S32x65536 main_cst_0
  let main_v6 : IVec S32x65536 1 := cmpf .olt main_v4 main_v5
  let main_c_1 : IVec S_ 1 := constantI S_ 1 1#1
  let main_v7 : IVec S_ 1 := (fun x v => Host.reduce IntOp.andi x v reducesTo_S32x65536_S_d0_1 h_S_) main_v6 main_c_1
  let main_v8 : IVec S_ 1 := andi main_v3 main_v7
  let main_v9 : FVec F S32x65536x4 .f32 := Host.absf main_arg2
  let main_cst_2 : FVec F S_ .f32 := constant S_ .f32 0x7F800000#32
  let main_v10 : FVec F S32x65536x4 .f32 := broadcastInDim S32x65536x4 ![] bcast_S_S32x65536x4 main_cst_2
  let main_v11 : IVec S32x65536x4 1 := cmpf .olt main_v9 main_v10
  let main_c_3 : IVec S_ 1 := constantI S_ 1 1#1
  let main_v12 : IVec S_ 1 := (fun x v => Host.reduce IntOp.andi x v reducesTo_S32x65536x4_S_d0_1_2 h_S_) main_v11 main_c_3
  let main_v13 : IVec S_ 1 := andi main_v8 main_v12
  let main_v14 : FVec F S32x65536 .f32 := Host.absf main_arg3
  let main_cst_4 : FVec F S_ .f32 := constant S_ .f32 0x7F800000#32
  let main_v15 : FVec F S32x65536 .f32 := broadcastInDim S32x65536 ![] bcast_S_S32x65536 main_cst_4
  let main_v16 : IVec S32x65536 1 := cmpf .olt main_v14 main_v15
  fn_part1 (F := F) main_arg4 main_v13 main_v16
-- ==== Kernel.lean ====
abbrev S32x65536x4 : Shape := ⟨3, ![32, 65536, 4]⟩
abbrev S32x65536 : Shape := ⟨2, ![32, 65536]⟩
abbrev S32 : Shape := ⟨1, ![32]⟩
abbrev S24x4 : Shape := ⟨2, ![24, 4]⟩
abbrev S4x32x65536 : Shape := ⟨3, ![4, 32, 65536]⟩
abbrev S32x1 : Shape := ⟨2, ![32, 1]⟩
abbrev S32x4x4 : Shape := ⟨3, ![32, 4, 4]⟩
abbrev S32x4 : Shape := ⟨2, ![32, 4]⟩
abbrev S16x1 : Shape := ⟨2, ![16, 1]⟩
abbrev S4x16x4096 : Shape := ⟨3, ![4, 16, 4096]⟩
abbrev S16x4096 : Shape := ⟨2, ![16, 4096]⟩
abbrev S16x4x4 : Shape := ⟨3, ![16, 4, 4]⟩
abbrev S16x4 : Shape := ⟨2, ![16, 4]⟩
abbrev S1x16x4096 : Shape := ⟨3, ![1, 16, 4096]⟩
abbrev S16 : Shape := ⟨1, ![16]⟩
abbrev S16x1x4 : Shape := ⟨3, ![16, 1, 4]⟩
abbrev S32x4x1 : Shape := ⟨3, ![32, 4, 1]⟩
abbrev S32x1x1 : Shape := ⟨3, ![32, 1, 1]⟩
abbrev S4 : Shape := ⟨1, ![4]⟩
abbrev S1x4 : Shape := ⟨2, ![1, 4]⟩
abbrev S_ : Shape := ⟨0, ![]⟩
abbrev S24x4x1 : Shape := ⟨3, ![24, 4, 1]⟩
abbrev S24x4x2 : Shape := ⟨3, ![24, 4, 2]⟩
abbrev S32x24x4 : Shape := ⟨3, ![32, 24, 4]⟩
abbrev S32x24 : Shape := ⟨2, ![32, 24]⟩

abbrev nBuf : Space → Nat
  | .hbm => 61
  | .vmem => 16
  | .smem => 0
  | _ => 0

abbrev bufTy : (tb : Table) → Fin (tcTables nBuf tb) → BufTy
  | .hbm, ⟨0, _⟩ => ⟨S32x65536x4, .f32⟩
  | .hbm, ⟨1, _⟩ => ⟨S32x65536, .f32⟩
  | .hbm, ⟨2, _⟩ => ⟨S32x65536x4, .f32⟩
  | .hbm, ⟨3, _⟩ => ⟨S32x65536, .f32⟩
  | .hbm, ⟨4, _⟩ => ⟨S32, .i32⟩
  | .hbm, ⟨5, _⟩ => ⟨S24x4, .i32⟩
  | .hbm, ⟨6, _⟩ => ⟨S4x32x65536, .f32⟩
  | .hbm, ⟨7, _⟩ => ⟨S4x32x65536, .f32⟩
  | .hbm, ⟨8, _⟩ => ⟨S32x1, .i32⟩
  | .hbm, ⟨9, _⟩ => ⟨S32x4x4, .f32⟩
  | .hbm, ⟨10, _⟩ => ⟨S32x4, .f32⟩
  | .hbm, ⟨11, _⟩ => ⟨S32x1, .f32⟩
  | .hbm, ⟨12, _⟩ => ⟨S32, .f32⟩
  | .hbm, ⟨13, _⟩ => ⟨S32x4x1, .f32⟩
  | .hbm, ⟨14, _⟩ => ⟨S32x4x4, .f32⟩
  | .hbm, ⟨15, _⟩ => ⟨S32x4x4, .f32⟩
  | .hbm, ⟨16, _⟩ => ⟨S32x1x1, .f32⟩
  | .hbm, ⟨17, _⟩ => ⟨S32x4x4, .f32⟩
  | .hbm, ⟨18, _⟩ => ⟨S32x4x4, .f32⟩
  | .hbm, ⟨19, _⟩ => ⟨S4, .i32⟩
  | .hbm, ⟨20, _⟩ => ⟨S1x4, .i32⟩
  | .hbm, ⟨21, _⟩ => ⟨S_, .i32⟩
  | .hbm, ⟨22, _⟩ => ⟨S1x4, .i32⟩
  | .hbm, ⟨23, _⟩ => ⟨S1x4, .i1⟩
  | .hbm, ⟨24, _⟩ => ⟨S_, .i32⟩
  | .hbm, ⟨25, _⟩ => ⟨S1x4, .i32⟩
  | .hbm, ⟨26, _⟩ => ⟨S1x4, .i32⟩
  | .hbm, ⟨27, _⟩ => ⟨S1x4, .i32⟩
  | .hbm, ⟨28, _⟩ => ⟨S_, .i32⟩
  | .hbm, ⟨29, _⟩ => ⟨S24x4, .i32⟩
  | .hbm, ⟨30, _⟩ => ⟨S24x4, .i1⟩
  | .hbm, ⟨31, _⟩ => ⟨S_, .i32⟩
  | .hbm, ⟨32, _⟩ => ⟨S24x4, .i32⟩
  | .hbm, ⟨33, _⟩ => ⟨S24x4, .i32⟩
  | .hbm, ⟨34, _⟩ => ⟨S24x4, .i32⟩
  | .hbm, ⟨35, _⟩ => ⟨S24x4, .i32⟩
  | .hbm, ⟨36, _⟩ => ⟨S24x4x1, .i32⟩
  | .hbm, ⟨37, _⟩ => ⟨S24x4x1, .i32⟩
  | .hbm, ⟨38, _⟩ => ⟨S24x4x2, .i32⟩
  | .hbm, ⟨39, _⟩ => ⟨S32x24x4, .f32⟩
  | .hbm, ⟨40, _⟩ => ⟨S_, .f32⟩
  | .hbm, ⟨41, _⟩ => ⟨S32x24, .f32⟩
  | .hbm, ⟨42, _⟩ => ⟨S_, .f32⟩
  | .hbm, ⟨43, _⟩ => ⟨S32x24, .f32⟩
  | .hbm, ⟨44, _⟩ => ⟨S32x24, .f32⟩
  | .hbm, ⟨45, _⟩ => ⟨S_, .f32⟩
  | .hbm, ⟨46, _⟩ => ⟨S32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S16x1, .i32⟩
  | .local _ .vmem, ⟨1, _⟩ => ⟨S16x1, .i32⟩
  | .local _ .vmem, ⟨2, _⟩ => ⟨S4x16x4096, .f32⟩
  | .local _ .vmem, ⟨3, _⟩ => ⟨S4x16x4096, .f32⟩
  | .local _ .vmem, ⟨4, _⟩ => ⟨S4x16x4096, .f32⟩
  | .local _ .vmem, ⟨5, _⟩ => ⟨S4x16x4096, .f32⟩
  | .local _ .vmem, ⟨6, _⟩ => ⟨S16x4096, .f32⟩
  | .local _ .vmem, ⟨7, _⟩ => ⟨S16x4096, .f32⟩
  | .local _ .vmem, ⟨8, _⟩ => ⟨S16x4096, .f32⟩
  | .local _ .vmem, ⟨9, _⟩ => ⟨S16x4096, .f32⟩
  | .local _ .vmem, ⟨10, _⟩ => ⟨S16x4x4, .f32⟩
  | .local _ .vmem, ⟨11, _⟩ => ⟨S16x4x4, .f32⟩
  | .local _ .vmem, ⟨12, _⟩ => ⟨S16x4, .f32⟩
  | .local _ .vmem, ⟨13, _⟩ => ⟨S16x4, .f32⟩
  | .local _ .vmem, ⟨14, _⟩ => ⟨S16x1, .f32⟩
  | .local _ .vmem, ⟨15, _⟩ => ⟨S16x1, .f32⟩
  | _, _ => ⟨S32x65536x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S32x65536x4_S4x32x65536_2_0_1 : S32x65536x4.Transposes [2, 0, 1] S4x32x65536
  shapeCasts_S32_S32x1 : S32.ShapeCasts S32x1
  inb_S16x4x4_S16x4x4_0_0_0 : ∀ a, (![0, 0, 0] : Fin 3 → Nat) a + S16x4x4.size a ≤ S16x4x4.size a
  h_S16x4x4 : 0 < S16x4x4.numel
  inb_S16x4_S16x4_0_0 : ∀ a, (![0, 0] : Fin 2 → Nat) a + S16x4.size a ≤ S16x4.size a
  h_S16x4 : 0 < S16x4.numel
  inb_S16x1_S16x1_0_0 : ∀ a, (![0, 0] : Fin 2 → Nat) a + S16x1.size a ≤ S16x1.size a
  h_S16x1 : 0 < S16x1.numel
  iota_S16x4096_d1_w32 : S16x4096.Iotas .tc 32 [1]
  shapeCasts_S16x1_S16x1 : S16x1.ShapeCasts S16x1
  broadcasts_S16x1_S16x4096 : S16x1.Broadcasts S16x4096
  natLt_1_32 : 1 < 32
  inb_S4x16x4096_S1x16x4096_0_0_0 : ∀ a, (![0, 0, 0] : Fin 3 → Nat) a + S1x16x4096.size a ≤ S4x16x4096.size a
  h_S1x16x4096 : 0 < S1x16x4096.numel
  shapeCasts_S1x16x4096_S16x4096 : S1x16x4096.ShapeCasts S16x4096
  inb_S4x16x4096_S1x16x4096_1_0_0 : ∀ a, (![1, 0, 0] : Fin 3 → Nat) a + S1x16x4096.size a ≤ S4x16x4096.size a
  inb_S4x16x4096_S1x16x4096_2_0_0 : ∀ a, (![2, 0, 0] : Fin 3 → Nat) a + S1x16x4096.size a ≤ S4x16x4096.size a
  inb_S4x16x4096_S1x16x4096_3_0_0 : ∀ a, (![3, 0, 0] : Fin 3 → Nat) a + S1x16x4096.size a ≤ S4x16x4096.size a
  reduces_S16x4096_S16 : S16x4096.Reduces [1] S16
  shapeCasts_S16_S16x1 : S16.ShapeCasts S16x1
  concatenates_S16x1_S16x1_S16x1_S16x1_S16x4_d1 : Shape.Concatenates [S16x1, S16x1, S16x1, S16x1] S16x4 1
  shapeCasts_S16x4_S16x1x4 : S16x4.ShapeCasts S16x1x4
  concatenates_S16x1x4_S16x1x4_S16x1x4_S16x1x4_S16x4x4_d1 : Shape.Concatenates [S16x1x4, S16x1x4, S16x1x4, S16x1x4] S16x4x4 1
  inb_S16x4096_S16x4096_0_0 : ∀ a, (![0, 0] : Fin 2 → Nat) a + S16x4096.size a ≤ S16x4096.size a
  h_S16x4096 : 0 < S16x4096.numel
  shapeCasts_S16x4x4_S16x4x4 : S16x4x4.ShapeCasts S16x4x4
  shapeCasts_S16x4_S16x4 : S16x4.ShapeCasts S16x4
  bcast_S32x4_S32x4x1_0_1 : S32x4.BroadcastsInDim S32x4x1 (![0, 1] : Fin 2 → Fin S32x4x1.rank)
  bcast_S32x4x1_S32x4x4_0_1_2 : S32x4x1.BroadcastsInDim S32x4x4 (![0, 1, 2] : Fin 3 → Fin S32x4x4.rank)
  bcast_S32_S32x1x1_0 : S32.BroadcastsInDim S32x1x1 (![0] : Fin 1 → Fin S32x1x1.rank)
  bcast_S32x1x1_S32x4x4_0_1_2 : S32x1x1.BroadcastsInDim S32x4x4 (![0, 1, 2] : Fin 3 → Fin S32x4x4.rank)
  bcast_S4_S1x4_1 : S4.BroadcastsInDim S1x4 (![1] : Fin 1 → Fin S1x4.rank)
  bcast_S_S1x4 : S_.BroadcastsInDim S1x4 (![] : Fin 0 → Fin S1x4.rank)
  bcast_S_S24x4 : S_.BroadcastsInDim S24x4 (![] : Fin 0 → Fin S24x4.rank)
  bcast_S1x4_S24x4_0_1 : S1x4.BroadcastsInDim S24x4 (![0, 1] : Fin 2 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S32x24x4_S32x24_d2 : S32x24x4.ReducesTo [2] S32x24
  h_S_ : 0 < S_.numel
  bcast_S_S32x24 : S_.BroadcastsInDim S32x24 (![] : Fin 0 → Fin S32x24.rank)
  reducesTo_S32x24_S32_d1 : S32x24.ReducesTo [1] S32
  reducesTo_S32_S_d0 : S32.ReducesTo [0] S_
  reducesTo_S32x1_S_d0_1 : S32x1.ReducesTo [0, 1] S_
  gather_S32x4x4_S24x4x2_S32x24x4_0_12_n_n_12_2_3211_wf : GatherDims.WF S32x4x4 S24x4x2 S32x24x4 [0] [1, 2] [] [1, 2] [] 2 ![32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1.size a ≤ S32x1.size a
  hwx0_0 : ∀ i : grid0.Coords, EltTy.bits .i32 = 32 ∨ (Rect.block (s := S32x1) S16x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16x4096.size a ≤ S4x32x65536.size a
  hwx0_1 : ∀ i : grid0.Coords, EltTy.bits .f32 = 32 ∨ (Rect.block (s := S4x32x65536) S4x16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x16x4096.size a ≤ S4x32x65536.size a
  hwx0_2 : ∀ i : grid0.Coords, EltTy.bits .f32 = 32 ∨ (Rect.block (s := S4x32x65536) S4x16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S32x65536.size a
  hwx0_3 : ∀ i : grid0.Coords, EltTy.bits .f32 = 32 ∨ (Rect.block (s := S32x65536) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S32x65536.size a
  hwx0_4 : ∀ i : grid0.Coords, EltTy.bits .f32 = 32 ∨ (Rect.block (s := S32x65536) S16x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x4x4.size a ≤ S32x4x4.size a
  hwx0_5 : ∀ i : grid0.Coords, EltTy.bits .f32 = 32 ∨ (Rect.block (s := S32x4x4) S16x4x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x4.size a ≤ S32x4.size a
  hwx0_6 : ∀ i : grid0.Coords, EltTy.bits .f32 = 32 ∨ (Rect.block (s := S32x4) S16x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S32x1.size a
  hwx0_7 : ∀ i : grid0.Coords, EltTy.bits .f32 = 32 ∨ (Rect.block (s := S32x1) S16x1.size (cc0_transform_7 i) (hinb0_7 i)).WholeWords (EltTy.packing .f32)

variable [Facts₀]

def gather_S32x4x4_S24x4x2_S32x24x4_0_12_n_n_12_2_3211 : GatherDims S32x4x4 S24x4x2 S32x24x4 where
  offsetDims := [0]
  collapsedSliceDims := [1, 2]
  operandBatchingDims := []
  startIndicesBatchingDims := []
  startIndexMap := [1, 2]
  indexVectorDim := 2
  sliceSizes := ![32, 1, 1]
  wf := gather_S32x4x4_S24x4x2_S32x24x4_0_12_n_n_12_2_3211_wf

abbrev win0_0 : Pipeline.Window sig grid0 :=
  Pipeline.Window.ofSpec (Memref.whole main_v2) S16x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x16x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x16x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S16x4x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S16x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S16x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x65536x4 : Shape := ⟨3, ![32, 65536, 4]⟩
abbrev S32x65536 : Shape := ⟨2, ![32, 65536]⟩
abbrev S32 : Shape := ⟨1, ![32]⟩
abbrev S24x4 : Shape := ⟨2, ![24, 4]⟩
abbrev S65536 : Shape := ⟨1, ![65536]⟩
abbrev S1x65536 : Shape := ⟨2, ![1, 65536]⟩
abbrev S32x1 : Shape := ⟨2, ![32, 1]⟩
abbrev S_ : Shape := ⟨0, ![]⟩
abbrev S32x65536x1 : Shape := ⟨3, ![32, 65536, 1]⟩
abbrev S32x4x4 : Shape := ⟨3, ![32, 4, 4]⟩
abbrev S32x4 : Shape := ⟨2, ![32, 4]⟩
abbrev S32x4x1 : Shape := ⟨3, ![32, 4, 1]⟩
abbrev S32x1x1 : Shape := ⟨3, ![32, 1, 1]⟩
abbrev S4 : Shape := ⟨1, ![4]⟩
abbrev S1x4 : Shape := ⟨2, ![1, 4]⟩
abbrev S24x4x1 : Shape := ⟨3, ![24, 4, 1]⟩
abbrev S24x4x2 : Shape := ⟨3, ![24, 4, 2]⟩
abbrev S32x24x4 : Shape := ⟨3, ![32, 24, 4]⟩
abbrev S32x24 : Shape := ⟨2, ![32, 24]⟩

abbrev nBuf : Space → Nat
  | .hbm => 105
  | .vmem => 0
  | .smem => 0
  | _ => 0

abbrev bufTy : (tb : Table) → Fin (tcTables nBuf tb) → BufTy
  | .hbm, ⟨0, _⟩ => ⟨S32x65536x4, .f32⟩
  | .hbm, ⟨1, _⟩ => ⟨S32x65536, .f32⟩
  | .hbm, ⟨2, _⟩ => ⟨S32x65536x4, .f32⟩
  | .hbm, ⟨3, _⟩ => ⟨S32x65536, .f32⟩
  | .hbm, ⟨4, _⟩ => ⟨S32, .i32⟩
  | .hbm, ⟨5, _⟩ => ⟨S24x4, .i32⟩
  | .hbm, ⟨6, _⟩ => ⟨S65536, .i32⟩
  | .hbm, ⟨7, _⟩ => ⟨S1x65536, .i32⟩
  | .hbm, ⟨8, _⟩ => ⟨S32x1, .i32⟩
  | .hbm, ⟨9, _⟩ => ⟨S32x65536, .i32⟩
  | .hbm, ⟨10, _⟩ => ⟨S32x65536, .i32⟩
  | .hbm, ⟨11, _⟩ => ⟨S32x65536, .i1⟩
  | .hbm, ⟨12, _⟩ => ⟨S32x65536, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x65536x4, .f32⟩
  | .hbm, ⟨19, _⟩ => ⟨S32x65536x4, .f32⟩
  | .hbm, ⟨20, _⟩ => ⟨S_, .f32⟩
  | .hbm, ⟨21, _⟩ => ⟨S32x65536x4, .f32⟩
  | .hbm, ⟨22, _⟩ => ⟨S32x65536x4, .f32⟩
  | .hbm, ⟨23, _⟩ => ⟨S32x65536x4, .f32⟩
  | .hbm, ⟨24, _⟩ => ⟨S32x65536x4, .f32⟩
  | .hbm, ⟨25, _⟩ => ⟨S32x65536x4, .f32⟩
  | .hbm, ⟨26, _⟩ => ⟨S32x65536x1, .f32⟩
  | .hbm, ⟨27, _⟩ => ⟨S32x65536x4, .f32⟩
  | .hbm, ⟨28, _⟩ => ⟨S32x65536x4, .f32⟩
  | .hbm, ⟨29, _⟩ => ⟨S32x65536x4, .f32⟩
  | .hbm, ⟨30, _⟩ => ⟨S32x4x4, .f32⟩
  | .hbm, ⟨31, _⟩ => ⟨S32x4x4, .f32⟩
  | .hbm, ⟨32, _⟩ => ⟨S32x65536x1, .f32⟩
  | .hbm, ⟨33, _⟩ => ⟨S32x65536x4, .f32⟩
  | .hbm, ⟨34, _⟩ => ⟨S32x65536x4, .f32⟩
  | .hbm, ⟨35, _⟩ => ⟨S_, .f32⟩
  | .hbm, ⟨36, _⟩ => ⟨S32x4, .f32⟩
  | .hbm, ⟨37, _⟩ => ⟨S32x4, .f32⟩
  | .hbm, ⟨38, _⟩ => ⟨S32x4x1, .f32⟩
  | .hbm, ⟨39, _⟩ => ⟨S32x4x4, .f32⟩
  | .hbm, ⟨40, _⟩ => ⟨S32x4x4, .f32⟩
  | .hbm, ⟨41, _⟩ => ⟨S32x1x1, .f32⟩
  | .hbm, ⟨42, _⟩ => ⟨S32x4x4, .f32⟩
  | .hbm, ⟨43, _⟩ => ⟨S32x4x4, .f32⟩
  | .hbm, ⟨44, _⟩ => ⟨S4, .i32⟩
  | .hbm, ⟨45, _⟩ => ⟨S1x4, .i32⟩
  | .hbm, ⟨46, _⟩ => ⟨S_, .i32⟩
  | .hbm, ⟨47, _⟩ => ⟨S1x4, .i32⟩
  | .hbm, ⟨48, _⟩ => ⟨S1x4, .i1⟩
  | .hbm, ⟨49, _⟩ => ⟨S_, .i32⟩
  | .hbm, ⟨50, _⟩ => ⟨S1x4, .i32⟩
  | .hbm, ⟨51, _⟩ => ⟨S1x4, .i32⟩
  | .hbm, ⟨52, _⟩ => ⟨S1x4, .i32⟩
  | .hbm, ⟨53, _⟩ => ⟨S_, .i32⟩
  | .hbm, ⟨54, _⟩ => ⟨S24x4, .i32⟩
  | .hbm, ⟨55, _⟩ => ⟨S24x4, .i1⟩
  | .hbm, ⟨56, _⟩ => ⟨S_, .i32⟩
  | .hbm, ⟨57, _⟩ => ⟨S24x4, .i32⟩
  | .hbm, ⟨58, _⟩ => ⟨S24x4, .i32⟩
  | .hbm, ⟨59, _⟩ => ⟨S24x4, .i32⟩
  | .hbm, ⟨60, _⟩ => ⟨S24x4, .i32⟩
  | .hbm, ⟨61, _⟩ => ⟨S24x4x1, .i32⟩
  | .hbm, ⟨62, _⟩ => ⟨S24x4x1, .i32⟩
  | .hbm, ⟨63, _⟩ => ⟨S24x4x2, .i32⟩
  | .hbm, ⟨64, _⟩ => ⟨S32x24x4, .f32⟩
  | .hbm, ⟨65, _⟩ => ⟨S_, .f32⟩
  | .hbm, ⟨66, _⟩ => ⟨S32x24, .f32⟩
  | .hbm, ⟨67, _⟩ => ⟨S_, .f32⟩
  | .hbm, ⟨68, _⟩ => ⟨S32x24, .f32⟩
  | .hbm, ⟨69, _⟩ => ⟨S32x24, .f32⟩
  | .hbm, ⟨70, _⟩ => ⟨S_, .f32⟩
  | .hbm, ⟨71, _⟩ => ⟨S32, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S32x65536, .f32⟩
  | .hbm, ⟨80, _⟩ => ⟨S32x65536, .f32⟩
  | .hbm, ⟨81, _⟩ => ⟨S_, .f32⟩
  | .hbm, ⟨82, _⟩ => ⟨S32x65536, .f32⟩
  | .hbm, ⟨83, _⟩ => ⟨S32x65536, .f32⟩
  | .hbm, ⟨84, _⟩ => ⟨S32x65536, .f32⟩
  | .hbm, ⟨85, _⟩ => ⟨S32x65536, .f32⟩
  | .hbm, ⟨86, _⟩ => ⟨S_, .f32⟩
  | .hbm, ⟨87, _⟩ => ⟨S32x65536, .f32⟩
  | .hbm, ⟨88, _⟩ => ⟨S32x65536, .f32⟩
  | .hbm, ⟨89, _⟩ => ⟨S32x65536, .f32⟩
  | .hbm, ⟨90, _⟩ => ⟨S32x65536, .f32⟩
  | .hbm, ⟨91, _⟩ => ⟨S32x65536, .f32⟩
  | .hbm, ⟨92, _⟩ => ⟨S32x65536, .f32⟩
  | .hbm, ⟨93, _⟩ => ⟨S32x65536, .f32⟩
  | .hbm, ⟨94, _⟩ => ⟨S32x65536, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S32x65536x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_cst_12 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_14 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev main_cst_17 : Ref sig .tc := ⟨.hbm, 100, rfl⟩
abbrev main_v66 : Ref sig .tc := ⟨.hbm, 101, rfl⟩
abbrev main_cst_18 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S32_S32x1_0 : S32.BroadcastsInDim S32x1 (![0] : Fin 1 → Fin S32x1.rank)
  bcast_S1x65536_S32x65536_0_1 : S1x65536.BroadcastsInDim S32x65536 (![0, 1] : Fin 2 → Fin S32x65536.rank)
  bcast_S32x1_S32x65536_0_1 : S32x1.BroadcastsInDim S32x65536 (![0, 1] : Fin 2 → Fin S32x65536.rank)
  reducesTo_S32x65536_S32_d1 : S32x65536.ReducesTo [1] S32
  h_S_ : 0 < S_.numel
  bcast_S_S32x65536x4 : S_.BroadcastsInDim S32x65536x4 (![] : Fin 0 → Fin S32x65536x4.rank)
  bcast_S32x65536_S32x65536x1_0_1 : S32x65536.BroadcastsInDim S32x65536x1 (![0, 1] : Fin 2 → Fin S32x65536x1.rank)
  bcast_S32x65536x1_S32x65536x4_0_1_2 : S32x65536x1.BroadcastsInDim S32x65536x4 (![0, 1, 2] : Fin 3 → Fin S32x65536x4.rank)
  reducesTo_S32x65536x4_S32x4_d1 : S32x65536x4.ReducesTo [1] S32x4
  bcast_S32x4_S32x4x1_0_1 : S32x4.BroadcastsInDim S32x4x1 (![0, 1] : Fin 2 → Fin S32x4x1.rank)
  bcast_S32x4x1_S32x4x4_0_1_2 : S32x4x1.BroadcastsInDim S32x4x4 (![0, 1, 2] : Fin 3 → Fin S32x4x4.rank)
  bcast_S32_S32x1x1_0 : S32.BroadcastsInDim S32x1x1 (![0] : Fin 1 → Fin S32x1x1.rank)
  bcast_S32x1x1_S32x4x4_0_1_2 : S32x1x1.BroadcastsInDim S32x4x4 (![0, 1, 2] : Fin 3 → Fin S32x4x4.rank)
  bcast_S4_S1x4_1 : S4.BroadcastsInDim S1x4 (![1] : Fin 1 → Fin S1x4.rank)
  bcast_S_S1x4 : S_.BroadcastsInDim S1x4 (![] : Fin 0 → Fin S1x4.rank)
  bcast_S_S24x4 : S_.BroadcastsInDim S24x4 (![] : Fin 0 → Fin S24x4.rank)
  bcast_S1x4_S24x4_0_1 : S1x4.BroadcastsInDim S24x4 (![0, 1] : Fin 2 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S32x24x4_S32x24_d2 : S32x24x4.ReducesTo [2] S32x24
  bcast_S_S32x24 : S_.BroadcastsInDim S32x24 (![] : Fin 0 → Fin S32x24.rank)
  reducesTo_S32x24_S32_d1 : S32x24.ReducesTo [1] S32
  reducesTo_S32_S_d0 : S32.ReducesTo [0] S_
  bcast_S_S32x65536 : S_.BroadcastsInDim S32x65536 (![] : Fin 0 → Fin S32x65536.rank)
  reducesTo_S32x65536_S_d0_1 : S32x65536.ReducesTo [0, 1] S_
  dot_S32x65536x4_S32x65536x4_S32x4x4_1_1_2_2_0_0_wf : DotDims.WF S32x65536x4 S32x65536x4 S32x4x4 [1] [1] [2] [2] [0] [0]
  gather_S32x4x4_S24x4x2_S32x24x4_0_12_n_n_12_2_3211_wf : GatherDims.WF S32x4x4 S24x4x2 S32x24x4 [0] [1, 2] [] [1, 2] [] 2 ![32, 1, 1]

variable [Facts₀]

def dot_S32x65536x4_S32x65536x4_S32x4x4_1_1_2_2_0_0 : DotDims S32x65536x4 S32x65536x4 S32x4x4 where
  lhsContracting := [1]
  rhsContracting := [1]
  lhsNonContracting := [2]
  rhsNonContracting := [2]
  lhsBatch := [0]
  rhsBatch := [0]
  wf := dot_S32x65536x4_S32x65536x4_S32x4x4_1_1_2_2_0_0_wf
def gather_S32x4x4_S24x4x2_S32x24x4_0_12_n_n_12_2_3211 : GatherDims S32x4x4 S24x4x2 S32x24x4 where
  offsetDims := [0]
  collapsedSliceDims := [1, 2]
  operandBatchingDims := []
  startIndicesBatchingDims := []
  startIndexMap := [1, 2]
  indexVectorDim := 2
  sliceSizes := ![32, 1, 1]
  wf := gather_S32x4x4_S24x4x2_S32x24x4_0_12_n_n_12_2_3211_wf

class Facts : Prop extends Facts₀ where

variable [Facts]
-- ==== Proof.RefTerms.lean ====
/-
  The reference program's result as named terms of its five arguments.

  Each definition is one value of the program's main function written as the composition of the
  operations that compute it, in the order and with the operands the program lists, nothing simplified:
  the frame mask (value 6), the clipped speaker predictions (value 8), the logarithms built on them
  (values 11 and 15), the mask stretched over the speaker axis (values 13 and 19), the five quantities
  fed to the closing arithmetic (values 17, 22, 7, 63, 64) and the closing arithmetic itself (value 68 as
  a function of those five).
-/
import proofs.«107530_j17386027614816_1_alg».proof.ReferenceIdeal

set_option synthInstance.maxSize 4096

noncomputable section

namespace Cert.ReferenceIdeal.RefValue

open Cert.ReferenceIdeal Idealize.ShloMosaic Idealize.SL.Sem

variable {F : FTy → Type} [FloatOps F]
variable [Facts]
open Facts₀ Facts

/-- Value 6: frame `t` of row `b` counts when the frame number is below the row's length (signed
    comparison of 32-bit words), as a float `1` or `0`. -/
def mask (a4 : IVec S32 32) : FVec F S32x65536 .f32 :=
  uitofp .f32
    (cmpi .slt
      (broadcastInDim S32x65536 ![0, 1] bcast_S1x65536_S32x65536_0_1
        (broadcastInDim S1x65536 ![1] bcast_S65536_S1x65536_1 (iotaInDim S65536 32 0)))
      (broadcastInDim S32x65536 ![0, 1] bcast_S32x1_S32x65536_0_1
        (broadcastInDim S32x1 ![0] bcast_S32_S32x1_0 a4)))

/-- Value 8: the speaker predictions clipped into the two literals' interval (the outlined clip
    function, inlined: maximum with the lower literal, then minimum with the upper one). -/
def clipP (a0 : FVec F S32x65536x4 .f32) : FVec F S32x65536x4 .f32 :=
  minimumf
    (broadcastInDim S32x65536x4 ![] bcast_S_S32x65536x4 (id (constant (F := F) S_ .f32 0x3F7FFFFE#32)))
    (maximumf
      (broadcastInDim S32x65536x4 ![] bcast_S_S32x65536x4 (id (constant (F := F) S_ .f32 0x33D6BF95#32)))
      a0)

/-- Value 11: the logarithm of one minus the clipped prediction. -/
def lqV (a0 : FVec F S32x65536x4 .f32) : FVec F S32x65536x4 .f32 :=
  Host.log1p (Host.negf (clipP a0))

/-- Value 15: the logarithm of the clipped prediction minus value 11. -/
def laV (a0 : FVec F S32x65536x4 .f32) : FVec F S32x65536x4 .f32 :=
  subf (Host.log (clipP a0)) (lqV a0)

/-- Values 13 and 19: the frame mask given a unit speaker axis and stretched over the four speakers. -/
def mask3 (a4 : IVec S32 32) : FVec F S32x65536x4 .f32 :=
  broadcastInDim S32x65536x4 ![0, 1, 2] bcast_S32x65536x1_S32x65536x4_0_1_2
    (broadcastInDim S32x65536x1 ![0, 1] bcast_S32x65536_S32x65536x1_0_1 (mask (F := F) a4))

/-- Value 17: minus the contraction over frames of value 15 with the masked labels. -/
def t1 (a0 a2 : FVec F S32x65536x4 .f32) (a4 : IVec S32 32) : FVec F S32x4x4 .f32 :=
  Host.negf
    (Host.dotGeneral dot_S32x65536x4_S32x65536x4_S32x4x4_1_1_2_2_0_0 none (laV a0) (mulf a2 (mask3 a4)))

/-- Value 22: minus the sum over frames of the masked value 11. -/
def t2 (a0 : FVec F S32x65536x4 .f32) (a4 : IVec S32 32) : FVec F S32x4 .f32 :=
  Host.negf
    (Host.reduceAdd (mulf (lqV a0) (mask3 a4)) (constant (F := F) S_ .f32 0x00000000#32)
      reducesTo_S32x65536x4_S32x4_d1 h_S_)

/-- Value 7: the number of counted frames of each row. -/
def mm (a4 : IVec S32 32) : FVec F S32 .f32 :=
  Host.reduceAdd (mask (F := F) a4) (constant (F := F) S_ .f32 0x00000000#32) reducesTo_S32x65536_S32_d1 h_S_

/-- Value 52: the voice-activity predictions clipped (the second outlined clip function, inlined). -/
def clipV (a1 : FVec F S32x65536 .f32) : FVec F S32x65536 .f32 :=
  minimumf
    (broadcastInDim S32x65536 ![] bcast_S_S32x65536 (id (constant (F := F) S_ .f32 0x3F7FFFFE#32)))
    (maximumf
      (broadcastInDim S32x65536 ![] bcast_S_S32x65536 (id (constant (F := F) S_ .f32 0x33D6BF95#32)))
      a1)

/-- Value 62: the masked binary cross-entropy of each frame. -/
def bceM (a1 a3 : FVec F S32x65536 .f32) (a4 : IVec S32 32) : FVec F S32x65536 .f32 :=
  mulf
    (Host.negf
      (addf
        (mulf a3 (Host.log (clipV a1)))
        (mulf
          (subf (broadcastInDim S32x65536 ![] bcast_S_S32x65536 (constant (F := F) S_ .f32 0x3F800000#32)) a3)
          (Host.log1p (Host.negf (clipV a1))))))
    (mask a4)

/-- Value 63: the sum over rows and frames of the masked cross-entropy. -/
def nn (a1 a3 : FVec F S32x65536 .f32) (a4 : IVec S32 32) : FVec F S_ .f32 :=
  Host.reduceAdd (bceM a1 a3 a4) (constant (F := F) S_ .f32 0x00000000#32) reducesTo_S32x65536_S_d0_1 h_S_

/-- Value 64: the number of counted frames of all rows. -/
def dd (a4 : IVec S32 32) : FVec F S_ .f32 :=
  Host.reduceAdd (mask (F := F) a4) (constant (F := F) S_ .f32 0x00000000#32) reducesTo_S32x65536_S_d0_1 h_S_

/-- Value 28: the pairwise cost of assigning predicted speaker `i` to labelled speaker `j`, per row:
    value 17 plus value 22 stretched over `j`, divided by the row's counted frames. -/
def cost (T1 : FVec F S32x4x4 .f32) (T2 : FVec F S32x4 .f32) (M : FVec F S32 .f32) : FVec F S32x4x4 .f32 :=
  Host.divf
    (addf T1
      (broadcastInDim S32x4x4 ![0, 1, 2] bcast_S32x4x1_S32x4x4_0_1_2
        (broadcastInDim S32x4x1 ![0, 1] bcast_S32x4_S32x4x1_0_1 T2)))
    (broadcastInDim S32x4x4 ![0, 1, 2] bcast_S32x1x1_S32x4x4_0_1_2
      (broadcastInDim S32x1x1 ![0] bcast_S32_S32x1x1_0 M))

/-- Value 30: the speaker numbers `0 … 3` as a one-row table. -/
def spk : IVec S1x4 32 :=
  broadcastInDim S1x4 ![1] bcast_S4_S1x4_1 (iotaInDim S4 32 0)

/-- Value 35: value 30 with a negative entry wrapped by adding four. -/
def spkW : IVec S1x4 32 :=
  select
    (cmpi .slt spk (broadcastInDim S1x4 ![] bcast_S_S1x4 (constantI S_ 32 0#32)))
    (addi spk (broadcastInDim S1x4 ![] bcast_S_S1x4 (constantI S_ 32 4#32)))
    spk

/-- The table of the 24 permutations of four speakers, row-major. -/
def perms : IVec S24x4 32 := fun i => lit0 (S24x4.rowMajor i)

/-- Value 40: the permutation table with a negative entry wrapped by adding four. -/
def permsW : IVec S24x4 32 :=
  select
    (cmpi .slt perms (broadcastInDim S24x4 ![] bcast_S_S24x4 (constantI S_ 32 0#32)))
    (addi perms (broadcastInDim S24x4 ![] bcast_S_S24x4 (constantI S_ 32 4#32)))
    perms

/-- Value 44: for permutation `p` and speaker `i`, the pair (i, p(i)) of positions to gather. -/
def gidx : IVec S24x4x2 32 :=
  concatenate S24x4x2 2
    [⟨S24x4x1, broadcastInDim S24x4x1 ![0, 1] bcast_S24x4_S24x4x1_0_1
        (broadcastInDim S24x4 ![0, 1] bcast_S1x4_S24x4_0_1 spkW)⟩,
     ⟨S24x4x1, broadcastInDim S24x4x1 ![0, 1] bcast_S24x4_S24x4x1_0_1 permsW⟩]
    concatenates_S24x4x1_S24x4x1_S24x4x2_d2

/-- Value 51: the permutation-invariant part: gather each permutation's four costs, average them,
    take the least over the 24 permutations, and average over the 32 rows. -/
def pit (C : FVec F S32x4x4 .f32) : FVec F S_ .f32 :=
  Host.divf
    (Host.reduceAdd
      (Host.reduce FloatOps.minimumf
        (Host.divf
          (Host.reduceAdd
            (Host.gather gather_S32x4x4_S24x4x2_S32x24x4_0_12_n_n_12_2_3211 C gidx)
            (constant (F := F) S_ .f32 0x00000000#32) reducesTo_S32x24x4_S32x24_d2 h_S_)
          (broadcastInDim S32x24 ![] bcast_S_S32x24 (constant (F := F) S_ .f32 0x40800000#32)))
        (constant (F := F) S_ .f32 0x7F800000#32) reducesTo_S32x24_S32_d1 h_S_)
      (constant (F := F) S_ .f32 0x00000000#32) reducesTo_S32_S_d0 h_S_)
    (constant (F := F) S_ .f32 0x42000000#32)

/-- Value 68 as a function of values 17, 22, 7, 63 and 64: one times the permutation-invariant part
    plus one half of the voice-activity quotient. -/
def closing (T1 : FVec F S32x4x4 .f32) (T2 : FVec F S32x4 .f32) (M : FVec F S32 .f32)
    (N D : FVec F S_ .f32) : FVec F S_ .f32 :=
  addf
    (mulf (constant (F := F) S_ .f32 0x3F800000#32) (pit (cost T1 T2 M)))
    (mulf (constant (F := F) S_ .f32 0x3F000000#32) (Host.divf N D))

/-- The program's result (value 68) as a term of its five arguments. -/
def result (a0 : FVec F S32x65536x4 .f32) (a1 : FVec F S32x65536 .f32) (a2 : FVec F S32x65536x4 .f32)
    (a3 : FVec F S32x65536 .f32) (a4 : IVec S32 32) : FVec F S_ .f32 :=
  closing (t1 a0 a2 a4) (t2 a0 a4) (mm a4) (nn a1 a3 a4) (dd a4)

end Cert.ReferenceIdeal.RefValue

end
-- ==== Proof.KTailOps.lean ====
/-
  The program's forty-nine operations after the region, read back as one term. `ktail` is their composition as a
  function of the five buffers they read and no operation of theirs writes: the three arrays the region leaves, the
  length words and the table of the twenty-four speaker permutations. `tail_raw`: from any buffer contents, the
  result buffer after the forty-nine operations holds `ktail` of those five buffers' contents (each operation's
  result buffer is replaced by the operation's function of its operands, every other buffer is left as it was).
  `ktail_eq_closing`: with the permutation table at its literal, `ktail` is the reference program's closing
  arithmetic over the same five quantities — the two programs list the same operations over their own copies of the
  shape names and dimension records.
-/
import proofs.«107530_j17386027614816_1_alg».proof.Proof.Gen.KernelIdeal.Frame
import proofs.«107530_j17386027614816_1_alg».proof.Proof.RefTerms
import proofs.«107530_j17386027614816_1_alg».proof.Proof.Gen.ReferenceIdeal
import Idealize.ShloMosaic.Lib.StableHlo.Run

noncomputable section

namespace Cert.KernelIdeal.KTail

open Cert.KernelIdeal
open Idealize.ShloMosaic Idealize.ShloMosaic.TcCoe Idealize.SL.Sem Idealize.ShloMosaic.StableHlo
open Facts₀ Facts

variable {F : FTy → Type} [FloatOps F]

/-- The closing arithmetic of the program's last forty-nine operations as a function of what they read: the three
    arrays the region leaves, the length words and the permutation table. -/
def ktail (T1 : FVec F S32x4x4 .f32) (T2 : FVec F S32x4 .f32) (N7 : FVec F S32x1 .f32) (L : IVec S32 32)
    (C : IVec S24x4 32) : FVec F S_ .f32 :=
  addf
    (mulf (constant S_ .f32 0x3F800000#32)
      (Host.divf
        (Host.reduceAdd
          (Host.reduce FloatOps.minimumf
            (Host.divf
              (Host.reduceAdd
                (Host.gather gather_S32x4x4_S24x4x2_S32x24x4_0_12_n_n_12_2_3211
                  (Host.divf
                    (addf T1
                      (broadcastInDim S32x4x4 ![0, 1, 2] bcast_S32x4x1_S32x4x4_0_1_2
                        (broadcastInDim S32x4x1 ![0, 1] bcast_S32x4_S32x4x1_0_1 T2)))
                    (broadcastInDim S32x4x4 ![0, 1, 2] bcast_S32x1x1_S32x4x4_0_1_2
                      (broadcastInDim S32x1x1 ![0] bcast_S32_S32x1x1_0 (sitofp .f32 L))))
                  (concatenate S24x4x2 2
                    [⟨S24x4x1,
                        broadcastInDim S24x4x1 ![0, 1] bcast_S24x4_S24x4x1_0_1
                          (broadcastInDim S24x4 ![0, 1] bcast_S1x4_S24x4_0_1
                            (select
                              (cmpi .slt (broadcastInDim S1x4 ![1] bcast_S4_S1x4_1 (iotaInDim S4 32 0))
                                (broadcastInDim S1x4 ![] bcast_S_S1x4 (constantI S_ 32 0#32)))
                              (addi (broadcastInDim S1x4 ![1] bcast_S4_S1x4_1 (iotaInDim S4 32 0))
                                (broadcastInDim S1x4 ![] bcast_S_S1x4 (constantI S_ 32 4#32)))
                              (broadcastInDim S1x4 ![1] bcast_S4_S1x4_1 (iotaInDim S4 32 0))))⟩,
                      ⟨S24x4x1,
                        broadcastInDim S24x4x1 ![0, 1] bcast_S24x4_S24x4x1_0_1
                          (select
                            (cmpi .slt C (broadcastInDim S24x4 ![] bcast_S_S24x4 (constantI S_ 32 0#32)))
                            (addi C (broadcastInDim S24x4 ![] bcast_S_S24x4 (constantI S_ 32 4#32)))
                            C)⟩]
                    concatenates_S24x4x1_S24x4x1_S24x4x2_d2))
                (constant S_ .f32 0x00000000#32) reducesTo_S32x24x4_S32x24_d2 h_S_)
              (broadcastInDim S32x24 ![] bcast_S_S32x24 (constant S_ .f32 0x40800000#32)))
            (constant S_ .f32 0x7F800000#32) reducesTo_S32x24_S32_d1 h_S_)
          (constant S_ .f32 0x00000000#32) reducesTo_S32_S_d0 h_S_)
        (constant S_ .f32 0x42000000#32)))
    (mulf (constant S_ .f32 0x3F000000#32)
      (Host.divf
        (Host.reduceAdd N7 (constant S_ .f32 0x00000000#32) reducesTo_S32x1_S_d0_1 h_S_)
        (Host.reduceAdd (sitofp .f32 L) (constant S_ .f32 0x00000000#32) reducesTo_S32_S_d0 h_S_)))

/-- With the permutation table at its literal, `ktail` is the reference program's closing arithmetic. -/
theorem ktail_eq_closing (T1 : FVec F S32x4x4 .f32) (T2 : FVec F S32x4 .f32) (N7 : FVec F S32x1 .f32) (L : IVec S32 32) :
    ktail T1 T2 N7 L (fun i => lit0 (S24x4.rowMajor i))
      = Cert.ReferenceIdeal.RefValue.closing (F := F) T1 T2 (sitofp .f32 L)
          (Host.reduceAdd (F := F) N7 (constant (F := F) S_ .f32 0x00000000#32) reducesTo_S32x1_S_d0_1 h_S_)
          (Host.reduceAdd (F := F) (sitofp .f32 L) (constant (F := F) S_ .f32 0x00000000#32) reducesTo_S32_S_d0 h_S_) := by
  unfold ktail Cert.ReferenceIdeal.RefValue.closing Cert.ReferenceIdeal.RefValue.pit Cert.ReferenceIdeal.RefValue.cost
    Cert.ReferenceIdeal.RefValue.gidx Cert.ReferenceIdeal.RefValue.spkW Cert.ReferenceIdeal.RefValue.spk
    Cert.ReferenceIdeal.RefValue.permsW Cert.ReferenceIdeal.RefValue.perms
  rfl

set_option maxRecDepth 8192 in
set_option maxHeartbeats 800000 in
/-- From any buffer contents `W`, the result buffer after the forty-nine operations holds `ktail` of the contents
    of the five buffers they read. -/
theorem tail_raw (W : Valuation τ sig (Elt F)) :
    StableHlo.after Gen.hostOps1 W (Proc.devRef .tc main_v39)
      = ktail (F := F) (W (Proc.devRef .tc main_v3_0)) (W (Proc.devRef .tc main_v3_1)) (W (Proc.devRef .tc main_v3_2))
          (W (Proc.devRef .tc main_arg4)) (W (Proc.devRef .tc main_c)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

end Cert.KernelIdeal.KTail

end
-- ==== Proof.KTail.lean ====
/-
  The kernel program's run read back at its result. The region leaves its three output arrays; the forty-nine
  operations after it read those, the length words (which no operation writes) and the permutation table (a literal
  written before the region), and write the result buffer. So every weakly fair execution of the program terminates
  with the result buffer at the reference program's closing arithmetic over: the first two output arrays, the length
  words converted to floats, the total of the third output array, and the total of the converted length words; and
  with the five arguments unchanged.
-/
import proofs.«107530_j17386027614816_1_alg».proof.Proof.KTailOps
import Idealize.ShloMosaic.Lib.Pipeline.Value

noncomputable section

namespace Cert.KernelIdeal.KTail

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The permutation table as the region finds it: the literal the first operation before the region writes. -/
theorem V0_main_c (c : Dev nD) : V0 m c (Proc.devRef .tc main_c) = fun i => lit0 (S24x4.rowMajor i) := by
  show StableHlo.after hostOps0 (fun b => m (c, b)) (Proc.devRef .tc main_c) = _
  after_results
  rfl

/-- The result buffer after the operations that follow the region: the reference program's closing arithmetic over the
    region's three output arrays and the length words. -/
theorem tail_eq (c : Dev nD) :
    Pipeline.afterTail₀ cfgs (dats m) 0 (V0 m) [hostOps1] c main_v39
      = Cert.ReferenceIdeal.RefValue.closing (F := F)
          ((dats m 0 c).arrAt 5 cfg0.N) ((dats m 0 c).arrAt 6 cfg0.N)
          (sitofp .f32 (m ((c : Thread nD τ).loc main_arg4)))
          (Host.reduceAdd (F := F) ((dats m 0 c).arrAt 7 cfg0.N) (constant (F := F) S_ .f32 0x00000000#32)
            Facts₀.reducesTo_S32x1_S_d0_1 Facts₀.h_S_)
          (Host.reduceAdd (F := F) (sitofp .f32 (m ((c : Thread nD τ).loc main_arg4)))
            (constant (F := F) S_ .f32 0x00000000#32) Facts₀.reducesTo_S32_S_d0 Facts₀.h_S_) := by
  unfold Pipeline.afterTail₀
  show StableHlo.after hostOps1 _ (Proc.devRef .tc main_v39) = _
  refine (tail_raw _).trans ?_
  have e5 := Pipeline.withArrays_arr (τ := τ) spec0 launch0.win.arr_inj c (V0 m c)
    (fun w => (dats m 0 c).arrAt w cfg0.N) 5
  have e6 := Pipeline.withArrays_arr (τ := τ) spec0 launch0.win.arr_inj c (V0 m c)
    (fun w => (dats m 0 c).arrAt w cfg0.N) 6
  have e7 := Pipeline.withArrays_arr (τ := τ) spec0 launch0.win.arr_inj c (V0 m c)
    (fun w => (dats m 0 c).arrAt w cfg0.N) 7
  have e4 := (Pipeline.withArrays_of_ne spec0 c (V0 m c) (fun w => (dats m 0 c).arrAt w cfg0.N) main_arg4
    (by exact (by decide : ∀ w, Pipeline.arrRef spec0 w ≠ main_arg4))).trans (V_main_arg4 m c)
  have ec := (Pipeline.withArrays_of_ne spec0 c (V0 m c) (fun w => (dats m 0 c).arrAt w cfg0.N) main_c
    (by exact (by decide : ∀ w, Pipeline.arrRef spec0 w ≠ main_c))).trans (V0_main_c m c)
  rw [e5, e6, e7, e4, ec]
  exact ktail_eq_closing _ _ _ _

/-- On every device, for any float values, from any memory with zero counters: every weakly fair execution of the
    program terminates with the result buffer at the closing arithmetic over the region's three output arrays and the
    length words, and with the five arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v39)
        = Cert.ReferenceIdeal.RefValue.closing (F := F)
            ((dats m 0 c).arrAt 5 cfg0.N) ((dats m 0 c).arrAt 6 cfg0.N)
            (sitofp .f32 (m ((c : Thread nD τ).loc main_arg4)))
            (Host.reduceAdd (F := F) ((dats m 0 c).arrAt 7 cfg0.N) (constant (F := F) S_ .f32 0x00000000#32)
              Facts₀.reducesTo_S32x1_S_d0_1 Facts₀.h_S_)
            (Host.reduceAdd (F := F) (sitofp .f32 (m ((c : Thread nD τ).loc main_arg4)))
              (constant (F := F) S_ .f32 0x00000000#32) Facts₀.reducesTo_S32_S_d0 Facts₀.h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v39 (Pipeline.mem_restRefs_of main_v39 (by decide) (by decide))).trans (tail_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.KernelIdeal.KTail

end
-- ==== Proof.KOut.lean ====
/-
  What the kernel's body leaves in its three accumulators at one grid point, as values.
  At a point that is not the first of its row of time blocks the body adds the point's three terms
  (`stepV5`, `stepV6`, `stepV7` of the length words, the four speaker slabs of the prediction and
  label blocks, and the two voice-activity blocks) to what the point before left; at the first point of
  a row it first stores zeros and adds to those.
-/
import proofs.«107530_j17386027614816_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KOut
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Speaker slab `k` of a `[4,16,4096]` block: the `[1,16,4096]` piece at offset `(k, 0, 0)`. -/
abbrev sl0 (x : Vec F S4x16x4096 .f32) : Vec F S1x16x4096 .f32 := View.ld x (Rect.unit ![0, 0, 0] ![1, 16, 4096] inb_S4x16x4096_S1x16x4096_0_0_0)
abbrev sl1 (x : Vec F S4x16x4096 .f32) : Vec F S1x16x4096 .f32 := View.ld x (Rect.unit ![1, 0, 0] ![1, 16, 4096] inb_S4x16x4096_S1x16x4096_1_0_0)
abbrev sl2 (x : Vec F S4x16x4096 .f32) : Vec F S1x16x4096 .f32 := View.ld x (Rect.unit ![2, 0, 0] ![1, 16, 4096] inb_S4x16x4096_S1x16x4096_2_0_0)
abbrev sl3 (x : Vec F S4x16x4096 .f32) : Vec F S1x16x4096 .f32 := View.ld x (Rect.unit ![3, 0, 0] ![1, 16, 4096] inb_S4x16x4096_S1x16x4096_3_0_0)

/-- The three terms of a point, of its input blocks. -/
abbrev term5 (i : grid0.Coords) (x0 : Vec F S16x1 .i32) (x1 x2 : Vec F S4x16x4096 .f32) : FVec F S16x4x4 .f32 :=
  k0_pay28 (k0_pay16 (k0_pay13 (sl2 x1))) (k0_pay19 (sl3 x1)) (k0_pay20 (k0_pay6 i x0) (sl0 x2)) (k0_pay21 (k0_pay6 i x0) (sl1 x2)) (k0_pay22 (k0_pay6 i x0) (sl2 x2)) (k0_pay23 (k0_pay6 i x0) (sl3 x2))
    (k0_pay25 (k0_pay9 (sl0 x1)) (k0_pay21 (k0_pay6 i x0) (sl1 x2)) (k0_pay22 (k0_pay6 i x0) (sl2 x2)) (k0_pay23 (k0_pay6 i x0) (sl3 x2)) (k0_pay24 (k0_pay6 i x0) (k0_pay9 (sl0 x1)) (sl0 x2)))
    (k0_pay26 (k0_pay12 (sl1 x1)) (k0_pay20 (k0_pay6 i x0) (sl0 x2)) (k0_pay21 (k0_pay6 i x0) (sl1 x2)) (k0_pay22 (k0_pay6 i x0) (sl2 x2)) (k0_pay23 (k0_pay6 i x0) (sl3 x2)))
    (k0_pay27 (k0_pay16 (k0_pay13 (sl2 x1))) (k0_pay20 (k0_pay6 i x0) (sl0 x2)))
abbrev term6 (i : grid0.Coords) (x0 : Vec F S16x1 .i32) (x1 : Vec F S4x16x4096 .f32) : FVec F S16x4 .f32 :=
  k0_pay31 (k0_pay6 i x0) (k0_pay11 (sl1 x1)) (k0_pay15 (k0_pay13 (sl2 x1))) (k0_pay18 (sl3 x1)) (k0_pay29 (k0_pay6 i x0) (k0_pay8 (sl0 x1))) (k0_pay30 (F := F))
abbrev term7 (i : grid0.Coords) (x0 : Vec F S16x1 .i32) (x3 x4 : Vec F S16x4096 .f32) : FVec F S16x1 .f32 := k0_pay32 (k0_pay6 i x0) x3 x4

theorem out_B_5 (c : Dev nD) (i : grid0.Coords) (arg2 : Memref sig .tc .vmem S16x1 .i32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4x4 .f32) (harg7 : arg7.IsWhole) (arg8 : Memref sig .tc .vmem S16x4 .f32) (harg8 : arg8.IsWhole) (arg9 : Memref sig .tc .vmem S16x1 .f32) (harg9 : arg9.IsWhole) (hc0 : ¬cond0_0 i)
    (x0 : Vec F S16x1 .i32) (x1 : Vec F S4x16x4096 .f32) (x2 : Vec F S4x16x4096 .f32) (x3 : Vec F S16x4096 .f32) (x4 : Vec F S16x4096 .f32) (xo5 : Vec F S16x4x4 .f32) (xo6 : Vec F S16x4 .f32) (xo7 : Vec F S16x1 .f32) :
    out0_B_5 c i arg2 harg2 arg3 harg3 arg4 harg4 arg5 harg5 arg6 harg6 arg7 harg7 arg8 harg8 arg9 harg9 hc0 x0 x1 x2 x3 x4 xo5 xo6 xo7 = k0_pay33 (term5 i x0 x1 x2) xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S16x1) hz2, View.ld_unit_zero (S := S16x4096) hz2, View.ld_unit_zero (S := S16x4x4) hz3, View.ld_unit_zero (S := S16x4) hz2]

theorem out_B_6 (c : Dev nD) (i : grid0.Coords) (arg2 : Memref sig .tc .vmem S16x1 .i32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4x4 .f32) (harg7 : arg7.IsWhole) (arg8 : Memref sig .tc .vmem S16x4 .f32) (harg8 : arg8.IsWhole) (arg9 : Memref sig .tc .vmem S16x1 .f32) (harg9 : arg9.IsWhole) (hc0 : ¬cond0_0 i)
    (x0 : Vec F S16x1 .i32) (x1 : Vec F S4x16x4096 .f32) (x2 : Vec F S4x16x4096 .f32) (x3 : Vec F S16x4096 .f32) (x4 : Vec F S16x4096 .f32) (xo5 : Vec F S16x4x4 .f32) (xo6 : Vec F S16x4 .f32) (xo7 : Vec F S16x1 .f32) :
    out0_B_6 c i arg2 harg2 arg3 harg3 arg4 harg4 arg5 harg5 arg6 harg6 arg7 harg7 arg8 harg8 arg9 harg9 hc0 x0 x1 x2 x3 x4 xo5 xo6 xo7 = k0_pay1 (term6 i x0 x1) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S16x1) hz2, View.ld_unit_zero (S := S16x4096) hz2, View.ld_unit_zero (S := S16x4x4) hz3, View.ld_unit_zero (S := S16x4) hz2]

theorem out_B_7 (c : Dev nD) (i : grid0.Coords) (arg2 : Memref sig .tc .vmem S16x1 .i32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4x4 .f32) (harg7 : arg7.IsWhole) (arg8 : Memref sig .tc .vmem S16x4 .f32) (harg8 : arg8.IsWhole) (arg9 : Memref sig .tc .vmem S16x1 .f32) (harg9 : arg9.IsWhole) (hc0 : ¬cond0_0 i)
    (x0 : Vec F S16x1 .i32) (x1 : Vec F S4x16x4096 .f32) (x2 : Vec F S4x16x4096 .f32) (x3 : Vec F S16x4096 .f32) (x4 : Vec F S16x4096 .f32) (xo5 : Vec F S16x4x4 .f32) (xo6 : Vec F S16x4 .f32) (xo7 : Vec F S16x1 .f32) :
    out0_B_7 c i arg2 harg2 arg3 harg3 arg4 harg4 arg5 harg5 arg6 harg6 arg7 harg7 arg8 harg8 arg9 harg9 hc0 x0 x1 x2 x3 x4 xo5 xo6 xo7 = k0_pay2 (term7 i x0 x3 x4) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S16x1) hz2, View.ld_unit_zero (S := S16x4096) hz2, View.ld_unit_zero (S := S16x4x4) hz3, View.ld_unit_zero (S := S16x4) hz2]

theorem out_A_5 (c : Dev nD) (i : grid0.Coords) (arg2 : Memref sig .tc .vmem S16x1 .i32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4x4 .f32) (harg7 : arg7.IsWhole) (arg8 : Memref sig .tc .vmem S16x4 .f32) (harg8 : arg8.IsWhole) (arg9 : Memref sig .tc .vmem S16x1 .f32) (harg9 : arg9.IsWhole) (hc0 : cond0_0 i)
    (x0 : Vec F S16x1 .i32) (x1 : Vec F S4x16x4096 .f32) (x2 : Vec F S4x16x4096 .f32) (x3 : Vec F S16x4096 .f32) (x4 : Vec F S16x4096 .f32) :
    out0_A_5 c i arg2 harg2 arg3 harg3 arg4 harg4 arg5 harg5 arg6 harg6 arg7 harg7 arg8 harg8 arg9 harg9 hc0 x0 x1 x2 x3 x4 = k0_pay33 (term5 i x0 x1 x2) (k0_pay3 (F := F)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S16x4x4) hz3, View.readCov_unit_zero (S := S16x4x4) _ hz3]
  simp only [View.readAt_eq_ld, harg2.read_unread, harg3.read_unread, harg4.read_unread, harg5.read_unread, harg6.read_unread, harg7.read_unread, harg8.read_unread, harg9.read_unread, View.ld_unit_zero (S := S16x1) hz2, View.ld_unit_zero (S := S16x4096) hz2, View.ld_unit_zero (S := S16x4x4) hz3, View.ld_unit_zero (S := S16x4) hz2]

theorem out_A_6 (c : Dev nD) (i : grid0.Coords) (arg2 : Memref sig .tc .vmem S16x1 .i32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4x4 .f32) (harg7 : arg7.IsWhole) (arg8 : Memref sig .tc .vmem S16x4 .f32) (harg8 : arg8.IsWhole) (arg9 : Memref sig .tc .vmem S16x1 .f32) (harg9 : arg9.IsWhole) (hc0 : cond0_0 i)
    (x0 : Vec F S16x1 .i32) (x1 : Vec F S4x16x4096 .f32) (x2 : Vec F S4x16x4096 .f32) (x3 : Vec F S16x4096 .f32) (x4 : Vec F S16x4096 .f32) :
    out0_A_6 c i arg2 harg2 arg3 harg3 arg4 harg4 arg5 harg5 arg6 harg6 arg7 harg7 arg8 harg8 arg9 harg9 hc0 x0 x1 x2 x3 x4 = k0_pay1 (term6 i x0 x1) (k0_pay4 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S16x4) hz2, View.readCov_unit_zero (S := S16x4) _ hz2]
  simp only [View.readAt_eq_ld, harg2.read_unread, harg3.read_unread, harg4.read_unread, harg5.read_unread, harg6.read_unread, harg7.read_unread, harg8.read_unread, harg9.read_unread, View.ld_unit_zero (S := S16x1) hz2, View.ld_unit_zero (S := S16x4096) hz2, View.ld_unit_zero (S := S16x4x4) hz3, View.ld_unit_zero (S := S16x4) hz2]

theorem out_A_7 (c : Dev nD) (i : grid0.Coords) (arg2 : Memref sig .tc .vmem S16x1 .i32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4x4 .f32) (harg7 : arg7.IsWhole) (arg8 : Memref sig .tc .vmem S16x4 .f32) (harg8 : arg8.IsWhole) (arg9 : Memref sig .tc .vmem S16x1 .f32) (harg9 : arg9.IsWhole) (hc0 : cond0_0 i)
    (x0 : Vec F S16x1 .i32) (x1 : Vec F S4x16x4096 .f32) (x2 : Vec F S4x16x4096 .f32) (x3 : Vec F S16x4096 .f32) (x4 : Vec F S16x4096 .f32) :
    out0_A_7 c i arg2 harg2 arg3 harg3 arg4 harg4 arg5 harg5 arg6 harg6 arg7 harg7 arg8 harg8 arg9 harg9 hc0 x0 x1 x2 x3 x4 = k0_pay2 (term7 i x0 x3 x4) (k0_pay5 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S16x1) hz2, View.readCov_unit_zero (S := S16x1) _ hz2]
  simp only [View.readAt_eq_ld, harg2.read_unread, harg3.read_unread, harg4.read_unread, harg5.read_unread, harg6.read_unread, harg7.read_unread, harg8.read_unread, harg9.read_unread, View.ld_unit_zero (S := S16x1) hz2, View.ld_unit_zero (S := S16x4096) hz2, View.ld_unit_zero (S := S16x4x4) hz3, View.ld_unit_zero (S := S16x4) hz2]

end Cert.KernelIdeal.KOut

end
-- ==== Proof.KAcc.lean ====
/-
  The three accumulators over a row of sixteen time blocks. What the output buffers hold after grid
  point `n` resets at the points divisible by 16 (zeros plus the point's term) and adds the point's term
  to what the point before left elsewhere; so at the last point `16 q + 15` of a row each buffer holds,
  index by index, zero plus the sum of the sixteen points' terms.
-/
import proofs.«107530_j17386027614816_1_alg».proof.Proof.KOut
import Idealize.ShloMosaic.Lib.Pipeline.Value
import Idealize.ShloMosaic.Lib.ValueIdx
import Idealize.ShloMosaic.PureOps.Ideal

noncomputable section

open scoped BigOperators
open Idealize.ShloMosaic Idealize.ShloMosaic.TcCoe Idealize.SL.Sem Idealize.ShloMosaic.ValueIdx
open Idealize.ShloMosaic.Pipeline (Dat accAt eq_accAt_of_mod accAt_add_apply)

namespace Cert.KernelIdeal.KAcc
open Cert.KernelIdeal Cert.KernelIdeal.Gen Cert.KernelIdeal.KOut
variable (m : (ℓ : Loc nD τ sig) → Buf (Elt Ideal) ℓ)

/-- The three terms of grid point `n`. -/
def T5 (c : Dev nD) (n : ℕ) (h : n < cfg0.N) : FVec Ideal S16x4x4 .f32 :=
  term5 (F := Ideal) (grid0.coords ⟨n, h⟩) (iblk m c 0 ⟨n, h⟩) (iblk m c 1 ⟨n, h⟩) (iblk m c 2 ⟨n, h⟩)
def T6 (c : Dev nD) (n : ℕ) (h : n < cfg0.N) : FVec Ideal S16x4 .f32 :=
  term6 (F := Ideal) (grid0.coords ⟨n, h⟩) (iblk m c 0 ⟨n, h⟩) (iblk m c 1 ⟨n, h⟩)
def T7 (c : Dev nD) (n : ℕ) (h : n < cfg0.N) : FVec Ideal S16x1 .f32 :=
  term7 (F := Ideal) (grid0.coords ⟨n, h⟩) (iblk m c 0 ⟨n, h⟩) (iblk m c 3 ⟨n, h⟩) (iblk m c 4 ⟨n, h⟩)

/-- The same as functions of every natural number (zero past the grid: never used). -/
def M5 (c : Dev nD) (n : ℕ) : S16x4x4.Idx → EReal := if h : n < cfg0.N then T5 m c n h else fun _ => 0
def M6 (c : Dev nD) (n : ℕ) : S16x4.Idx → EReal := if h : n < cfg0.N then T6 m c n h else fun _ => 0
def M7 (c : Dev nD) (n : ℕ) : S16x1.Idx → EReal := if h : n < cfg0.N then T7 m c n h else fun _ => 0

/-- The zero the accumulators start from. -/
abbrev z : EReal := Ideal.ofBits .f32 0x00000000#32

theorem reset5 (c : Dev nD) (n : ℕ) (h : n < cfg0.N) (h0 : n % 16 = 0) :
    (outsAt0 m c n h).1 = k0_pay33 (F := Ideal) (T5 m c n h) (k0_pay3 (F := Ideal)) := by
  rw [outsAt0_A m c ⟨n, h⟩ h0]
  dsimp only
  exact out_A_5 (F := Ideal) ..
theorem reset6 (c : Dev nD) (n : ℕ) (h : n < cfg0.N) (h0 : n % 16 = 0) :
    (outsAt0 m c n h).2.1 = k0_pay1 (F := Ideal) (T6 m c n h) (k0_pay4 (F := Ideal)) := by
  rw [outsAt0_A m c ⟨n, h⟩ h0]
  dsimp only
  exact out_A_6 (F := Ideal) ..
theorem reset7 (c : Dev nD) (n : ℕ) (h : n < cfg0.N) (h0 : n % 16 = 0) :
    (outsAt0 m c n h).2.2 = k0_pay2 (F := Ideal) (T7 m c n h) (k0_pay5 (F := Ideal)) := by
  rw [outsAt0_A m c ⟨n, h⟩ h0]
  dsimp only
  exact out_A_7 (F := Ideal) ..

theorem step5 (c : Dev nD) (n : ℕ) (h : n + 1 < cfg0.N) (h0 : ¬(n + 1) % 16 = 0) :
    (outsAt0 m c (n + 1) h).1 = k0_pay33 (F := Ideal) (T5 m c (n + 1) h) (outsAt0 m c n (Nat.lt_of_succ_lt h)).1 := by
  rw [outsAt0_B m c ⟨n + 1, h⟩ h0]
  dsimp only
  exact out_B_5 (F := Ideal) ..
theorem step6 (c : Dev nD) (n : ℕ) (h : n + 1 < cfg0.N) (h0 : ¬(n + 1) % 16 = 0) :
    (outsAt0 m c (n + 1) h).2.1 = k0_pay1 (F := Ideal) (T6 m c (n + 1) h) (outsAt0 m c n (Nat.lt_of_succ_lt h)).2.1 := by
  rw [outsAt0_B m c ⟨n + 1, h⟩ h0]
  dsimp only
  exact out_B_6 (F := Ideal) ..
theorem step7 (c : Dev nD) (n : ℕ) (h : n + 1 < cfg0.N) (h0 : ¬(n + 1) % 16 = 0) :
    (outsAt0 m c (n + 1) h).2.2 = k0_pay2 (F := Ideal) (T7 m c (n + 1) h) (outsAt0 m c n (Nat.lt_of_succ_lt h)).2.2 := by
  rw [outsAt0_B m c ⟨n + 1, h⟩ h0]
  dsimp only
  exact out_B_7 (F := Ideal) ..

/-- Adding a term to an accumulator, at an index. -/
theorem pay33_apply (T : FVec Ideal S16x4x4 .f32) (acc : Vec Ideal S16x4x4 .f32) (i : S16x4x4.Idx) : k0_pay33 (F := Ideal) T acc i = acc i + T i := by
  unfold k0_pay33; rw [shapeCast_self]; rfl
theorem pay1_apply (T : FVec Ideal S16x4 .f32) (acc : Vec Ideal S16x4 .f32) (i : S16x4.Idx) : k0_pay1 (F := Ideal) T acc i = acc i + T i := by
  unfold k0_pay1; rw [shapeCast_self]; rfl
theorem pay2_apply (T : FVec Ideal S16x1 .f32) (acc : Vec Ideal S16x1 .f32) (i : S16x1.Idx) : k0_pay2 (F := Ideal) T acc i = acc i + T i := by
  unfold k0_pay2; rw [shapeCast_self]; rfl

/-- After the last point of row `q` the pairwise accumulator holds zero plus the sixteen terms. -/
theorem last5 (c : Dev nD) (q : ℕ) (h : 16 * q + 15 < cfg0.N) (i : S16x4x4.Idx) :
    (outsAt0 m c (16 * q + 15) h).1 i = z + ∑ s ∈ Finset.range 16, M5 m c (16 * q + s) i := by
  have e := Pipeline.eq_accAt (N := cfg0.N) (fun n h => (outsAt0 m c n h).1) 16
    (fun n h => k0_pay33 (F := Ideal) (T5 m c n h) (k0_pay3 (F := Ideal))) (fun n h acc => k0_pay33 (F := Ideal) (T5 m c n h) acc)
    (fun n h h0 => reset5 m c n h h0) (fun n h h0 => step5 m c n h h0) q 15 (by omega) h
  rw [e]
  refine Pipeline.accAt_add_apply _ _ (fun _ => z) (M5 m c) (16 * q) 15 (fun hb i => ?_) (fun n hn acc i _ _ => ?_) 15 le_rfl h i
  · rw [pay33_apply]; unfold M5; rw [dif_pos hb]; rfl
  · rw [pay33_apply]; unfold M5; rw [dif_pos hn]

theorem last6 (c : Dev nD) (q : ℕ) (h : 16 * q + 15 < cfg0.N) (i : S16x4.Idx) :
    (outsAt0 m c (16 * q + 15) h).2.1 i = z + ∑ s ∈ Finset.range 16, M6 m c (16 * q + s) i := by
  have e := Pipeline.eq_accAt (N := cfg0.N) (fun n h => (outsAt0 m c n h).2.1) 16
    (fun n h => k0_pay1 (F := Ideal) (T6 m c n h) (k0_pay4 (F := Ideal))) (fun n h acc => k0_pay1 (F := Ideal) (T6 m c n h) acc)
    (fun n h h0 => reset6 m c n h h0) (fun n h h0 => step6 m c n h h0) q 15 (by omega) h
  rw [e]
  refine Pipeline.accAt_add_apply _ _ (fun _ => z) (M6 m c) (16 * q) 15 (fun hb i => ?_) (fun n hn acc i _ _ => ?_) 15 le_rfl h i
  · rw [pay1_apply]; unfold M6; rw [dif_pos hb]; rfl
  · rw [pay1_apply]; unfold M6; rw [dif_pos hn]

theorem last7 (c : Dev nD) (q : ℕ) (h : 16 * q + 15 < cfg0.N) (i : S16x1.Idx) :
    (outsAt0 m c (16 * q + 15) h).2.2 i = z + ∑ s ∈ Finset.range 16, M7 m c (16 * q + s) i := by
  have e := Pipeline.eq_accAt (N := cfg0.N) (fun n h => (outsAt0 m c n h).2.2) 16
    (fun n h => k0_pay2 (F := Ideal) (T7 m c n h) (k0_pay5 (F := Ideal))) (fun n h acc => k0_pay2 (F := Ideal) (T7 m c n h) acc)
    (fun n h h0 => reset7 m c n h h0) (fun n h h0 => step7 m c n h h0) q 15 (by omega) h
  rw [e]
  refine Pipeline.accAt_add_apply _ _ (fun _ => z) (M7 m c) (16 * q) 15 (fun hb i => ?_) (fun n hn acc i _ _ => ?_) 15 le_rfl h i
  · rw [pay2_apply]; unfold M7; rw [dif_pos hb]; rfl
  · rw [pay2_apply]; unfold M7; rw [dif_pos hn]

end Cert.KernelIdeal.KAcc

end
-- ==== Proof.KFinal.lean ====
/-
  The three output arrays after the run. Output block `(q, 0, …)` is written back once, after the last
  time block of batch block `q`; so row `b` of each array ends at zero plus the sum of the sixteen terms
  of the points `16 (b / 16) + s`, read at row `b % 16` of their block.
-/
import proofs.«107530_j17386027614816_1_alg».proof.Proof.KAcc
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.KFinal
open Cert.KernelIdeal Cert.KernelIdeal.Gen Cert.KernelIdeal.KOut Cert.KernelIdeal.KAcc
variable (m : (ℓ : Loc nD τ sig) → Buf (Elt Ideal) ℓ)

theorem oidx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)
theorem oidx6 : ∀ t : Fin cfg0.N, win0_6.index t 0 = t.val / 16 ∧ win0_6.index t 1 = 0 :=
  (by decide +kernel : ∀ t : Fin grid0.N, win0_6.index t 0 = t.val / 16 ∧ win0_6.index t 1 = 0)
theorem oidx7 : ∀ t : Fin cfg0.N, win0_7.index t 0 = t.val / 16 ∧ win0_7.index t 1 = 0 :=
  (by decide +kernel : ∀ t : Fin grid0.N, win0_7.index t 0 = t.val / 16 ∧ win0_7.index t 1 = 0)

/-- Row `b` within its batch block. -/
def lo (b : Fin 32) : Fin 16 := ⟨b.val % 16, Nat.mod_lt _ (by decide)⟩

/-- The accumulated value of row `b`: zero plus the sixteen terms of the row's points. -/
def g5 (c : Dev nD) (b : Fin 32) (r s : Fin 4) : EReal := z + ∑ k ∈ Finset.range 16, M5 m c (16 * (b.val / 16) + k) (ix3 (lo b) r s)
def g6 (c : Dev nD) (b : Fin 32) (r : Fin 4) : EReal := z + ∑ k ∈ Finset.range 16, M6 m c (16 * (b.val / 16) + k) (ix2 (lo b) r)
def g7 (c : Dev nD) (b : Fin 32) : EReal := z + ∑ k ∈ Finset.range 16, M7 m c (16 * (b.val / 16) + k) (ix2 (lo b) (0 : Fin 1))

def G5 (c : Dev nD) : S32x4x4.Idx → EReal := fun i => g5 m c (i 0) (i 1) (i 2)
def G6 (c : Dev nD) : S32x4.Idx → EReal := fun i => g6 m c (i 0) (i 1)
def G7 (c : Dev nD) : S32x1.Idx → EReal := fun i => g7 m c (i 0)

theorem outs_congr (c : Dev nD) {n n' : ℕ} (e : n = n') (h : n < cfg0.N) (h' : n' < cfg0.N) : outsAt0 m c n h = outsAt0 m c n' h' := by
  subst e; rfl

theorem flushed5 (c : Dev nD) (t : Fin cfg0.N) (hf : (cfg0.win 5).flush t = true) :
    (dats m 0 c).flushed 5 t = ((cfg0.win 5).blk t).view.read (Elt Ideal) (G5 m c) := by
  have h15 : t.val % 16 = 15 := (flush0_5 t).mp hf
  have hN : cfg0.N = 32 := N_0
  have ht := t.isLt
  obtain ⟨e0, e1, e2⟩ := oidx5 t
  show (cfg0.win 5).cut (grid0.coords t) ((dats m 0 c).after 5 t) = _
  rw [after0_5]
  funext y
  rw [View.read_apply]
  have en : t.val = 16 * (t.val / 16) + 15 := by omega
  show (outsAt0 m c t.val t.isLt).1 y = G5 m c (((cfg0.win 5).blk t).view.emb y)
  rw [outs_congr m c en t.isLt (by omega), last5 m c (t.val / 16) (by omega) y]
  have hy0 : (y 0).val < 16 := (y 0).isLt
  have a0 : ((((cfg0.win 5).blk t).view.emb y) 0).val = win0_5.index t 0 * 16 + 1 * (y 0).val := rfl
  have a1 : ((((cfg0.win 5).blk t).view.emb y) 1).val = win0_5.index t 1 * 4 + 1 * (y 1).val := rfl
  have a2 : ((((cfg0.win 5).blk t).view.emb y) 2).val = win0_5.index t 2 * 4 + 1 * (y 2).val := rfl
  unfold G5 g5
  have hq : ((((cfg0.win 5).blk t).view.emb y) 0).val / 16 = t.val / 16 := by rw [a0, e0]; omega
  have hy : (ix3 (lo ((((cfg0.win 5).blk t).view.emb y) 0)) ((((cfg0.win 5).blk t).view.emb y) 1) ((((cfg0.win 5).blk t).view.emb y) 2) : S16x4x4.Idx) = y := by
    funext a; apply Fin.ext
    match a with
    | ⟨0, _⟩ => show ((((cfg0.win 5).blk t).view.emb y) 0).val % 16 = (y 0).val; rw [a0, e0]; omega
    | ⟨1, _⟩ => show ((((cfg0.win 5).blk t).view.emb y) 1).val = (y 1).val; rw [a1, e1]; omega
    | ⟨2, _⟩ => show ((((cfg0.win 5).blk t).view.emb y) 2).val = (y 2).val; rw [a2, e2]; omega
  rw [hq, hy]

theorem mem_blk5 (t : Fin cfg0.N) (i : S32x4x4.Idx) :
    i ∈ ((cfg0.win 5).blk t).view.set ↔ ∀ a : Fin 3, win0_5.index t a * S16x4x4.size a ≤ (i a).val ∧ (i a).val < win0_5.index t a * S16x4x4.size a + S16x4x4.size a := by
  show i ∈ ((View.whole main_v3_0).slice (win0_5.rect t)).set ↔ _
  rw [View.set_slice_whole, Rect.mem_set_unit]
  exact Iff.rfl

theorem cover5 (i : S32x4x4.Idx) : ∃ t : Fin cfg0.N, (cfg0.win 5).flush t = true ∧ i ∈ ((cfg0.win 5).blk t).view.set := by
  have hN : cfg0.N = 32 := N_0
  have hi0 : (i 0).val < 32 := (i 0).isLt
  have hi1 : (i 1).val < 4 := (i 1).isLt
  have hi2 : (i 2).val < 4 := (i 2).isLt
  refine ⟨⟨16 * ((i 0).val / 16) + 15, by omega⟩, (flush0_5 _).mpr (by show (16 * ((i 0).val / 16) + 15) % 16 = 15; omega), ?_⟩
  rw [mem_blk5]
  obtain ⟨e0, e1, e2⟩ := oidx5 ⟨16 * ((i 0).val / 16) + 15, by omega⟩
  intro a
  match a with
  | ⟨0, _⟩ => show win0_5.index _ 0 * 16 ≤ (i 0).val ∧ (i 0).val < win0_5.index _ 0 * 16 + 16; rw [e0]; show (16 * ((i 0).val / 16) + 15) / 16 * 16 ≤ (i 0).val ∧ (i 0).val < (16 * ((i 0).val / 16) + 15) / 16 * 16 + 16; omega
  | ⟨1, _⟩ => show win0_5.index _ 1 * 4 ≤ (i 1).val ∧ (i 1).val < win0_5.index _ 1 * 4 + 4; rw [e1]; omega
  | ⟨2, _⟩ => show win0_5.index _ 2 * 4 ≤ (i 2).val ∧ (i 2).val < win0_5.index _ 2 * 4 + 4; rw [e2]; omega

theorem final5 (c : Dev nD) : (dats m 0 c).arrAt 5 cfg0.N = G5 m c :=
  (dats m 0 c).arrAt_eq_of_cover 5 (G5 m c) (flushed5 m c) cover5

theorem flushed6 (c : Dev nD) (t : Fin cfg0.N) (hf : (cfg0.win 6).flush t = true) :
    (dats m 0 c).flushed 6 t = ((cfg0.win 6).blk t).view.read (Elt Ideal) (G6 m c) := by
  have h15 : t.val % 16 = 15 := (flush0_6 t).mp hf
  have hN : cfg0.N = 32 := N_0
  have ht := t.isLt
  obtain ⟨e0, e1⟩ := oidx6 t
  show (cfg0.win 6).cut (grid0.coords t) ((dats m 0 c).after 6 t) = _
  rw [after0_6]
  funext y
  rw [View.read_apply]
  have en : t.val = 16 * (t.val / 16) + 15 := by omega
  show (outsAt0 m c t.val t.isLt).2.1 y = G6 m c (((cfg0.win 6).blk t).view.emb y)
  rw [outs_congr m c en t.isLt (by omega), last6 m c (t.val / 16) (by omega) y]
  have hy0 : (y 0).val < 16 := (y 0).isLt
  have a0 : ((((cfg0.win 6).blk t).view.emb y) 0).val = win0_6.index t 0 * 16 + 1 * (y 0).val := rfl
  have a1 : ((((cfg0.win 6).blk t).view.emb y) 1).val = win0_6.index t 1 * 4 + 1 * (y 1).val := rfl
  unfold G6 g6
  have hq : ((((cfg0.win 6).blk t).view.emb y) 0).val / 16 = t.val / 16 := by rw [a0, e0]; omega
  have hy : (ix2 (lo ((((cfg0.win 6).blk t).view.emb y) 0)) ((((cfg0.win 6).blk t).view.emb y) 1) : S16x4.Idx) = y := by
    funext a; apply Fin.ext
    match a with
    | ⟨0, _⟩ => show ((((cfg0.win 6).blk t).view.emb y) 0).val % 16 = (y 0).val; rw [a0, e0]; omega
    | ⟨1, _⟩ => show ((((cfg0.win 6).blk t).view.emb y) 1).val = (y 1).val; rw [a1, e1]; omega
  rw [hq, hy]

theorem mem_blk6 (t : Fin cfg0.N) (i : S32x4.Idx) :
    i ∈ ((cfg0.win 6).blk t).view.set ↔ ∀ a : Fin 2, win0_6.index t a * S16x4.size a ≤ (i a).val ∧ (i a).val < win0_6.index t a * S16x4.size a + S16x4.size a := by
  show i ∈ ((View.whole main_v3_1).slice (win0_6.rect t)).set ↔ _
  rw [View.set_slice_whole, Rect.mem_set_unit]
  exact Iff.rfl

theorem cover6 (i : S32x4.Idx) : ∃ t : Fin cfg0.N, (cfg0.win 6).flush t = true ∧ i ∈ ((cfg0.win 6).blk t).view.set := by
  have hN : cfg0.N = 32 := N_0
  have hi0 : (i 0).val < 32 := (i 0).isLt
  have hi1 : (i 1).val < 4 := (i 1).isLt
  refine ⟨⟨16 * ((i 0).val / 16) + 15, by omega⟩, (flush0_6 _).mpr (by show (16 * ((i 0).val / 16) + 15) % 16 = 15; omega), ?_⟩
  rw [mem_blk6]
  obtain ⟨e0, e1⟩ := oidx6 ⟨16 * ((i 0).val / 16) + 15, by omega⟩
  intro a
  match a with
  | ⟨0, _⟩ => show win0_6.index _ 0 * 16 ≤ (i 0).val ∧ (i 0).val < win0_6.index _ 0 * 16 + 16; rw [e0]; show (16 * ((i 0).val / 16) + 15) / 16 * 16 ≤ (i 0).val ∧ (i 0).val < (16 * ((i 0).val / 16) + 15) / 16 * 16 + 16; omega
  | ⟨1, _⟩ => show win0_6.index _ 1 * 4 ≤ (i 1).val ∧ (i 1).val < win0_6.index _ 1 * 4 + 4; rw [e1]; omega

theorem final6 (c : Dev nD) : (dats m 0 c).arrAt 6 cfg0.N = G6 m c :=
  (dats m 0 c).arrAt_eq_of_cover 6 (G6 m c) (flushed6 m c) cover6

theorem flushed7 (c : Dev nD) (t : Fin cfg0.N) (hf : (cfg0.win 7).flush t = true) :
    (dats m 0 c).flushed 7 t = ((cfg0.win 7).blk t).view.read (Elt Ideal) (G7 m c) := by
  have h15 : t.val % 16 = 15 := (flush0_7 t).mp hf
  have hN : cfg0.N = 32 := N_0
  have ht := t.isLt
  obtain ⟨e0, e1⟩ := oidx7 t
  show (cfg0.win 7).cut (grid0.coords t) ((dats m 0 c).after 7 t) = _
  rw [after0_7]
  funext y
  rw [View.read_apply]
  have en : t.val = 16 * (t.val / 16) + 15 := by omega
  show (outsAt0 m c t.val t.isLt).2.2 y = G7 m c (((cfg0.win 7).blk t).view.emb y)
  rw [outs_congr m c en t.isLt (by omega), last7 m c (t.val / 16) (by omega) y]
  have hy0 : (y 0).val < 16 := (y 0).isLt
  have hy1 : (y 1).val < 1 := (y 1).isLt
  have a0 : ((((cfg0.win 7).blk t).view.emb y) 0).val = win0_7.index t 0 * 16 + 1 * (y 0).val := rfl
  unfold G7 g7
  have hq : ((((cfg0.win 7).blk t).view.emb y) 0).val / 16 = t.val / 16 := by rw [a0, e0]; omega
  have hy : (ix2 (lo ((((cfg0.win 7).blk t).view.emb y) 0)) (0 : Fin 1) : S16x1.Idx) = y := by
    funext a; apply Fin.ext
    match a with
    | ⟨0, _⟩ => show ((((cfg0.win 7).blk t).view.emb y) 0).val % 16 = (y 0).val; rw [a0, e0]; omega
    | ⟨1, _⟩ => show 0 = (y 1).val; omega
  rw [hq, hy]

theorem mem_blk7 (t : Fin cfg0.N) (i : S32x1.Idx) :
    i ∈ ((cfg0.win 7).blk t).view.set ↔ ∀ a : Fin 2, win0_7.index t a * S16x1.size a ≤ (i a).val ∧ (i a).val < win0_7.index t a * S16x1.size a + S16x1.size a := by
  show i ∈ ((View.whole main_v3_2).slice (win0_7.rect t)).set ↔ _
  rw [View.set_slice_whole, Rect.mem_set_unit]
  exact Iff.rfl

theorem cover7 (i : S32x1.Idx) : ∃ t : Fin cfg0.N, (cfg0.win 7).flush t = true ∧ i ∈ ((cfg0.win 7).blk t).view.set := by
  have hN : cfg0.N = 32 := N_0
  have hi0 : (i 0).val < 32 := (i 0).isLt
  have hi1 : (i 1).val < 1 := (i 1).isLt
  refine ⟨⟨16 * ((i 0).val / 16) + 15, by omega⟩, (flush0_7 _).mpr (by show (16 * ((i 0).val / 16) + 15) % 16 = 15; omega), ?_⟩
  rw [mem_blk7]
  obtain ⟨e0, e1⟩ := oidx7 ⟨16 * ((i 0).val / 16) + 15, by omega⟩
  intro a
  match a with
  | ⟨0, _⟩ => show win0_7.index _ 0 * 16 ≤ (i 0).val ∧ (i 0).val < win0_7.index _ 0 * 16 + 16; rw [e0]; show (16 * ((i 0).val / 16) + 15) / 16 * 16 ≤ (i 0).val ∧ (i 0).val < (16 * ((i 0).val / 16) + 15) / 16 * 16 + 16; omega
  | ⟨1, _⟩ => show win0_7.index _ 1 * 1 ≤ (i 1).val ∧ (i 1).val < win0_7.index _ 1 * 1 + 1; rw [e1]; omega

theorem final7 (c : Dev nD) : (dats m 0 c).arrAt 7 cfg0.N = G7 m c :=
  (dats m 0 c).arrAt_eq_of_cover 7 (G7 m c) (flushed7 m c) cover7

end Cert.KernelIdeal.KFinal

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.KBlk.lean ====
/-
  The input blocks of a grid point read at an index. Grid point `t` of the 2 x 16 grid is batch block
  `t / 16` and time block `t % 16`; its blocks are rows `16 (t/16) + b'` and frames `4096 (t%16) + t'`
  of the arrays the region finds: the length words as one column, the two speaker-major arrays
  `[4,32,65536]` (the arguments `[32,65536,4]` with the speaker axis moved to the front), and the two
  voice-activity arrays.
-/
import proofs.«107530_j17386027614816_1_alg».proof.Proof.Gen.KernelIdeal.Frame
import proofs.«107530_j17386027614816_1_alg».proof.Proof.LibKeepdims
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KBlk
open Cert.KernelIdeal Cert.KernelIdeal.Gen
variable {F : FTy → Type} [FloatOps F]
variable (m : (ℓ : Loc nD τ sig) → Buf (Elt F) ℓ)

/-- The time-block coordinate of grid point `t`. -/
theorem coords1 : ∀ t : Fin cfg0.N, ((grid0.coords t) 1).val = t.val % 16 :=
  (by decide +kernel : ∀ t : Fin grid0.N, ((grid0.coords t) 1).val = t.val % 16)

/-- The block indices of the five input windows at grid point `t`. -/
theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = 0 ∧ win0_1.index t 1 = t.val / 16 ∧ win0_1.index t 2 = t.val % 16 :=
  (by decide +kernel : ∀ t : Fin grid0.N, win0_1.index t 0 = 0 ∧ win0_1.index t 1 = t.val / 16 ∧ win0_1.index t 2 = t.val % 16)
theorem idx2 : ∀ t : Fin cfg0.N, win0_2.index t 0 = 0 ∧ win0_2.index t 1 = t.val / 16 ∧ win0_2.index t 2 = t.val % 16 :=
  (by decide +kernel : ∀ t : Fin grid0.N, win0_2.index t 0 = 0 ∧ win0_2.index t 1 = t.val / 16 ∧ win0_2.index t 2 = t.val % 16)
theorem idx3 : ∀ t : Fin cfg0.N, win0_3.index t 0 = t.val / 16 ∧ win0_3.index t 1 = t.val % 16 :=
  (by decide +kernel : ∀ t : Fin grid0.N, win0_3.index t 0 = t.val / 16 ∧ win0_3.index t 1 = t.val % 16)
theorem idx4 : ∀ t : Fin cfg0.N, win0_4.index t 0 = t.val / 16 ∧ win0_4.index t 1 = t.val % 16 :=
  (by decide +kernel : ∀ t : Fin grid0.N, win0_4.index t 0 = t.val / 16 ∧ win0_4.index t 1 = t.val % 16)

/-- Row `b'` of batch block `t / 16`, and frame `t'` of time block `t % 16`, as indices of the whole arrays. -/
def rowOf (t : Fin cfg0.N) (b' : Fin 16) : Fin 32 := ⟨16 * (t.val / 16) + b'.val, by
  have := t.isLt; have hN : cfg0.N = 32 := N_0; have := b'.isLt; omega⟩
def frameOf (t : Fin cfg0.N) (t' : Fin 4096) : Fin 65536 := ⟨4096 * (t.val % 16) + t'.val, by
  have := t'.isLt; omega⟩

theorem iblk1_apply (c : Dev nD) (t : Fin cfg0.N) (r : Fin 4) (b' : Fin 16) (t' : Fin 4096) :
    (iblk m c 1 t : Vec F S4x16x4096 .f32) (ix3 r b' t') = V m c main_v0 (ix3 r (rowOf t b') (frameOf t t')) := by
  have hi := idx1 t
  unfold iblk
  rw [View.read_apply]
  show V m c main_v0 _ = V m c main_v0 _
  refine congrArg _ (funext fun a => Fin.ext ?_)
  match a with
  | ⟨0, _⟩ => show win0_1.index t 0 * 4 + 1 * r.val = r.val; rw [hi.1]; omega
  | ⟨1, _⟩ => show win0_1.index t 1 * 16 + 1 * b'.val = 16 * (t.val / 16) + b'.val; rw [hi.2.1]; omega
  | ⟨2, _⟩ => show win0_1.index t 2 * 4096 + 1 * t'.val = 4096 * (t.val % 16) + t'.val; rw [hi.2.2]; omega

theorem iblk2_apply (c : Dev nD) (t : Fin cfg0.N) (r : Fin 4) (b' : Fin 16) (t' : Fin 4096) :
    (iblk m c 2 t : Vec F S4x16x4096 .f32) (ix3 r b' t') = V m c main_v1 (ix3 r (rowOf t b') (frameOf t t')) := by
  have hi := idx2 t
  unfold iblk
  rw [View.read_apply]
  show V m c main_v1 _ = V m c main_v1 _
  refine congrArg _ (funext fun a => Fin.ext ?_)
  match a with
  | ⟨0, _⟩ => show win0_2.index t 0 * 4 + 1 * r.val = r.val; rw [hi.1]; omega
  | ⟨1, _⟩ => show win0_2.index t 1 * 16 + 1 * b'.val = 16 * (t.val / 16) + b'.val; rw [hi.2.1]; omega
  | ⟨2, _⟩ => show win0_2.index t 2 * 4096 + 1 * t'.val = 4096 * (t.val % 16) + t'.val; rw [hi.2.2]; omega

theorem iblk0_apply (c : Dev nD) (t : Fin cfg0.N) (b' : Fin 16) :
    (iblk m c 0 t : Vec F S16x1 .i32) (ix2 b' (0 : Fin 1)) = V m c main_v2 (ix2 (rowOf t b') (0 : Fin 1)) := by
  have hi := idx0 t
  unfold iblk
  rw [View.read_apply]
  show V m c main_v2 _ = V m c main_v2 _
  refine congrArg _ (funext fun a => Fin.ext ?_)
  match a with
  | ⟨0, _⟩ => show win0_0.index t 0 * 16 + 1 * b'.val = 16 * (t.val / 16) + b'.val; rw [hi.1]; omega
  | ⟨1, _⟩ => show win0_0.index t 1 * 1 + 1 * 0 = 0; rw [hi.2]

theorem iblk3_apply (c : Dev nD) (t : Fin cfg0.N) (b' : Fin 16) (t' : Fin 4096) :
    (iblk m c 3 t : Vec F S16x4096 .f32) (ix2 b' t') = V m c main_arg1 (ix2 (rowOf t b') (frameOf t t')) := by
  have hi := idx3 t
  unfold iblk
  rw [View.read_apply]
  show V m c main_arg1 _ = V m c main_arg1 _
  refine congrArg _ (funext fun a => Fin.ext ?_)
  match a with
  | ⟨0, _⟩ => show win0_3.index t 0 * 16 + 1 * b'.val = 16 * (t.val / 16) + b'.val; rw [hi.1]; omega
  | ⟨1, _⟩ => show win0_3.index t 1 * 4096 + 1 * t'.val = 4096 * (t.val % 16) + t'.val; rw [hi.2]; omega

theorem iblk4_apply (c : Dev nD) (t : Fin cfg0.N) (b' : Fin 16) (t' : Fin 4096) :
    (iblk m c 4 t : Vec F S16x4096 .f32) (ix2 b' t') = V m c main_arg3 (ix2 (rowOf t b') (frameOf t t')) := by
  have hi := idx4 t
  unfold iblk
  rw [View.read_apply]
  show V m c main_arg3 _ = V m c main_arg3 _
  refine congrArg _ (funext fun a => Fin.ext ?_)
  match a with
  | ⟨0, _⟩ => show win0_4.index t 0 * 16 + 1 * b'.val = 16 * (t.val / 16) + b'.val; rw [hi.1]; omega
  | ⟨1, _⟩ => show win0_4.index t 1 * 4096 + 1 * t'.val = 4096 * (t.val % 16) + t'.val; rw [hi.2]; omega

/-! ## The arrays the region finds, of the arguments -/

/-- The speaker-major prediction array is the first argument with its last axis moved to the front. -/
theorem V_v0 (c : Dev nD) : (V m c main_v0 : S4x32x65536.Idx → Elt F .f32)
    = transpose S4x32x65536 [2, 0, 1] (m ((c : Thread nD τ).loc main_arg0)) transposes_S32x65536x4_S4x32x65536_2_0_1 := by
  show StableHlo.after hostOps0 (fun b => m (c, b)) (Proc.devRef .tc main_v0) = _
  after_results
theorem V_v1 (c : Dev nD) : (V m c main_v1 : S4x32x65536.Idx → Elt F .f32)
    = transpose S4x32x65536 [2, 0, 1] (m ((c : Thread nD τ).loc main_arg2)) transposes_S32x65536x4_S4x32x65536_2_0_1 := by
  show StableHlo.after hostOps0 (fun b => m (c, b)) (Proc.devRef .tc main_v1) = _
  after_results
theorem V_v2 (c : Dev nD) : (V m c main_v2 : S32x1.Idx → Elt F .i32)
    = shapeCast S32x1 (m ((c : Thread nD τ).loc main_arg4)) shapeCasts_S32_S32x1 := by
  show StableHlo.after hostOps0 (fun b => m (c, b)) (Proc.devRef .tc main_v2) = _
  after_results
  rfl

/-- The speaker-major arrays at `(r, b, t)` are the arguments at `(b, t, r)`; the length column at `(b, 0)` is the length word of row `b`. -/
theorem V_v0_apply (c : Dev nD) (r : Fin 4) (b : Fin 32) (t : Fin 65536) :
    V m c main_v0 (ix3 r b t) = m ((c : Thread nD τ).loc main_arg0) (ix3 b t r) := by
  rw [V_v0]
  refine transpose_apply _ _ _ _ (ix3 b t r) fun a => ?_
  match a with
  | ⟨0, _⟩ => rfl
  | ⟨1, _⟩ => rfl
  | ⟨2, _⟩ => rfl
theorem V_v1_apply (c : Dev nD) (r : Fin 4) (b : Fin 32) (t : Fin 65536) :
    V m c main_v1 (ix3 r b t) = m ((c : Thread nD τ).loc main_arg2) (ix3 b t r) := by
  rw [V_v1]
  refine transpose_apply _ _ _ _ (ix3 b t r) fun a => ?_
  match a with
  | ⟨0, _⟩ => rfl
  | ⟨1, _⟩ => rfl
  | ⟨2, _⟩ => rfl
theorem V_v2_apply (c : Dev nD) (b : Fin 32) :
    V m c main_v2 (ix2 b (0 : Fin 1)) = m ((c : Thread nD τ).loc main_arg4) (ix1 b) := by
  rw [V_v2]
  exact Cert.SupCon.Ker.shapeCast_a_a1_apply _ _ b 0

end Cert.KernelIdeal.KBlk

end
-- ==== Proof.Spec.lean ====
/-
  The loss as one function of the five argument arrays, index by index, on the extended reals.

  For batch row `b`, time frame `t` and speakers `i`, `j`: a prediction is clipped into
  `[lo, hi]` (two single-precision literals strictly between 0 and 1), `lp` is its logarithm, `lq` the
  logarithm of one minus it, `la = lp - lq`; a frame counts (`msk`) when its number, as a 32-bit word, is
  below the row's length word (signed). The five quantities both programs feed to the same closing
  arithmetic are: `T1 b i j = -∑ₜ la(ps b t i) · (lb b t j · msk)`, `T2 b i = -∑ₜ lq(ps b t i) · msk`,
  the counted frames `Mm b = ∑ₜ msk`, the voice-activity numerator `Nn = ∑_b ∑ₜ bce · msk` and the
  denominator `Dd = ∑_b Mm b`.  `accF` is the running total a grid accumulates over the sixteen time blocks
  of one row, in block order, from zero; `tIdx k t'` is frame `t'` of time block `k`.
-/
import Idealize.ShloMosaic.PureOps.Ideal
import Idealize.ShloMosaic.Lib.ValueIdx

noncomputable section

open scoped BigOperators

namespace Diar

open Idealize.ShloMosaic Idealize.ShloMosaic.ValueIdx

/-- The two rank-3 float arguments, the two rank-2 ones, and the lengths, as functions of an index. -/
abbrev A3 := (⟨3, ![32, 65536, 4]⟩ : Shape).Idx → EReal
abbrev A2 := (⟨2, ![32, 65536]⟩ : Shape).Idx → EReal
abbrev L1 := (⟨1, ![32]⟩ : Shape).Idx → BitVec 32

/-- The lower and upper clipping bounds (the literals 1e-7 and 1 - 1e-7 in single precision). -/
def eLo : EReal := Ideal.ofBits .f32 0x33D6BF95#32
def eHi : EReal := Ideal.ofBits .f32 0x3F7FFFFE#32

def clip (x : EReal) : EReal := min eHi (max eLo x)
def lp (x : EReal) : EReal := Ideal.log (clip x)
def lq (x : EReal) : EReal := Ideal.log1p (-(clip x))
def la (x : EReal) : EReal := lp x - lq x

/-- Frame `t` counts for a row whose length word is `l`: `1` when `t <ₛ l` as 32-bit words, else `0`. -/
def msk (l : BitVec 32) (t : ℕ) : EReal := if (BitVec.ofNat 32 t).slt l then 1 else 0

/-- The binary cross-entropy of a clipped prediction `p` against a target `v`. -/
def bce (v p : EReal) : EReal := -(v * lp p + (1 - v) * lq p)

def T1 (ps lb : A3) (len : L1) (b : Fin 32) (i j : Fin 4) : EReal :=
  -(∑ t : Fin 65536, la (ps (ix3 b t i)) * (lb (ix3 b t j) * msk (len (ix1 b)) t.val))

def T2 (ps : A3) (len : L1) (b : Fin 32) (i : Fin 4) : EReal :=
  -(∑ t : Fin 65536, lq (ps (ix3 b t i)) * msk (len (ix1 b)) t.val)

def Mm (len : L1) (b : Fin 32) : EReal := ∑ t : Fin 65536, msk (len (ix1 b)) t.val

def Nn (pv vd : A2) (len : L1) : EReal :=
  ∑ b : Fin 32, ∑ t : Fin 65536, bce (vd (ix2 b t)) (pv (ix2 b t)) * msk (len (ix1 b)) t.val

def Dd (len : L1) : EReal := ∑ b : Fin 32, Mm len b

/-- Frame `t'` of time block `k` (sixteen blocks of 4096 frames). -/
def tIdx (k : Fin 16) (t' : Fin 4096) : Fin 65536 := ⟨4096 * k.val + t'.val, by omega⟩

/-- The running total after block `n`: zero plus block 0's term, then one more term per block. -/
def accF (s : Fin 16 → EReal) : (n : ℕ) → n < 16 → EReal
  | 0, h => 0 + s ⟨0, h⟩
  | n + 1, h => accF s n (Nat.lt_of_succ_lt h) + s ⟨n + 1, h⟩

/-- What time block `k` adds to the three accumulators of row `b`. -/
def step1 (ps lb : A3) (len : L1) (b : Fin 32) (i j : Fin 4) (k : Fin 16) : EReal :=
  0 - ∑ t' : Fin 4096, la (ps (ix3 b (tIdx k t') i)) * (lb (ix3 b (tIdx k t') j) * msk (len (ix1 b)) (tIdx k t').val)

def step2 (ps : A3) (len : L1) (b : Fin 32) (i : Fin 4) (k : Fin 16) : EReal :=
  0 - ∑ t' : Fin 4096, lq (ps (ix3 b (tIdx k t') i)) * msk (len (ix1 b)) (tIdx k t').val

def step3 (pv vd : A2) (len : L1) (b : Fin 32) (k : Fin 16) : EReal :=
  ∑ t' : Fin 4096, (0 - (vd (ix2 b (tIdx k t')) * lp (pv (ix2 b (tIdx k t'))) + (1 - vd (ix2 b (tIdx k t'))) * lq (pv (ix2 b (tIdx k t')))))
    * msk (len (ix1 b)) (tIdx k t').val

end Diar

end
-- ==== Proof.KStepBase.lean ====
/-
  What one grid point of the kernel adds to its three accumulators: the compositions of the generated
  payloads (`stepV5`, `stepV6`, `stepV7`), and the readings of the layout operations they use, each
  stated over variables at an index built from its coordinates: a block `[1,16,4096]` viewed
  `[16,4096]`, a sum along the lanes of a `[16,4096]` array, four columns `[16,1]` laid side by side
  into `[16,4]`, a `[16,4]` array viewed `[16,1,4]`, four such rows stacked into `[16,4,4]`; and the
  clipped logarithms at an element.
-/
import proofs.«107530_j17386027614816_1_alg».proof.Proof.Gen.KernelIdeal.Skeleton
import proofs.«107530_j17386027614816_1_alg».proof.Proof.Spec
import proofs.«107530_j17386027614816_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KStep

open Cert.KernelIdeal Cert.KernelIdeal.Gen Idealize.ShloMosaic Idealize.ShloMosaic.ValueIdx

variable {F : FTy → Type} [FloatOps F]

/-- What one grid point adds to the pairwise accumulator `[16,4,4]`. -/
def stepV5 (i : grid0.Coords) (v7 : Vec F S16x1 .i32) (v13 v24 v35 v46 v57 v60 v63 v66 : Vec F S1x16x4096 .f32) : FVec F S16x4x4 .f32 :=
  k0_pay28 (k0_pay16 (k0_pay13 v35)) (k0_pay19 v46) (k0_pay20 (k0_pay6 i v7) v57) (k0_pay21 (k0_pay6 i v7) v60) (k0_pay22 (k0_pay6 i v7) v63) (k0_pay23 (k0_pay6 i v7) v66)
    (k0_pay25 (k0_pay9 v13) (k0_pay21 (k0_pay6 i v7) v60) (k0_pay22 (k0_pay6 i v7) v63) (k0_pay23 (k0_pay6 i v7) v66) (k0_pay24 (k0_pay6 i v7) (k0_pay9 v13) v57))
    (k0_pay26 (k0_pay12 v24) (k0_pay20 (k0_pay6 i v7) v57) (k0_pay21 (k0_pay6 i v7) v60) (k0_pay22 (k0_pay6 i v7) v63) (k0_pay23 (k0_pay6 i v7) v66))
    (k0_pay27 (k0_pay16 (k0_pay13 v35)) (k0_pay20 (k0_pay6 i v7) v57))

/-- What one grid point adds to the per-speaker accumulator `[16,4]`. -/
def stepV6 (i : grid0.Coords) (v7 : Vec F S16x1 .i32) (v13 v24 v35 v46 : Vec F S1x16x4096 .f32) : FVec F S16x4 .f32 :=
  k0_pay31 (k0_pay6 i v7) (k0_pay11 v24) (k0_pay15 (k0_pay13 v35)) (k0_pay18 v46) (k0_pay29 (k0_pay6 i v7) (k0_pay8 v13)) (k0_pay30 (F := F))

/-- What one grid point adds to the voice-activity accumulator `[16,1]`. -/
def stepV7 (i : grid0.Coords) (v7 : Vec F S16x1 .i32) (v179 v184 : Vec F S16x4096 .f32) : FVec F S16x1 .f32 := k0_pay32 (k0_pay6 i v7) v179 v184

/-! ## Layout operations at an index -/

/-- A block `[1,16,4096]` viewed `[16,4096]` reads, at `(b, t)`, the block at `(0, b, t)`. -/
theorem drop1_apply {α : Type} (v : S1x16x4096.Idx → α) (h : S1x16x4096.ShapeCasts S16x4096) (b' : Fin 16) (t' : Fin 4096) :
    shapeCast S16x4096 v h (ix2 b' t') = v (ix3 (0 : Fin 1) b' t') :=
  shapeCast_apply v h _ _ (by
    rw [Shape.rowMajor_val_three, Shape.rowMajor_val_two]
    show (0 * 16 + b'.val) * 4096 + t'.val = b'.val * 4096 + t'.val
    omega)

/-- The sum along the lanes of a `[16,4096]` array, kept as one column, reads at `(b, 0)` the sum of row `b`. -/
theorem rowsum_apply (x : FVec Ideal S16x4096 .f32) (hr : S16x4096.Reduces [1] S16) (hφ : FKind.Formats .f32)
    (hacc : (0x00000000#32 : BitVec 32) = FKind.add.neutral .f32 hφ) (hc : S16.ShapeCasts S16x1) (b' : Fin 16) :
    shapeCast S16x1 (multiReduction .add [1] S16 x 0x00000000#32 hr hφ hacc) hc (ix2 b' (0 : Fin 1))
      = ∑ t' : Fin 4096, x (ix2 b' t') :=
  (Cert.SupCon.Ker.shapeCast_a_a1_apply _ hc b' 0).trans
    ((Ideal.multiReduction_add_single x _ hr hφ hacc (ix1 b')).trans
      (Finset.sum_congr rfl fun t' _ => congrArg x (Cert.SupCon.Ker.lift_rows hr b' t')))

/-- Four columns `[16,1]` laid side by side into `[16,4]` read, at `(b, r)`, column `r` at `(b, 0)`. -/
theorem col4_apply {α : Type} (c0 c1 c2 c3 : S16x1.Idx → α)
    (h : Shape.Concatenates [S16x1, S16x1, S16x1, S16x1] S16x4 1) (b' : Fin 16) (r : Fin 4) :
    concatenate S16x4 1 [⟨S16x1, c0⟩, ⟨S16x1, c1⟩, ⟨S16x1, c2⟩, ⟨S16x1, c3⟩] h (ix2 b' r)
      = (![c0, c1, c2, c3] r) (ix2 b' (0 : Fin 1)) := by
  have hi : ∀ (rr : Fin 4) (b : Fin S16x1.rank), b.cast (rfl : S16x1.rank = S16x4.rank) ≠ (1 : Fin 2) →
      ((ix2 b' (0 : Fin 1) : S16x1.Idx) b).val = ((ix2 b' rr : S16x4.Idx) (b.cast rfl)).val := by
    intro rr b hb
    match b with
    | ⟨0, _⟩ => rfl
    | ⟨1, _⟩ => exact absurd rfl hb
  match r with
  | ⟨0, _⟩ => exact concatenate_apply_piece (t := S16x4) (1 : Fin 2) [⟨S16x1, c0⟩, ⟨S16x1, c1⟩, ⟨S16x1, c2⟩, ⟨S16x1, c3⟩] h _ 0 (by simp) S16x1 c0 rfl rfl 0 (by simp) (ix2 b' 0) (hi _) rfl
  | ⟨1, _⟩ => exact concatenate_apply_piece (t := S16x4) (1 : Fin 2) [⟨S16x1, c0⟩, ⟨S16x1, c1⟩, ⟨S16x1, c2⟩, ⟨S16x1, c3⟩] h _ 1 (by simp) S16x1 c1 rfl rfl 1 (by simp) (ix2 b' 0) (hi _) rfl
  | ⟨2, _⟩ => exact concatenate_apply_piece (t := S16x4) (1 : Fin 2) [⟨S16x1, c0⟩, ⟨S16x1, c1⟩, ⟨S16x1, c2⟩, ⟨S16x1, c3⟩] h _ 2 (by simp) S16x1 c2 rfl rfl 2 (by simp) (ix2 b' 0) (hi _) rfl
  | ⟨3, _⟩ => exact concatenate_apply_piece (t := S16x4) (1 : Fin 2) [⟨S16x1, c0⟩, ⟨S16x1, c1⟩, ⟨S16x1, c2⟩, ⟨S16x1, c3⟩] h _ 3 (by simp) S16x1 c3 rfl rfl 3 (by simp) (ix2 b' 0) (hi _) rfl

/-- A `[16,4]` array viewed `[16,1,4]` reads, at `(b, 0, s)`, the array at `(b, s)`. -/
theorem cast141_apply {α : Type} (x : S16x4.Idx → α) (h : S16x4.ShapeCasts S16x1x4) (b' : Fin 16) (s : Fin 4) :
    shapeCast S16x1x4 x h (ix3 b' (0 : Fin 1) s) = x (ix2 b' s) :=
  shapeCast_apply x h _ _ (by
    rw [Shape.rowMajor_val_three, Shape.rowMajor_val_two]
    show b'.val * 4 + s.val = (b'.val * 1 + 0) * 4 + s.val
    omega)

/-- Four rows `[16,1,4]` stacked into `[16,4,4]` read, at `(b, r, s)`, row `r` at `(b, 0, s)`. -/
theorem row4_apply {α : Type} (d0 d1 d2 d3 : S16x1x4.Idx → α)
    (h : Shape.Concatenates [S16x1x4, S16x1x4, S16x1x4, S16x1x4] S16x4x4 1) (b' : Fin 16) (r s : Fin 4) :
    concatenate S16x4x4 1 [⟨S16x1x4, d0⟩, ⟨S16x1x4, d1⟩, ⟨S16x1x4, d2⟩, ⟨S16x1x4, d3⟩] h (ix3 b' r s)
      = (![d0, d1, d2, d3] r) (ix3 b' (0 : Fin 1) s) := by
  have hi : ∀ (rr : Fin 4) (b : Fin S16x1x4.rank), b.cast (rfl : S16x1x4.rank = S16x4x4.rank) ≠ (1 : Fin 3) →
      ((ix3 b' (0 : Fin 1) s : S16x1x4.Idx) b).val = ((ix3 b' rr s : S16x4x4.Idx) (b.cast rfl)).val := by
    intro rr b hb
    match b with
    | ⟨0, _⟩ => rfl
    | ⟨1, _⟩ => exact absurd rfl hb
    | ⟨2, _⟩ => rfl
  match r with
  | ⟨0, _⟩ => exact concatenate_apply_piece (t := S16x4x4) (1 : Fin 3) [⟨S16x1x4, d0⟩, ⟨S16x1x4, d1⟩, ⟨S16x1x4, d2⟩, ⟨S16x1x4, d3⟩] h _ 0 (by simp) S16x1x4 d0 rfl rfl 0 (by simp) (ix3 b' 0 s) (hi _) rfl
  | ⟨1, _⟩ => exact concatenate_apply_piece (t := S16x4x4) (1 : Fin 3) [⟨S16x1x4, d0⟩, ⟨S16x1x4, d1⟩, ⟨S16x1x4, d2⟩, ⟨S16x1x4, d3⟩] h _ 1 (by simp) S16x1x4 d1 rfl rfl 1 (by simp) (ix3 b' 0 s) (hi _) rfl
  | ⟨2, _⟩ => exact concatenate_apply_piece (t := S16x4x4) (1 : Fin 3) [⟨S16x1x4, d0⟩, ⟨S16x1x4, d1⟩, ⟨S16x1x4, d2⟩, ⟨S16x1x4, d3⟩] h _ 2 (by simp) S16x1x4 d2 rfl rfl 2 (by simp) (ix3 b' 0 s) (hi _) rfl
  | ⟨3, _⟩ => exact concatenate_apply_piece (t := S16x4x4) (1 : Fin 3) [⟨S16x1x4, d0⟩, ⟨S16x1x4, d1⟩, ⟨S16x1x4, d2⟩, ⟨S16x1x4, d3⟩] h _ 3 (by simp) S16x1x4 d3 rfl rfl 3 (by simp) (ix3 b' 0 s) (hi _) rfl

/-- Zero minus the lane sum of a product, kept as one column, at `(b, 0)`. -/
theorem colneg_apply (a m : FVec Ideal S16x4096 .f32) (hr : S16x4096.Reduces [1] S16) (hφ : FKind.Formats .f32)
    (hacc : (0x00000000#32 : BitVec 32) = FKind.add.neutral .f32 hφ) (hc : S16.ShapeCasts S16x1) (b' : Fin 16) :
    subf (broadcast S16x1 (Scalar.ofBits (F := Ideal) .f32 0x00000000#32))
        (shapeCast S16x1 (multiReduction .add [1] S16 (mulf a m) 0x00000000#32 hr hφ hacc) hc) (ix2 b' (0 : Fin 1))
      = 0 - ∑ t' : Fin 4096, a (ix2 b' t') * m (ix2 b' t') := by
  show Ideal.ofBits .f32 0x00000000#32 - shapeCast S16x1 (multiReduction .add [1] S16 (mulf a m) 0x00000000#32 hr hφ hacc) hc (ix2 b' (0 : Fin 1)) = _
  rw [Ideal.ofBits_zero_f32, rowsum_apply]
  rfl

/-! ## The clipped logarithms at an element -/

/-- The clip as the kernel writes it: the larger of the lower bound and the value, then the smaller of the upper
    bound and that. -/
theorem clip_eq (x : EReal) :
    min (Ideal.ofBits .f32 0x3F7FFFFE#32) (max (Ideal.ofBits .f32 0x33D6BF95#32) x) = Diar.clip x := rfl

/-- The logarithm of one minus a clipped value, written as `log1p` of zero minus it. -/
theorem lq_eq (x : EReal) : Ideal.log1p (Ideal.ofBits .f32 0x00000000#32 - Diar.clip x) = Diar.lq x := by
  rw [Ideal.ofBits_zero_f32, zero_sub]
  rfl

end Cert.KernelIdeal.KStep

end
-- ==== Proof.KStepMask.lean ====
/-
  The frame mask of one grid point at an index: frame `t'` of time block `k` of a row counts when the
  word of `4096 k + t'` is below the row's length word, compared signed.
-/
import proofs.«107530_j17386027614816_1_alg».proof.Proof.KStepBase

noncomputable section

open scoped BigOperators

namespace Cert.KernelIdeal.KStep

open Cert.KernelIdeal Cert.KernelIdeal.Gen Idealize.ShloMosaic Idealize.ShloMosaic.ValueIdx

/-- The word of `4096 k + t` is the product of the words of `k` and `4096` plus the word of `t`: the
    arithmetic of words is arithmetic modulo `2 ^ 32`. -/
theorem frame_word (k t : ℕ) :
    IntOp.addi (Scalar.muli (BitVec.ofNat 32 k) 4096#32) (BitVec.ofNat 32 t) = BitVec.ofNat 32 (4096 * k + t) := by
  show BitVec.ofNat 32 k * 4096#32 + BitVec.ofNat 32 t = BitVec.ofNat 32 (4096 * k + t)
  rw [← BitVec.toNat_inj]
  simp only [BitVec.toNat_add, BitVec.toNat_mul, BitVec.toNat_ofNat]
  omega

/-- The mask of the grid point at `(b, t')`. -/
theorem mask_apply (i : grid0.Coords) (v7 : Vec Ideal S16x1 .i32) (b' : Fin 16) (t' : Fin 4096) :
    k0_pay6 (F := Ideal) i v7 (ix2 b' t') = Diar.msk (v7 (ix2 b' 0)) (4096 * (i 1).val + t'.val) := by
  unfold k0_pay6
  show FloatOps.sitofp (F := Ideal) .f32
      ((IntOp.cmpi .slt
        (IntOp.addi (Scalar.muli (BitVec.ofNat 32 (i 1).val) 4096#32) (iota .tc S16x4096 32 [1] iota_S16x4096_d1_w32 (ix2 b' t')))
        (broadcastTo S16x4096 (shapeCast S16x1 v7 shapeCasts_S16x1_S16x1) broadcasts_S16x1_S16x4096 (ix2 b' t'))).setWidth 32) = _
  rw [Cert.SupCon.Ker.sitofp_setWidth, iota_single_apply, Cert.SupCon.Ker.broadcastTo_a1_ab_apply, shapeCast_self]
  show (if IntOp.cmpi .slt (IntOp.addi (Scalar.muli (BitVec.ofNat 32 (i 1).val) 4096#32) (BitVec.ofNat 32 t'.val)) (v7 (ix2 b' 0)) = 1#1
      then (1 : EReal) else 0) = _
  rw [frame_word]
  unfold Diar.msk IntOp.cmpi
  cases h : (BitVec.ofNat 32 (4096 * (i 1).val + t'.val)).slt (v7 (ix2 b' 0)) <;> simp

end Cert.KernelIdeal.KStep

end
-- ==== Proof.KStepElt.lean ====
/-
  The clipped logarithms of the four prediction blocks at an index: for each speaker's block the
  payloads compute the clip, the logarithm of one minus it (`lq`) and the difference of the two
  logarithms (`la`), elementwise on the block viewed `[16,4096]`.
-/
import proofs.«107530_j17386027614816_1_alg».proof.Proof.KStepBase

noncomputable section

open scoped BigOperators

namespace Cert.KernelIdeal.KStep

open Cert.KernelIdeal Cert.KernelIdeal.Gen Idealize.ShloMosaic Idealize.ShloMosaic.ValueIdx

variable (v : Vec Ideal S1x16x4096 .f32) (x : FVec Ideal S16x4096 .f32) (b' : Fin 16) (t' : Fin 4096)

/-! ## The clip -/

theorem pay7_apply : k0_pay7 (F := Ideal) v (ix2 b' t') = Diar.clip (v (ix3 (0 : Fin 1) b' t')) := by
  unfold k0_pay7
  show min (Ideal.ofBits .f32 0x3F7FFFFE#32) (max (Ideal.ofBits .f32 0x33D6BF95#32) (shapeCast S16x4096 v shapeCasts_S1x16x4096_S16x4096 (ix2 b' t'))) = _
  rw [drop1_apply]; rfl

theorem pay10_apply : k0_pay10 (F := Ideal) v (ix2 b' t') = Diar.clip (v (ix3 (0 : Fin 1) b' t')) := by
  unfold k0_pay10
  show min (Ideal.ofBits .f32 0x3F7FFFFE#32) (max (Ideal.ofBits .f32 0x33D6BF95#32) (shapeCast S16x4096 v shapeCasts_S1x16x4096_S16x4096 (ix2 b' t'))) = _
  rw [drop1_apply]; rfl

theorem pay13_apply : k0_pay13 (F := Ideal) v (ix2 b' t') = v (ix3 (0 : Fin 1) b' t') := by
  unfold k0_pay13
  exact drop1_apply v _ b' t'

theorem pay14_apply : k0_pay14 (F := Ideal) x (ix2 b' t') = Diar.clip (x (ix2 b' t')) := rfl

theorem pay17_apply : k0_pay17 (F := Ideal) v (ix2 b' t') = Diar.clip (v (ix3 (0 : Fin 1) b' t')) := by
  unfold k0_pay17
  show min (Ideal.ofBits .f32 0x3F7FFFFE#32) (max (Ideal.ofBits .f32 0x33D6BF95#32) (shapeCast S16x4096 v shapeCasts_S1x16x4096_S16x4096 (ix2 b' t'))) = _
  rw [drop1_apply]; rfl

/-! ## The logarithm of one minus the clipped value -/

theorem pay8_apply : k0_pay8 (F := Ideal) v (ix2 b' t') = Diar.lq (v (ix3 (0 : Fin 1) b' t')) := by
  show Ideal.log1p (Ideal.ofBits .f32 0x00000000#32 - k0_pay7 (F := Ideal) v (ix2 b' t')) = _
  rw [pay7_apply, lq_eq]

theorem pay11_apply : k0_pay11 (F := Ideal) v (ix2 b' t') = Diar.lq (v (ix3 (0 : Fin 1) b' t')) := by
  show Ideal.log1p (Ideal.ofBits .f32 0x00000000#32 - k0_pay10 (F := Ideal) v (ix2 b' t')) = _
  rw [pay10_apply, lq_eq]

theorem pay15_apply : k0_pay15 (F := Ideal) (k0_pay13 v) (ix2 b' t') = Diar.lq (v (ix3 (0 : Fin 1) b' t')) := by
  show Ideal.log1p (Ideal.ofBits .f32 0x00000000#32 - k0_pay14 (F := Ideal) (k0_pay13 v) (ix2 b' t')) = _
  rw [pay14_apply, pay13_apply, lq_eq]

theorem pay18_apply : k0_pay18 (F := Ideal) v (ix2 b' t') = Diar.lq (v (ix3 (0 : Fin 1) b' t')) := by
  show Ideal.log1p (Ideal.ofBits .f32 0x00000000#32 - k0_pay17 (F := Ideal) v (ix2 b' t')) = _
  rw [pay17_apply, lq_eq]

/-! ## The difference of the two logarithms -/

theorem pay9_apply : k0_pay9 (F := Ideal) v (ix2 b' t') = Diar.la (v (ix3 (0 : Fin 1) b' t')) := by
  show Ideal.log (k0_pay7 (F := Ideal) v (ix2 b' t')) - k0_pay8 (F := Ideal) v (ix2 b' t') = _
  rw [pay7_apply, pay8_apply]; rfl

theorem pay12_apply : k0_pay12 (F := Ideal) v (ix2 b' t') = Diar.la (v (ix3 (0 : Fin 1) b' t')) := by
  show Ideal.log (k0_pay10 (F := Ideal) v (ix2 b' t')) - k0_pay11 (F := Ideal) v (ix2 b' t') = _
  rw [pay10_apply, pay11_apply]; rfl

theorem pay16_apply : k0_pay16 (F := Ideal) (k0_pay13 v) (ix2 b' t') = Diar.la (v (ix3 (0 : Fin 1) b' t')) := by
  show Ideal.log (k0_pay14 (F := Ideal) (k0_pay13 v) (ix2 b' t')) - k0_pay15 (F := Ideal) (k0_pay13 v) (ix2 b' t') = _
  rw [pay14_apply, pay13_apply, pay15_apply]; rfl

theorem pay19_apply : k0_pay19 (F := Ideal) v (ix2 b' t') = Diar.la (v (ix3 (0 : Fin 1) b' t')) := by
  show Ideal.log (k0_pay17 (F := Ideal) v (ix2 b' t')) - k0_pay18 (F := Ideal) v (ix2 b' t') = _
  rw [pay17_apply, pay18_apply]; rfl

end Cert.KernelIdeal.KStep

end
-- ==== Proof.KStep5.lean ====
/-
  What one grid point adds to the pairwise accumulator, at an index: for prediction speaker `r` and
  label speaker `s`, zero minus the sum over the block's frames of the difference of the two clipped
  logarithms of the prediction, times the label times the mask.
-/
import proofs.«107530_j17386027614816_1_alg».proof.Proof.KStepMask
import proofs.«107530_j17386027614816_1_alg».proof.Proof.KStepElt

noncomputable section

open scoped BigOperators

namespace Cert.KernelIdeal.KStep

open Cert.KernelIdeal Cert.KernelIdeal.Gen Idealize.ShloMosaic Idealize.ShloMosaic.ValueIdx

/-! ## A label block times the mask, at an index -/

section Labels
variable (m : FVec Ideal S16x4096 .f32) (v : Vec Ideal S1x16x4096 .f32) (b' : Fin 16) (t' : Fin 4096)

theorem pay20_apply : k0_pay20 (F := Ideal) m v (ix2 b' t') = v (ix3 (0 : Fin 1) b' t') * m (ix2 b' t') := by
  unfold k0_pay20
  show shapeCast S16x4096 v shapeCasts_S1x16x4096_S16x4096 (ix2 b' t') * m (ix2 b' t') = _
  rw [drop1_apply]

theorem pay21_apply : k0_pay21 (F := Ideal) m v (ix2 b' t') = v (ix3 (0 : Fin 1) b' t') * m (ix2 b' t') := by
  unfold k0_pay21
  show shapeCast S16x4096 v shapeCasts_S1x16x4096_S16x4096 (ix2 b' t') * m (ix2 b' t') = _
  rw [drop1_apply]

theorem pay22_apply : k0_pay22 (F := Ideal) m v (ix2 b' t') = v (ix3 (0 : Fin 1) b' t') * m (ix2 b' t') := by
  unfold k0_pay22
  show shapeCast S16x4096 v shapeCasts_S1x16x4096_S16x4096 (ix2 b' t') * m (ix2 b' t') = _
  rw [drop1_apply]

theorem pay23_apply : k0_pay23 (F := Ideal) m v (ix2 b' t') = v (ix3 (0 : Fin 1) b' t') * m (ix2 b' t') := by
  unfold k0_pay23
  show shapeCast S16x4096 v shapeCasts_S1x16x4096_S16x4096 (ix2 b' t') * m (ix2 b' t') = _
  rw [drop1_apply]

end Labels

/-! ## One row of the pairwise term: one prediction speaker against the four label speakers -/

/-- Four columns, each zero minus the lane sum of one array `a` times one of four arrays, laid side by side and viewed
    `[16,1,4]`, read at `(b, 0, s)`. -/
theorem row_apply (a m0 m1 m2 m3 : FVec Ideal S16x4096 .f32) {c0 c1 c2 c3 : FVec Ideal S16x1 .f32}
    (hcat : Shape.Concatenates [S16x1, S16x1, S16x1, S16x1] S16x4 1) (hcast : S16x4.ShapeCasts S16x1x4) (b' : Fin 16) (s : Fin 4)
    (h0 : c0 (ix2 b' (0 : Fin 1)) = 0 - ∑ t' : Fin 4096, a (ix2 b' t') * m0 (ix2 b' t'))
    (h1 : c1 (ix2 b' (0 : Fin 1)) = 0 - ∑ t' : Fin 4096, a (ix2 b' t') * m1 (ix2 b' t'))
    (h2 : c2 (ix2 b' (0 : Fin 1)) = 0 - ∑ t' : Fin 4096, a (ix2 b' t') * m2 (ix2 b' t'))
    (h3 : c3 (ix2 b' (0 : Fin 1)) = 0 - ∑ t' : Fin 4096, a (ix2 b' t') * m3 (ix2 b' t')) :
    shapeCast S16x1x4 (concatenate S16x4 1 [⟨S16x1, c0⟩, ⟨S16x1, c1⟩, ⟨S16x1, c2⟩, ⟨S16x1, c3⟩] hcat) hcast (ix3 b' (0 : Fin 1) s)
      = 0 - ∑ t' : Fin 4096, a (ix2 b' t') * (![m0, m1, m2, m3] s) (ix2 b' t') := by
  refine (cast141_apply _ _ b' s).trans ((col4_apply _ _ _ _ _ b' s).trans ?_)
  match s with
  | ⟨0, _⟩ => exact h0
  | ⟨1, _⟩ => exact h1
  | ⟨2, _⟩ => exact h2
  | ⟨3, _⟩ => exact h3

/-- The pairwise term over any four prediction arrays and four label arrays (the first label array the product of
    its block and the mask, as the first column is computed from them). -/
theorem stepV5_core (a0 a1 a2 a3 m m1 m2 m3 : FVec Ideal S16x4096 .f32) (v57 : Vec Ideal S1x16x4096 .f32)
    (b' : Fin 16) (r s : Fin 4) :
    k0_pay28 (F := Ideal) a2 a3 (k0_pay20 m v57) m1 m2 m3 (k0_pay25 a0 m1 m2 m3 (k0_pay24 m a0 v57))
        (k0_pay26 a1 (k0_pay20 m v57) m1 m2 m3) (k0_pay27 a2 (k0_pay20 m v57)) (ix3 b' r s)
      = 0 - ∑ t' : Fin 4096, (![a0, a1, a2, a3] r) (ix2 b' t') * (![k0_pay20 m v57, m1, m2, m3] s) (ix2 b' t') := by
  unfold k0_pay28
  refine (row4_apply _ _ _ _ _ b' r s).trans ?_
  match r with
  | ⟨0, _⟩ =>
    refine row_apply a0 (k0_pay20 m v57) m1 m2 m3 concatenates_S16x1_S16x1_S16x1_S16x1_S16x4_d1 shapeCasts_S16x4_S16x1x4 b' s ?_ ?_ ?_ ?_
    all_goals exact colneg_apply _ _ _ _ _ _ b'
  | ⟨1, _⟩ =>
    refine row_apply a1 (k0_pay20 m v57) m1 m2 m3 concatenates_S16x1_S16x1_S16x1_S16x1_S16x4_d1 shapeCasts_S16x4_S16x1x4 b' s ?_ ?_ ?_ ?_
    all_goals exact colneg_apply _ _ _ _ _ _ b'
  | ⟨2, _⟩ =>
    refine row_apply a2 (k0_pay20 m v57) m1 m2 m3 concatenates_S16x1_S16x1_S16x1_S16x1_S16x4_d1 shapeCasts_S16x4_S16x1x4 b' s ?_ ?_ ?_ ?_
    all_goals exact colneg_apply _ _ _ _ _ _ b'
  | ⟨3, _⟩ =>
    refine row_apply a3 (k0_pay20 m v57) m1 m2 m3 concatenates_S16x1_S16x1_S16x1_S16x1_S16x4_d1 shapeCasts_S16x4_S16x1x4 b' s ?_ ?_ ?_ ?_
    all_goals exact colneg_apply _ _ _ _ _ _ b'

/-- The pairwise term of the grid point at `(b, r, s)`. -/
theorem stepV5_apply (i : grid0.Coords) (v7 : Vec Ideal S16x1 .i32) (vA vB : Fin 4 → Vec Ideal S1x16x4096 .f32) (b' : Fin 16) (r s : Fin 4) :
    stepV5 (F := Ideal) i v7 (vA 0) (vA 1) (vA 2) (vA 3) (vB 0) (vB 1) (vB 2) (vB 3) (ix3 b' r s)
      = 0 - ∑ t' : Fin 4096, Diar.la (vA r (ix3 (0 : Fin 1) b' t'))
          * (vB s (ix3 (0 : Fin 1) b' t') * Diar.msk (v7 (ix2 b' 0)) (4096 * (i 1).val + t'.val)) := by
  unfold stepV5
  refine (stepV5_core _ _ _ _ _ _ _ _ _ b' r s).trans ?_
  refine congrArg (fun z => 0 - z) (Finset.sum_congr rfl fun t' _ => ?_)
  have hA : (![k0_pay9 (F := Ideal) (vA 0), k0_pay12 (vA 1), k0_pay16 (k0_pay13 (vA 2)), k0_pay19 (vA 3)] r) (ix2 b' t')
      = Diar.la (vA r (ix3 (0 : Fin 1) b' t')) := by
    match r with
    | ⟨0, _⟩ => exact pay9_apply _ _ _
    | ⟨1, _⟩ => exact pay12_apply _ _ _
    | ⟨2, _⟩ => exact pay16_apply _ _ _
    | ⟨3, _⟩ => exact pay19_apply _ _ _
  have hB : (![k0_pay20 (F := Ideal) (k0_pay6 i v7) (vB 0), k0_pay21 (k0_pay6 i v7) (vB 1), k0_pay22 (k0_pay6 i v7) (vB 2),
        k0_pay23 (k0_pay6 i v7) (vB 3)] s) (ix2 b' t')
      = vB s (ix3 (0 : Fin 1) b' t') * Diar.msk (v7 (ix2 b' 0)) (4096 * (i 1).val + t'.val) := by
    match s with
    | ⟨0, _⟩ => exact (pay20_apply _ _ _ _).trans (by rw [mask_apply]; rfl)
    | ⟨1, _⟩ => exact (pay21_apply _ _ _ _).trans (by rw [mask_apply]; rfl)
    | ⟨2, _⟩ => exact (pay22_apply _ _ _ _).trans (by rw [mask_apply]; rfl)
    | ⟨3, _⟩ => exact (pay23_apply _ _ _ _).trans (by rw [mask_apply]; rfl)
  rw [hA, hB]

end Cert.KernelIdeal.KStep

end
-- ==== Proof.KStep6.lean ====
/-
  What one grid point adds to the per-speaker accumulator, at an index: zero minus the sum over the
  block's frames of the logarithm of one minus the clipped prediction, times the mask.
-/
import proofs.«107530_j17386027614816_1_alg».proof.Proof.KStepMask
import proofs.«107530_j17386027614816_1_alg».proof.Proof.KStepElt

noncomputable section

open scoped BigOperators

namespace Cert.KernelIdeal.KStep

open Cert.KernelIdeal Cert.KernelIdeal.Gen Idealize.ShloMosaic Idealize.ShloMosaic.ValueIdx

/-- Zero minus the lane sum of an array times the grid point's mask, kept as one column, at `(b, 0)`. -/
theorem colmask_apply (i : grid0.Coords) (v7 : Vec Ideal S16x1 .i32) (q : FVec Ideal S16x4096 .f32) (b' : Fin 16) :
    subf (broadcast S16x1 (Scalar.ofBits (F := Ideal) .f32 0x00000000#32))
        (shapeCast S16x1 (multiReduction .add [1] S16 (mulf q (k0_pay6 (F := Ideal) i v7)) 0x00000000#32
          reduces_S16x4096_S16 (.inl rfl) rfl) shapeCasts_S16_S16x1) (ix2 b' (0 : Fin 1))
      = 0 - ∑ t' : Fin 4096, q (ix2 b' t') * Diar.msk (v7 (ix2 b' 0)) (4096 * (i 1).val + t'.val) :=
  (colneg_apply q _ _ _ _ _ b').trans
    (congrArg (fun z => 0 - z) (Finset.sum_congr rfl fun t' _ => by rw [mask_apply]))

/-- The per-speaker term of the grid point at `(b, r)`. -/
theorem stepV6_apply (i : grid0.Coords) (v7 : Vec Ideal S16x1 .i32) (vA : Fin 4 → Vec Ideal S1x16x4096 .f32) (b' : Fin 16) (r : Fin 4) :
    stepV6 (F := Ideal) i v7 (vA 0) (vA 1) (vA 2) (vA 3) (ix2 b' r)
      = 0 - ∑ t' : Fin 4096, Diar.lq (vA r (ix3 (0 : Fin 1) b' t')) * Diar.msk (v7 (ix2 b' 0)) (4096 * (i 1).val + t'.val) := by
  unfold stepV6 k0_pay31
  refine (col4_apply _ _ _ _ _ b' r).trans ?_
  match r with
  | ⟨0, _⟩ =>
    exact (colmask_apply i v7 (k0_pay8 (vA 0)) b').trans
      (congrArg (fun z => 0 - z) (Finset.sum_congr rfl fun t' _ => by rw [pay8_apply]; rfl))
  | ⟨1, _⟩ =>
    exact (colmask_apply i v7 (k0_pay11 (vA 1)) b').trans
      (congrArg (fun z => 0 - z) (Finset.sum_congr rfl fun t' _ => by rw [pay11_apply]; rfl))
  | ⟨2, _⟩ =>
    exact (colmask_apply i v7 (k0_pay15 (k0_pay13 (vA 2))) b').trans
      (congrArg (fun z => 0 - z) (Finset.sum_congr rfl fun t' _ => by rw [pay15_apply]; rfl))
  | ⟨3, _⟩ =>
    exact (colmask_apply i v7 (k0_pay18 (vA 3)) b').trans
      (congrArg (fun z => 0 - z) (Finset.sum_congr rfl fun t' _ => by rw [pay18_apply]; rfl))

end Cert.KernelIdeal.KStep

end
-- ==== Proof.KStep7.lean ====
/-
  What one grid point adds to the voice-activity accumulator, at an index: the sum over the block's
  frames of the binary cross-entropy of the clipped prediction against the target, times the mask.
-/
import proofs.«107530_j17386027614816_1_alg».proof.Proof.KStepMask
import Idealize.ShloMosaic.Lib.IdealHost

noncomputable section

open scoped BigOperators

namespace Cert.KernelIdeal.KStep

open Cert.KernelIdeal Cert.KernelIdeal.Gen Idealize.ShloMosaic Idealize.ShloMosaic.ValueIdx

/-- The voice-activity term of the grid point at `(b, 0)`. -/
theorem stepV7_apply (i : grid0.Coords) (v7 : Vec Ideal S16x1 .i32) (v179 v184 : Vec Ideal S16x4096 .f32) (b' : Fin 16) :
    stepV7 (F := Ideal) i v7 v179 v184 (ix2 b' (0 : Fin 1))
      = ∑ t' : Fin 4096, (0 - (v184 (ix2 b' t') * Diar.lp (v179 (ix2 b' t')) + (1 - v184 (ix2 b' t')) * Diar.lq (v179 (ix2 b' t'))))
          * Diar.msk (v7 (ix2 b' 0)) (4096 * (i 1).val + t'.val) := by
  unfold stepV7 k0_pay32
  refine (rowsum_apply _ _ _ _ _ b').trans ?_
  refine Finset.sum_congr rfl fun t' _ => ?_
  show (Ideal.ofBits .f32 0x00000000#32
        - (v184 (ix2 b' t') * Ideal.log (min (Ideal.ofBits .f32 0x3F7FFFFE#32) (max (Ideal.ofBits .f32 0x33D6BF95#32) (v179 (ix2 b' t'))))
          + (Ideal.ofBits .f32 0x3F800000#32 - v184 (ix2 b' t'))
            * Ideal.log1p (Ideal.ofBits .f32 0x00000000#32
                - min (Ideal.ofBits .f32 0x3F7FFFFE#32) (max (Ideal.ofBits .f32 0x33D6BF95#32) (v179 (ix2 b' t'))))))
      * k0_pay6 (F := Ideal) i v7 (ix2 b' t') = _
  rw [mask_apply, clip_eq, lq_eq, Ideal.ofBits_zero_f32, Ideal.ofBits_one_f32]
  rfl

end Cert.KernelIdeal.KStep

end
-- ==== Proof.KStep.lean ====
/-
  What one grid point of the kernel adds to each of its three accumulators, read at an index: the
  mask (`mask_apply`), the pairwise term (`stepV5_apply`), the per-speaker term (`stepV6_apply`) and the
  voice-activity term (`stepV7_apply`), gathered.
-/
import proofs.«107530_j17386027614816_1_alg».proof.Proof.KStep5
import proofs.«107530_j17386027614816_1_alg».proof.Proof.KStep6
import proofs.«107530_j17386027614816_1_alg».proof.Proof.KStep7
-- ==== Proof.KTerm.lean ====
/-
  The terms of a grid point, read at an index, in the arguments. Grid point `16 q + k` is batch block `q`
  and time block `k`: row `b'` of its blocks is row `16 q + b'` of the arguments and frame `t'` is frame
  `4096 k + t'`; so its three terms are the specification's per-block terms `step1`, `step2`, `step3`
  of the argument arrays at row `16 q + b'`, block `k`.
-/
import proofs.«107530_j17386027614816_1_alg».proof.Proof.KAcc
import proofs.«107530_j17386027614816_1_alg».proof.Proof.KBlk
import proofs.«107530_j17386027614816_1_alg».proof.Proof.KStep
import proofs.«107530_j17386027614816_1_alg».proof.Proof.Spec

noncomputable section

open scoped BigOperators
open Idealize.ShloMosaic Idealize.ShloMosaic.TcCoe Idealize.SL.Sem Idealize.ShloMosaic.ValueIdx

namespace Cert.KernelIdeal.KTerm
open Cert.KernelIdeal Cert.KernelIdeal.Gen Cert.KernelIdeal.KOut Cert.KernelIdeal.KAcc Cert.KernelIdeal.KBlk Cert.KernelIdeal.KStep
variable (m : (ℓ : Loc nD τ sig) → Buf (Elt Ideal) ℓ)

/-- The arguments on core `c`. -/
abbrev a0 (c : Dev nD) : Diar.A3 := m ((c : Thread nD τ).loc main_arg0)
abbrev a1 (c : Dev nD) : Diar.A2 := m ((c : Thread nD τ).loc main_arg1)
abbrev a2 (c : Dev nD) : Diar.A3 := m ((c : Thread nD τ).loc main_arg2)
abbrev a3 (c : Dev nD) : Diar.A2 := m ((c : Thread nD τ).loc main_arg3)
abbrev a4 (c : Dev nD) : Diar.L1 := m ((c : Thread nD τ).loc main_arg4)

/-- The grid point of batch block `q` and time block `k`. -/
def pt (q : Fin 2) (k : Fin 16) : Fin cfg0.N := ⟨16 * q.val + k.val, by have hN : cfg0.N = 32 := N_0; have := q.isLt; have := k.isLt; omega⟩
/-- Row `b'` of batch block `q`. -/
def row (q : Fin 2) (b' : Fin 16) : Fin 32 := ⟨16 * q.val + b'.val, by have := q.isLt; have := b'.isLt; omega⟩

theorem rowOf_pt (q : Fin 2) (k b' : Fin 16) : rowOf (pt q k) b' = row q b' :=
  Fin.ext (by show 16 * ((16 * q.val + k.val) / 16) + b'.val = 16 * q.val + b'.val; have := k.isLt; omega)
theorem frameOf_pt (q : Fin 2) (k : Fin 16) (t' : Fin 4096) : frameOf (pt q k) t' = Diar.tIdx k t' :=
  Fin.ext (by show 4096 * ((16 * q.val + k.val) % 16) + t'.val = 4096 * k.val + t'.val; have := k.isLt; omega)
theorem coord_pt (q : Fin 2) (k : Fin 16) (t' : Fin 4096) : 4096 * ((grid0.coords (pt q k)) 1).val + t'.val = (Diar.tIdx k t').val := by
  rw [coords1]; show 4096 * ((16 * q.val + k.val) % 16) + t'.val = 4096 * k.val + t'.val; have := k.isLt; omega

/-- The length word of a row, through the length column's block. -/
theorem len_apply (c : Dev nD) (q : Fin 2) (k b' : Fin 16) :
    (iblk m c 0 (pt q k) : Vec Ideal S16x1 .i32) (ix2 b' (0 : Fin 1)) = a4 m c (ix1 (row q b')) := by
  rw [iblk0_apply, V_v2_apply, rowOf_pt]

/-- The voice-activity term of a point, at a row. -/
theorem M7_apply (c : Dev nD) (q : Fin 2) (k b' : Fin 16) :
    M7 m c (16 * q.val + k.val) (ix2 b' (0 : Fin 1)) = Diar.step3 (a1 m c) (a3 m c) (a4 m c) (row q b') k := by
  unfold M7
  rw [dif_pos (show 16 * q.val + k.val < cfg0.N from (pt q k).isLt)]
  show stepV7 (F := Ideal) (grid0.coords (pt q k)) (iblk m c 0 (pt q k)) (iblk m c 3 (pt q k)) (iblk m c 4 (pt q k)) (ix2 b' (0 : Fin 1)) = _
  rw [stepV7_apply]
  unfold Diar.step3
  refine Finset.sum_congr rfl fun t' _ => ?_
  rw [len_apply, iblk3_apply, iblk4_apply, V_main_arg1, V_main_arg3, rowOf_pt, frameOf_pt, coord_pt]

/-- The four speaker slabs of a block, by speaker. -/
def slab (x : Vec Ideal S4x16x4096 .f32) : Fin 4 → Vec Ideal S1x16x4096 .f32 := fun r =>
  match r with
  | ⟨0, _⟩ => sl0 x
  | ⟨1, _⟩ => sl1 x
  | ⟨2, _⟩ => sl2 x
  | ⟨3, _⟩ => sl3 x

/-- Slab `r` at `(0, b', t')` is the block at `(r, b', t')`. -/
theorem slab_apply (x : Vec Ideal S4x16x4096 .f32) (r : Fin 4) (b' : Fin 16) (t' : Fin 4096) :
    slab x r (ix3 (0 : Fin 1) b' t') = x (ix3 r b' t') := by
  match r with
  | ⟨0, _⟩ =>
    show x ((Rect.unit (s := S4x16x4096) ![0, 0, 0] ![1, 16, 4096] inb_S4x16x4096_S1x16x4096_0_0_0).emb (ix3 (0 : Fin 1) b' t')) = _
    refine congrArg x (funext fun a => Fin.ext ?_)
    match a with
    | ⟨0, _⟩ => rfl
    | ⟨1, _⟩ => show 0 + 1 * b'.val = b'.val; omega
    | ⟨2, _⟩ => show 0 + 1 * t'.val = t'.val; omega
  | ⟨1, _⟩ =>
    show x ((Rect.unit (s := S4x16x4096) ![1, 0, 0] ![1, 16, 4096] inb_S4x16x4096_S1x16x4096_1_0_0).emb (ix3 (0 : Fin 1) b' t')) = _
    refine congrArg x (funext fun a => Fin.ext ?_)
    match a with
    | ⟨0, _⟩ => rfl
    | ⟨1, _⟩ => show 0 + 1 * b'.val = b'.val; omega
    | ⟨2, _⟩ => show 0 + 1 * t'.val = t'.val; omega
  | ⟨2, _⟩ =>
    show x ((Rect.unit (s := S4x16x4096) ![2, 0, 0] ![1, 16, 4096] inb_S4x16x4096_S1x16x4096_2_0_0).emb (ix3 (0 : Fin 1) b' t')) = _
    refine congrArg x (funext fun a => Fin.ext ?_)
    match a with
    | ⟨0, _⟩ => rfl
    | ⟨1, _⟩ => show 0 + 1 * b'.val = b'.val; omega
    | ⟨2, _⟩ => show 0 + 1 * t'.val = t'.val; omega
  | ⟨3, _⟩ =>
    show x ((Rect.unit (s := S4x16x4096) ![3, 0, 0] ![1, 16, 4096] inb_S4x16x4096_S1x16x4096_3_0_0).emb (ix3 (0 : Fin 1) b' t')) = _
    refine congrArg x (funext fun a => Fin.ext ?_)
    match a with
    | ⟨0, _⟩ => rfl
    | ⟨1, _⟩ => show 0 + 1 * b'.val = b'.val; omega
    | ⟨2, _⟩ => show 0 + 1 * t'.val = t'.val; omega

/-- A prediction and a label of a row and frame, through the speaker-major blocks. -/
theorem ps_apply (c : Dev nD) (q : Fin 2) (k b' : Fin 16) (r : Fin 4) (t' : Fin 4096) :
    slab (iblk m c 1 (pt q k)) r (ix3 (0 : Fin 1) b' t') = a0 m c (ix3 (row q b') (Diar.tIdx k t') r) := by
  rw [slab_apply, iblk1_apply, V_v0_apply, rowOf_pt, frameOf_pt]
theorem lb_apply (c : Dev nD) (q : Fin 2) (k b' : Fin 16) (r : Fin 4) (t' : Fin 4096) :
    slab (iblk m c 2 (pt q k)) r (ix3 (0 : Fin 1) b' t') = a2 m c (ix3 (row q b') (Diar.tIdx k t') r) := by
  rw [slab_apply, iblk2_apply, V_v1_apply, rowOf_pt, frameOf_pt]

/-- The per-speaker term of a point, at a row and speaker. -/
theorem M6_apply (c : Dev nD) (q : Fin 2) (k b' : Fin 16) (r : Fin 4) :
    M6 m c (16 * q.val + k.val) (ix2 b' r) = Diar.step2 (a0 m c) (a4 m c) (row q b') r k := by
  unfold M6
  rw [dif_pos (show 16 * q.val + k.val < cfg0.N from (pt q k).isLt)]
  show stepV6 (F := Ideal) (grid0.coords (pt q k)) (iblk m c 0 (pt q k)) (slab (iblk m c 1 (pt q k)) 0) (slab (iblk m c 1 (pt q k)) 1)
    (slab (iblk m c 1 (pt q k)) 2) (slab (iblk m c 1 (pt q k)) 3) (ix2 b' r) = _
  rw [stepV6_apply]
  unfold Diar.step2
  refine congrArg _ (Finset.sum_congr rfl fun t' _ => ?_)
  rw [ps_apply, len_apply, coord_pt]

/-- The pairwise term of a point, at a row and two speakers. -/
theorem M5_apply (c : Dev nD) (q : Fin 2) (k b' : Fin 16) (r s : Fin 4) :
    M5 m c (16 * q.val + k.val) (ix3 b' r s) = Diar.step1 (a0 m c) (a2 m c) (a4 m c) (row q b') r s k := by
  unfold M5
  rw [dif_pos (show 16 * q.val + k.val < cfg0.N from (pt q k).isLt)]
  show stepV5 (F := Ideal) (grid0.coords (pt q k)) (iblk m c 0 (pt q k)) (slab (iblk m c 1 (pt q k)) 0) (slab (iblk m c 1 (pt q k)) 1)
    (slab (iblk m c 1 (pt q k)) 2) (slab (iblk m c 1 (pt q k)) 3) (slab (iblk m c 2 (pt q k)) 0) (slab (iblk m c 2 (pt q k)) 1)
    (slab (iblk m c 2 (pt q k)) 2) (slab (iblk m c 2 (pt q k)) 3) (ix3 b' r s) = _
  rw [stepV5_apply]
  unfold Diar.step1
  refine congrArg _ (Finset.sum_congr rfl fun t' _ => ?_)
  rw [ps_apply, lb_apply, len_apply, coord_pt]

end Cert.KernelIdeal.KTerm

end
-- ==== Proof.LibSums.lean ====
/-
  General facts about sums over the index sets of literal shapes, on any additive commutative monoid, and
  about the total of a vector's entries under the layout and reduction operations at the ideal instance:
  a sum over a rank-3 or rank-4 index set is the iterated sum over its coordinates; a sum over
  `Fin (m * n)` splits into `m` consecutive stretches of length `n`; a reshape keeps the total of the entries;
  a float add-reduction over any axes keeps the total (each entry lands in exactly one reduced cell); a vector
  with exactly one entry has that entry as its total.
-/
import Idealize.ShloMosaic.PureOps.Ideal.Laws
import Idealize.ShloMosaic.Lib.ValueIdx

noncomputable section

open scoped BigOperators

namespace Cert.Sums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the `m` stretches of the sums over each stretch's `n` places:
    place `r` of stretch `q` is `r + n * q`. -/
theorem sum_fin_stretches {M : Type*} [AddCommMonoid M] (m n : Nat) (g : Fin (m * n) → M) :
    ∑ k, g k = ∑ q : Fin m, ∑ r : Fin n, g (finProdFinEquiv (q, r)) := by
  rw [← Equiv.sum_comp finProdFinEquiv g, Fintype.sum_prod_type]

/-- A reshape keeps the total of the entries: it only re-indexes them. -/
theorem sum_shapeCast {M : Type} [AddCommMonoid M] {s t : Shape} (x : s.Idx → M) (h : s.ShapeCasts t) :
    ∑ j, shapeCast t x h j = ∑ i, x i :=
  Equiv.sum_comp (Shape.reshapeEquiv h) x

/-- A float add-reduction at the ideal instance keeps the total of the entries: every source entry is added into
    exactly one cell of the result. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j, multiReduction .add axes t src acc h hφ hacc j = ∑ i, src i := by
  show ∑ j, Ideal.reduceAdd h src j = ∑ i, src i
  unfold Ideal.reduceAdd
  exact Finset.sum_fiberwise Finset.univ (fun i => h.drop i) src

/-- A vector over an index set with exactly one element has that element's entry as its total. -/
theorem eq_sum_of_unique {M : Type*} [AddCommMonoid M] {ι : Type*} [Fintype ι] [Subsingleton ι] (x : ι → M) (i : ι) :
    x i = ∑ k, x k := by
  haveI : Unique ι := uniqueOfSubsingleton i
  rw [Fintype.sum_unique]
  exact congrArg x (Subsingleton.elim _ _)

/-- The index set of a shape whose every axis has extent one has at most one element. -/
theorem subsingleton_idx_of_unit {s : Shape} (hs : ∀ a, s.size a = 1) : Subsingleton s.Idx :=
  ⟨fun i j => funext fun a => Fin.ext (by have := (i a).isLt; have := (j a).isLt; have := hs a; omega)⟩

end Cert.Sums

end
-- ==== Proof.Algebra.lean ====
/-
  The arithmetic facts behind the agreement of the blockwise accumulation with the one-shot sums.

  A clipped prediction lies between two real bounds strictly inside (0, 1), so its logarithm, the logarithm of one
  minus it, and their difference are real numbers whatever the prediction was (infinite ones included). A frame's
  mask is 0 or 1. The running total over the sixteen time blocks of a row is the plain sum of the sixteen terms.
  When every summand is real, "zero minus a block sum", added up over the blocks, is minus the sum over all
  65536 frames: on the extended reals `-(x + y) = -x + -y` needs `x` and `y` not to be opposite infinities,
  which is why reality of the summands is established first; the sixteen stretches of 4096 frames are regrouped into
  one sum over the frames. The mask total of a row is its length when the length lies between 0 and 65536.
-/
import proofs.«107530_j17386027614816_1_alg».proof.Proof.Spec
import proofs.«107530_j17386027614816_1_alg».proof.Proof.LibSums

noncomputable section

open scoped BigOperators

namespace Diar

open Idealize.ShloMosaic Idealize.ShloMosaic.ValueIdx

/-- The coercion of the reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The lower bound is the real number 14073749 · 2⁻⁴⁷ (about 1e-7). -/
theorem eLo_val : eLo = ((14073749 * (2 ^ 47)⁻¹ : ℝ) : EReal) := by
  unfold eLo
  simp [Ideal.ofBits, Ideal.ieee]

/-- The upper bound is the real number 16777214 · 2⁻²⁴ = 1 - 2⁻²³. -/
theorem eHi_val : eHi = ((16777214 * (2 ^ 24)⁻¹ : ℝ) : EReal) := by
  unfold eHi
  simp [Ideal.ofBits, Ideal.ieee]

/-- A clipped value is a real number strictly between 0 and 1, whatever was clipped. -/
theorem clip_real (x : EReal) : ∃ c : ℝ, clip x = (c : EReal) ∧ 0 < c ∧ c < 1 := by
  have hlo : eLo ≤ clip x :=
    le_min (by rw [eLo_val, eHi_val]; exact EReal.coe_le_coe_iff.2 (by norm_num)) (le_max_left _ _)
  have hhi : clip x ≤ eHi := min_le_left _ _
  have hbot : clip x ≠ ⊥ := fun h => by
    rw [h, eLo_val] at hlo
    exact absurd hlo (not_le.2 (EReal.bot_lt_coe _))
  have htop : clip x ≠ ⊤ := fun h => by
    rw [h, eHi_val] at hhi
    exact absurd hhi (not_le.2 (EReal.coe_lt_top _))
  obtain ⟨c, hc⟩ : ∃ c : ℝ, clip x = (c : EReal) := ⟨_, (EReal.coe_toReal htop hbot).symm⟩
  rw [hc, eLo_val, EReal.coe_le_coe_iff] at hlo
  rw [hc, eHi_val, EReal.coe_le_coe_iff] at hhi
  exact ⟨c, hc, lt_of_lt_of_le (by positivity) hlo, lt_of_le_of_lt hhi (by norm_num)⟩

theorem lp_real (x : EReal) : ∃ r : ℝ, lp x = (r : EReal) := by
  obtain ⟨c, hc, h0, _⟩ := clip_real x
  refine ⟨Real.log c, ?_⟩
  unfold lp
  rw [hc, Ideal.log_coe, if_neg (not_le.2 h0)]

theorem lq_real (x : EReal) : ∃ r : ℝ, lq x = (r : EReal) := by
  obtain ⟨c, hc, _, h1⟩ := clip_real x
  refine ⟨Real.log (1 - c), ?_⟩
  unfold lq Ideal.log1p
  have h : (1 : EReal) + -(c : EReal) = ((1 - c : ℝ) : EReal) := by
    rw [sub_eq_add_neg, EReal.coe_add, EReal.coe_neg, EReal.coe_one]
  rw [hc, h, Ideal.log_coe, if_neg (not_le.2 (by linarith))]

theorem la_real (x : EReal) : ∃ r : ℝ, la x = (r : EReal) := by
  obtain ⟨a, ha⟩ := lp_real x
  obtain ⟨b, hb⟩ := lq_real x
  exact ⟨a - b, by unfold la; rw [ha, hb, EReal.coe_sub]⟩

theorem msk_cases (l : BitVec 32) (t : ℕ) : msk l t = 0 ∨ msk l t = 1 := by
  unfold msk
  split
  · exact Or.inr rfl
  · exact Or.inl rfl

/-- A mask value is a real number. -/
theorem msk_real (l : BitVec 32) (t : ℕ) : ∃ r : ℝ, msk l t = (r : EReal) := by
  rcases msk_cases l t with h | h
  · exact ⟨0, by rw [h, EReal.coe_zero]⟩
  · exact ⟨1, by rw [h, EReal.coe_one]⟩

/-- The running total after block `n` is the sum of the terms of blocks `0 … n`. -/
theorem accF_eq_sum_aux (s : Fin 16 → EReal) : ∀ (n : ℕ) (h : n < 16),
    accF s n h = ∑ k : Fin (n + 1), s ⟨k.val, by have := k.isLt; omega⟩ := by
  intro n
  induction n with
  | zero =>
    intro h
    rw [Fin.sum_univ_castSucc]
    simp [accF]
  | succ n ih =>
    intro h
    rw [Fin.sum_univ_castSucc, accF, ih]
    rfl

theorem accF_eq_sum (s : Fin 16 → EReal) : accF s 15 (by decide) = ∑ k, s k :=
  accF_eq_sum_aux s 15 (by decide)

/-- A sum over the 65536 frames is the sum over the sixteen time blocks of the sums over each block's 4096 frames. -/
theorem sum_blocks {M : Type*} [AddCommMonoid M] (f : Fin 65536 → M) :
    ∑ t, f t = ∑ k : Fin 16, ∑ t' : Fin 4096, f (tIdx k t') := by
  refine (Cert.Sums.sum_fin_stretches 16 4096 f).trans ?_
  refine Finset.sum_congr rfl fun k _ => Finset.sum_congr rfl fun t' _ => congrArg f (Fin.ext ?_)
  rw [finProdFinEquiv_apply_val]
  show t'.val + 4096 * k.val = 4096 * k.val + t'.val
  omega

/-- With real summands, accumulating "zero minus the block sum" over the sixteen blocks gives minus the sum over all
    frames. -/
theorem acc_neg_blocks (g : Fin 65536 → ℝ) :
    accF (fun k => 0 - ∑ t' : Fin 4096, ((g (tIdx k t') : ℝ) : EReal)) 15 (by decide)
      = -(∑ t : Fin 65536, ((g t : ℝ) : EReal)) := by
  rw [accF_eq_sum, sum_blocks (fun t => ((g t : ℝ) : EReal))]
  have h1 : ∀ k : Fin 16, (0 : EReal) - ∑ t' : Fin 4096, ((g (tIdx k t') : ℝ) : EReal)
      = ((-(∑ t' : Fin 4096, g (tIdx k t')) : ℝ) : EReal) := by
    intro k
    rw [zero_sub, ← coe_sum, EReal.coe_neg]
  rw [Finset.sum_congr rfl fun k _ => h1 k, ← coe_sum, Finset.sum_neg_distrib, EReal.coe_neg, coe_sum]
  exact congrArg Neg.neg (Finset.sum_congr rfl fun k _ => coe_sum _ _)

theorem acc_step1 (ps lb : A3) (len : L1) (b : Fin 32) (i j : Fin 4)
    (hlb : ∀ idx, ∃ r : ℝ, lb idx = (r : EReal)) :
    accF (step1 ps lb len b i j) 15 (by decide) = T1 ps lb len b i j := by
  have hreal : ∀ t : Fin 65536, ∃ r : ℝ,
      la (ps (ix3 b t i)) * (lb (ix3 b t j) * msk (len (ix1 b)) t.val) = (r : EReal) := by
    intro t
    obtain ⟨a, ha⟩ := la_real (ps (ix3 b t i))
    obtain ⟨c, hc⟩ := hlb (ix3 b t j)
    obtain ⟨m, hm⟩ := msk_real (len (ix1 b)) t.val
    exact ⟨a * (c * m), by rw [ha, hc, hm, EReal.coe_mul, EReal.coe_mul]⟩
  choose g hg using hreal
  have hs : step1 ps lb len b i j = fun k => 0 - ∑ t' : Fin 4096, ((g (tIdx k t') : ℝ) : EReal) := by
    funext k
    unfold step1
    exact congrArg (fun z => 0 - z) (Finset.sum_congr rfl fun t' _ => hg (tIdx k t'))
  rw [hs, acc_neg_blocks]
  unfold T1
  exact congrArg Neg.neg (Finset.sum_congr rfl fun t _ => (hg t).symm)

theorem acc_step2 (ps : A3) (len : L1) (b : Fin 32) (i : Fin 4) :
    accF (step2 ps len b i) 15 (by decide) = T2 ps len b i := by
  have hreal : ∀ t : Fin 65536, ∃ r : ℝ,
      lq (ps (ix3 b t i)) * msk (len (ix1 b)) t.val = (r : EReal) := by
    intro t
    obtain ⟨a, ha⟩ := lq_real (ps (ix3 b t i))
    obtain ⟨m, hm⟩ := msk_real (len (ix1 b)) t.val
    exact ⟨a * m, by rw [ha, hm, EReal.coe_mul]⟩
  choose g hg using hreal
  have hs : step2 ps len b i = fun k => 0 - ∑ t' : Fin 4096, ((g (tIdx k t') : ℝ) : EReal) := by
    funext k
    unfold step2
    exact congrArg (fun z => 0 - z) (Finset.sum_congr rfl fun t' _ => hg (tIdx k t'))
  rw [hs, acc_neg_blocks]
  unfold T2
  exact congrArg Neg.neg (Finset.sum_congr rfl fun t _ => (hg t).symm)

theorem acc_step3 (pv vd : A2) (len : L1) (b : Fin 32) :
    accF (step3 pv vd len b) 15 (by decide)
      = ∑ t : Fin 65536, bce (vd (ix2 b t)) (pv (ix2 b t)) * msk (len (ix1 b)) t.val := by
  rw [accF_eq_sum,
    sum_blocks (fun t : Fin 65536 => bce (vd (ix2 b t)) (pv (ix2 b t)) * msk (len (ix1 b)) t.val)]
  refine Finset.sum_congr rfl fun k _ => ?_
  unfold step3 bce
  refine Finset.sum_congr rfl fun t' _ => ?_
  rw [zero_sub]

/-- A frame number below 65536, as a 32-bit word, has itself as its signed value. -/
theorem toInt_ofNat_small (t : ℕ) (ht : t < 65536) : (BitVec.ofNat 32 t).toInt = (t : ℤ) := by
  rw [BitVec.toInt_eq_toNat_cond, BitVec.toNat_ofNat, Nat.mod_eq_of_lt (by omega)]
  rw [if_pos (by omega)]

/-- For a frame number below 65536 the mask compares the number with the signed value of the length word. -/
theorem msk_eq_ite (l : BitVec 32) (t : ℕ) (ht : t < 65536) :
    msk l t = if (t : ℤ) < l.toInt then 1 else 0 := by
  unfold msk
  refine if_congr ?_ rfl rfl
  rw [BitVec.slt_iff_toInt_lt, toInt_ofNat_small t ht]

theorem Mm_eq (len : L1) (b : Fin 32) (h0 : 0 ≤ (len (ix1 b)).toInt) (h1 : (len (ix1 b)).toInt ≤ 65536) :
    Mm len b = (((len (ix1 b)).toInt : ℝ) : EReal) := by
  obtain ⟨n, hn⟩ : ∃ n : ℕ, (len (ix1 b)).toInt = (n : ℤ) := ⟨_, (Int.toNat_of_nonneg h0).symm⟩
  have hn' : n ≤ 65536 := by omega
  unfold Mm
  have hm : ∀ t : Fin 65536,
      msk (len (ix1 b)) t.val = (((if t.val < n then (1 : ℝ) else 0) : ℝ) : EReal) := by
    intro t
    rw [msk_eq_ite _ _ t.isLt, hn]
    by_cases h : t.val < n
    · rw [if_pos (by exact_mod_cast h), if_pos h, EReal.coe_one]
    · rw [if_neg (by exact_mod_cast h), if_neg h, EReal.coe_zero]
  rw [Finset.sum_congr rfl fun t _ => hm t, ← coe_sum, Finset.sum_boole, Fin.card_filter_val_lt, hn,
    min_eq_right hn']
  simp

end Diar

end
-- ==== Proof.RefRead1.lean ====
/-
  The reference program's values read at an index, at the ideal instance (a float an extended real, every
  operation exact), part 1: the frame mask is `msk` of the row's length word and the frame number; the mask
  stretched over the speakers reads the same; the clipped predictions and the two logarithms are the
  specification's `clip`, `lq`, `la` at each element; and three of the five quantities the closing arithmetic
  takes are the specification's: the counted frames of a row `Mm` (a sum over the frames from zero), the
  counted frames of all rows `Dd` (a sum over all rows and frames), and `T2` (minus the sum over the frames of
  the masked second logarithm).  Each reading only unfolds exact operations: a stretch along new or unit axes
  reads its operand at the kept coordinates, a sum along one axis is zero plus the sum over that axis's
  coordinates, a sum along every axis is zero plus the sum over all indices.
-/
import proofs.«107530_j17386027614816_1_alg».proof.Proof.RefTerms
import proofs.«107530_j17386027614816_1_alg».proof.Proof.Spec
import proofs.«107530_j17386027614816_1_alg».proof.Proof.LibSums
import proofs.«107530_j17386027614816_1_alg».proof.Proof.Gen.ReferenceIdeal
import Idealize.ShloMosaic.Lib.ValueIdx
import Idealize.ShloMosaic.Lib.Pipeline.Value
import Idealize.ShloMosaic.Lib.ValueLayout
import Idealize.ShloMosaic.Lib.Affine
import Idealize.ShloMosaic.Lib.IdealHost
import Idealize.ShloMosaic.PureOps.Ideal.Laws

set_option synthInstance.maxSize 4096

noncomputable section

open scoped BigOperators

namespace Cert.ReferenceIdeal.RefValue

open Cert.ReferenceIdeal Idealize.ShloMosaic Idealize.SL.Sem Idealize.ShloMosaic.ValueIdx

variable [Facts]
open Facts₀ Facts

/-! ## The frame mask -/

/-- The frame numbers stretched over the rows read, at `(b, t)`, the word of `t`. -/
theorem iota_bt (b : Fin 32) (t : Fin 65536) :
    (broadcastInDim S32x65536 ![0, 1] bcast_S1x65536_S32x65536_0_1
      (broadcastInDim S1x65536 ![1] bcast_S65536_S1x65536_1 (iotaInDim S65536 32 0))) (ix2 b t)
      = BitVec.ofNat 32 t.val := rfl

/-- The lengths stretched over the frames read, at `(b, t)`, row `b`'s length. -/
theorem len_bt (a4 : IVec S32 32) (b : Fin 32) (t : Fin 65536) :
    (broadcastInDim S32x65536 ![0, 1] bcast_S32x1_S32x65536_0_1
      (broadcastInDim S32x1 ![0] bcast_S32_S32x1_0 a4)) (ix2 b t) = a4 (ix1 b) := by
  show a4 _ = a4 _
  congr 1
  funext a
  match a with
  | ⟨0, _⟩ => rfl

/-- A one-bit word read as an unsigned integer and converted is `1` or `0`. -/
theorem uitofp_bit (c : BitVec 1) :
    FloatOps.uitofp (F := Ideal) .f32 c = if c = 1#1 then (1 : EReal) else 0 := by
  rcases (by decide : ∀ b : BitVec 1, b = 0#1 ∨ b = 1#1) c with rfl | rfl
  · show (((((0#1 : BitVec 1)).toNat : ℝ)) : EReal) = _
    rw [if_neg (by decide)]; simp
  · show (((((1#1 : BitVec 1)).toNat : ℝ)) : EReal) = _
    rw [if_pos rfl]; simp

/-- The mask at `(b, t)`: one when frame `t` is below row `b`'s length (signed words), else zero. -/
theorem mask_apply (a4 : IVec S32 32) (b : Fin 32) (t : Fin 65536) :
    mask (F := Ideal) a4 (ix2 b t) = Diar.msk (a4 (ix1 b)) t.val := by
  show FloatOps.uitofp (F := Ideal) .f32 (IntOp.cmpi .slt
      ((broadcastInDim S32x65536 ![0, 1] bcast_S1x65536_S32x65536_0_1
        (broadcastInDim S1x65536 ![1] bcast_S65536_S1x65536_1 (iotaInDim S65536 32 0))) (ix2 b t))
      ((broadcastInDim S32x65536 ![0, 1] bcast_S32x1_S32x65536_0_1
        (broadcastInDim S32x1 ![0] bcast_S32_S32x1_0 a4)) (ix2 b t))) = _
  rw [iota_bt, len_bt, uitofp_bit]
  unfold Diar.msk
  refine if_congr ?_ rfl rfl
  simp only [IntOp.cmpi]
  generalize (BitVec.ofNat 32 t.val).slt (a4 (ix1 b)) = c
  cases c <;> decide

/-- The mask stretched over the speakers reads, at `(b, t, i)`, the mask at `(b, t)`. -/
theorem mask3_apply (a4 : IVec S32 32) (b : Fin 32) (t : Fin 65536) (i : Fin 4) :
    mask3 (F := Ideal) a4 (ix3 b t i) = Diar.msk (a4 (ix1 b)) t.val := by
  rw [← mask_apply]
  show mask (F := Ideal) a4 _ = mask (F := Ideal) a4 _
  congr 1
  funext a
  match a with
  | ⟨0, _⟩ => rfl
  | ⟨1, _⟩ => rfl

/-! ## The counted frames -/

/-- The index of a `[32, 65536]` array that reduces along the frames into `b`, at frame `k`. -/
theorem lift2 (h : S32x65536.Reduces [1] S32) (b : Fin 32) (k : Fin 65536) :
    h.lift (ix1 b) k = ix2 b k :=
  funext fun ax => Fin.ext (by
    match ax with
    | ⟨0, _⟩ => rfl
    | ⟨1, _⟩ => rfl)

theorem mm_apply (a4 : IVec S32 32) (b : Fin 32) : mm (F := Ideal) a4 (ix1 b) = Diar.Mm a4 b := by
  unfold mm
  rw [hostReduceAdd_apply]
  have h : S32x65536.Reduces [1] S32 := by decide
  rw [Ideal.hostReduceAdd_single _ h]
  show Ideal.ofBits .f32 0x00000000#32 + _ = _
  rw [Ideal.ofBits_zero_f32, zero_add]
  unfold Diar.Mm
  refine Finset.sum_congr rfl fun k _ => ?_
  exact (congrArg (mask (F := Ideal) a4) (lift2 h b k)).trans (mask_apply a4 b k)

theorem dd_apply (a4 : IVec S32 32) : dd (F := Ideal) a4 ix0 = Diar.Dd a4 := by
  unfold dd
  rw [hostReduceAdd_apply, Ideal.hostReduceAdd_total _ (fun b => b.elim0)]
  show Ideal.ofBits .f32 0x00000000#32 + _ = _
  rw [Ideal.ofBits_zero_f32, zero_add]
  unfold Diar.Dd Diar.Mm
  rw [sum_idx2]
  refine Finset.sum_congr rfl fun b _ => Finset.sum_congr rfl fun t _ => ?_
  exact mask_apply a4 b t

/-! ## The clipped predictions and their logarithms -/

/-- The clipped speaker prediction at an index is the clip of the prediction there. -/
theorem clipP_apply (a0 : FVec Ideal S32x65536x4 .f32) (j : S32x65536x4.Idx) :
    clipP (F := Ideal) a0 j = Diar.clip (a0 j) := rfl

/-- Value 11 at an index: the logarithm of one minus the clipped prediction. -/
theorem lqV_apply (a0 : FVec Ideal S32x65536x4 .f32) (j : S32x65536x4.Idx) :
    lqV (F := Ideal) a0 j = Diar.lq (a0 j) := rfl

/-- Value 15 at an index: the difference of the two logarithms. -/
theorem laV_apply (a0 : FVec Ideal S32x65536x4 .f32) (j : S32x65536x4.Idx) :
    laV (F := Ideal) a0 j = Diar.la (a0 j) := rfl

/-! ## The sum over frames of the masked second logarithm -/

/-- The index of a `[32, 65536, 4]` array that reduces along the frames into `(b, i)`, at frame `k`. -/
theorem lift3 (h : S32x65536x4.Reduces [1] S32x4) (b : Fin 32) (i : Fin 4) (k : Fin 65536) :
    h.lift (ix2 b i) k = ix3 b k i :=
  funext fun ax => Fin.ext (by
    match ax with
    | ⟨0, _⟩ => rfl
    | ⟨1, _⟩ => rfl
    | ⟨2, _⟩ => rfl)

theorem t2_apply (a0 : FVec Ideal S32x65536x4 .f32) (a4 : IVec S32 32) (b : Fin 32) (i : Fin 4) :
    t2 (F := Ideal) a0 a4 (ix2 b i) = Diar.T2 a0 a4 b i := by
  unfold t2
  show -(Host.reduceAdd (mulf (lqV (F := Ideal) a0) (mask3 a4)) (constant (F := Ideal) S_ .f32 0x00000000#32)
      reducesTo_S32x65536x4_S32x4_d1 h_S_ (ix2 b i)) = _
  rw [hostReduceAdd_apply]
  have h : S32x65536x4.Reduces [1] S32x4 := by decide
  rw [Ideal.hostReduceAdd_single _ h]
  unfold Diar.T2
  refine congrArg Neg.neg ?_
  show Ideal.ofBits .f32 0x00000000#32 + _ = _
  rw [Ideal.ofBits_zero_f32, zero_add]
  refine Finset.sum_congr rfl fun (k : Fin 65536) _ => ?_
  refine (congrArg (mulf (lqV (F := Ideal) a0) (mask3 a4)) (lift3 h b i k)).trans ?_
  show lqV (F := Ideal) a0 (ix3 b k i) * mask3 (F := Ideal) a4 (ix3 b k i) = _
  rw [mask3_apply, lqV_apply]

end Cert.ReferenceIdeal.RefValue

end
-- ==== Proof.RefRead2.lean ====
/-
  The reference program's values read at an index, at the ideal instance, part 2: the contraction over the
  frames.  The program contracts axis 1 of the difference of logarithms `[32, 65536, 4]` with axis 1 of the
  masked labels `[32, 65536, 4]`, batching over axis 0, into `[32, 4, 4]`; at the ideal instance that is, at
  result `(b, i, j)`, the sum over the contraction index set of the operands' products.  The contraction index
  set has one axis of extent 65536, so it is the frames; at frame `t` the left operand is read at `(b, t, i)`
  and the right one at `(b, t, j)`.  Negated, this is the specification's `T1`.
-/
import proofs.«107530_j17386027614816_1_alg».proof.Proof.RefTerms
import proofs.«107530_j17386027614816_1_alg».proof.Proof.Spec
import proofs.«107530_j17386027614816_1_alg».proof.Proof.LibSums
import proofs.«107530_j17386027614816_1_alg».proof.Proof.Gen.ReferenceIdeal
import proofs.«107530_j17386027614816_1_alg».proof.Proof.RefRead1
import Idealize.ShloMosaic.Lib.ValueIdx
import Idealize.ShloMosaic.Lib.Pipeline.Value
import Idealize.ShloMosaic.Lib.ValueLayout
import Idealize.ShloMosaic.Lib.Affine
import Idealize.ShloMosaic.Lib.IdealHost
import Idealize.ShloMosaic.PureOps.Ideal.Laws

set_option synthInstance.maxSize 4096

noncomputable section

open scoped BigOperators

namespace Cert.ReferenceIdeal.RefValue

open Cert.ReferenceIdeal Idealize.ShloMosaic Idealize.SL.Sem Idealize.ShloMosaic.ValueIdx

variable [Facts]
open Facts₀ Facts

/-! ## The contraction over the frames -/

/-- The contraction's dimension numbers: one contracted axis, of extent 65536. -/
abbrev DD := dot_S32x65536x4_S32x65536x4_S32x4x4_1_1_2_2_0_0

/-- The contraction index set is the frames. -/
def frames : DD.contr.Idx ≃ Fin 65536 := contrEquiv1 DD 65536 rfl rfl

/-- The left operand's index at result `(b, i, j)` and frame `t` is `(b, t, i)`. -/
theorem lhsIdx_frames (b : Fin 32) (i j : Fin 4) (t : Fin 65536) :
    DD.lhsIdx (ix3 b i j) (frames.symm t) = ix3 b t i := by
  funext ax
  refine Fin.ext ?_
  match ax with
  | ⟨0, _⟩ => rfl
  | ⟨1, _⟩ =>
    refine (DD.lhsIdx_val_of_single (cl := ⟨1, by decide⟩) rfl (ix3 b i j) (frames.symm t)).trans ?_
    exact contrEquiv1_symm_val DD 65536 rfl rfl t
  | ⟨2, _⟩ => rfl

/-- The right operand's index at result `(b, i, j)` and frame `t` is `(b, t, j)`. -/
theorem rhsIdx_frames (b : Fin 32) (i j : Fin 4) (t : Fin 65536) :
    DD.rhsIdx (ix3 b i j) (frames.symm t) = ix3 b t j := by
  funext ax
  refine Fin.ext ?_
  match ax with
  | ⟨0, _⟩ => rfl
  | ⟨1, _⟩ =>
    refine (DD.rhsIdx_val_of_single (cr := ⟨1, by decide⟩) rfl (ix3 b i j) (frames.symm t)).trans ?_
    exact contrEquiv1_symm_val DD 65536 rfl rfl t
  | ⟨2, _⟩ => rfl

theorem t1_apply (a0 a2 : FVec Ideal S32x65536x4 .f32) (a4 : IVec S32 32) (b : Fin 32) (i j : Fin 4) :
    t1 (F := Ideal) a0 a2 a4 (ix3 b i j) = Diar.T1 a0 a2 a4 b i j := by
  unfold t1
  show -(FloatOps.dotGeneral DD none .single (laV (F := Ideal) a0) (mulf a2 (mask3 a4)) (ix3 b i j)) = _
  rw [Ideal.dotGeneral_apply]
  unfold Diar.T1
  refine congrArg Neg.neg ?_
  rw [← Equiv.sum_comp frames.symm]
  refine Finset.sum_congr rfl fun t _ => ?_
  rw [lhsIdx_frames, rhsIdx_frames]
  show laV (F := Ideal) a0 (ix3 b t i) * (a2 (ix3 b t j) * mask3 (F := Ideal) a4 (ix3 b t j)) = _
  rw [mask3_apply, laV_apply]

end Cert.ReferenceIdeal.RefValue

end
-- ==== Proof.RefRead3.lean ====
/-
  The reference program's values read at an index, at the ideal instance, part 3: the voice-activity
  numerator.  The clipped voice-activity prediction is the specification's `clip` at each element; the masked
  cross-entropy at `(b, t)` is `bce` of the target and the prediction times the frame mask (the literal the
  program subtracts the target from is one); and the sum of it along both axes, from zero, is the
  specification's `Nn`: the double sum over the rows and the frames.
-/
import proofs.«107530_j17386027614816_1_alg».proof.Proof.RefTerms
import proofs.«107530_j17386027614816_1_alg».proof.Proof.Spec
import proofs.«107530_j17386027614816_1_alg».proof.Proof.LibSums
import proofs.«107530_j17386027614816_1_alg».proof.Proof.Gen.ReferenceIdeal
import proofs.«107530_j17386027614816_1_alg».proof.Proof.RefRead1
import Idealize.ShloMosaic.Lib.ValueIdx
import Idealize.ShloMosaic.Lib.Pipeline.Value
import Idealize.ShloMosaic.Lib.ValueLayout
import Idealize.ShloMosaic.Lib.Affine
import Idealize.ShloMosaic.Lib.IdealHost
import Idealize.ShloMosaic.PureOps.Ideal.Laws

set_option synthInstance.maxSize 4096

noncomputable section

open scoped BigOperators

namespace Cert.ReferenceIdeal.RefValue

open Cert.ReferenceIdeal Idealize.ShloMosaic Idealize.SL.Sem Idealize.ShloMosaic.ValueIdx

variable [Facts]
open Facts₀ Facts

/-! ## The voice-activity numerator -/

/-- The clipped voice-activity prediction at an index is the clip of the prediction there. -/
theorem clipV_apply (a1 : FVec Ideal S32x65536 .f32) (j : S32x65536.Idx) :
    clipV (F := Ideal) a1 j = Diar.clip (a1 j) := rfl

/-- The masked cross-entropy at `(b, t)`. -/
theorem bceM_apply (a1 a3 : FVec Ideal S32x65536 .f32) (a4 : IVec S32 32) (b : Fin 32) (t : Fin 65536) :
    bceM (F := Ideal) a1 a3 a4 (ix2 b t)
      = Diar.bce (a3 (ix2 b t)) (a1 (ix2 b t)) * Diar.msk (a4 (ix1 b)) t.val := by
  show -(a3 (ix2 b t) * Diar.lp (a1 (ix2 b t))
      + (Ideal.ofBits .f32 0x3F800000#32 - a3 (ix2 b t)) * Diar.lq (a1 (ix2 b t))) * mask (F := Ideal) a4 (ix2 b t) = _
  rw [Ideal.ofBits_one_f32, mask_apply]
  rfl

theorem nn_apply (a1 a3 : FVec Ideal S32x65536 .f32) (a4 : IVec S32 32) :
    nn (F := Ideal) a1 a3 a4 ix0 = Diar.Nn a1 a3 a4 := by
  unfold nn
  rw [hostReduceAdd_apply, Ideal.hostReduceAdd_total _ (fun b => b.elim0)]
  show Ideal.ofBits .f32 0x00000000#32 + _ = _
  rw [Ideal.ofBits_zero_f32, zero_add]
  unfold Diar.Nn
  rw [sum_idx2]
  refine Finset.sum_congr rfl fun b _ => Finset.sum_congr rfl fun t _ => ?_
  exact bceM_apply a1 a3 a4 b t

end Cert.ReferenceIdeal.RefValue

end
-- ==== Proof.RefRead.lean ====
/-
  The reference program's five quantities read at an index at the ideal instance, gathered: the frame mask,
  the counted frames of a row and of all rows, and minus the masked sum of the second logarithm (part 1); minus
  the contraction over the frames (part 2); the voice-activity numerator (part 3).
-/
import proofs.«107530_j17386027614816_1_alg».proof.Proof.RefRead1
import proofs.«107530_j17386027614816_1_alg».proof.Proof.RefRead2
import proofs.«107530_j17386027614816_1_alg».proof.Proof.RefRead3
-- ==== Proof.Bridge.lean ====
/-
  The five equalities that join the blockwise side to the one-shot side, index by index, at the ideal
  instance.  Row `b` is row `b mod 16` of batch block `b / 16`, so the sixteen terms accumulated into row `b`
  of an output array are the specification's per-block terms of row `b` itself; their running total from
  zero is the plain sum of the sixteen, and (every summand being real) that is minus the one-shot sum over
  all 65536 frames for the two speaker quantities, and the one-shot sum itself for the voice-activity
  numerator.  The length word of a row, read as a signed integer between 0 and 65536, is the number of its
  counted frames.  Each one-shot quantity is the reference's term read at the same index.
-/
import proofs.«107530_j17386027614816_1_alg».proof.Proof.KFinal
import proofs.«107530_j17386027614816_1_alg».proof.Proof.KTerm
import proofs.«107530_j17386027614816_1_alg».proof.Proof.Algebra
import proofs.«107530_j17386027614816_1_alg».proof.Proof.RefRead
import proofs.«107530_j17386027614816_1_alg».proof.Proof.Gen.ReferenceIdeal
import Idealize.ShloMosaic.Lib.IdealHost

noncomputable section

open scoped BigOperators
open Idealize.ShloMosaic Idealize.ShloMosaic.TcCoe Idealize.SL.Sem Idealize.ShloMosaic.ValueIdx

namespace Cert.Bridge
open Cert.KernelIdeal Cert.KernelIdeal.Gen
variable (m : (ℓ : Loc nD τ sig) → Buf (Elt Ideal) ℓ) (c : Dev nD)

/-- The batch block of row `b`. -/
def hi (b : Fin 32) : Fin 2 := ⟨b.val / 16, by have := b.isLt; omega⟩

/-- Row `b mod 16` of batch block `b / 16` is row `b`. -/
theorem row_hi_lo (b : Fin 32) : KTerm.row (hi b) (KFinal.lo b) = b :=
  Fin.ext (by show 16 * (b.val / 16) + b.val % 16 = b.val; omega)

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (⟨fun i => i 0, fun a => ix1 a, fun i => (eq_ix1 i).symm, fun _ => rfl⟩ :
    (⟨1, ![n]⟩ : Shape).Idx ≃ Fin n).symm f).symm

/-! ## The pairwise quantity -/

theorem g5_eq (hlb : ∀ idx, ∃ r : ℝ, KTerm.a2 m c idx = (r : EReal)) (b : Fin 32) (r s : Fin 4) :
    KFinal.g5 m c b r s = Diar.T1 (KTerm.a0 m c) (KTerm.a2 m c) (KTerm.a4 m c) b r s := by
  unfold KFinal.g5
  rw [Finset.sum_range]
  have hk : ∀ k : Fin 16, KAcc.M5 m c (16 * (b.val / 16) + k.val) (ix3 (KFinal.lo b) r s)
      = Diar.step1 (KTerm.a0 m c) (KTerm.a2 m c) (KTerm.a4 m c) b r s k := by
    intro k
    have h := KTerm.M5_apply m c (hi b) k (KFinal.lo b) r s
    rw [row_hi_lo] at h
    exact h
  rw [Finset.sum_congr rfl fun k _ => hk k]
  show Ideal.ofBits .f32 0x00000000#32 + _ = _
  rw [Ideal.ofBits_zero_f32, zero_add, ← Diar.accF_eq_sum]
  exact Diar.acc_step1 _ _ _ b r s hlb

theorem e1 (hlb : ∀ idx, ∃ r : ℝ, KTerm.a2 m c idx = (r : EReal)) :
    KFinal.G5 m c
      = Cert.ReferenceIdeal.RefValue.t1 (F := Ideal) (KTerm.a0 m c) (KTerm.a2 m c) (KTerm.a4 m c) := by
  funext i
  obtain ⟨b, r, s, rfl⟩ : ∃ b r s, i = ix3 b r s := ⟨i 0, i 1, i 2, eq_ix3 i⟩
  rw [Cert.ReferenceIdeal.RefValue.t1_apply]
  exact g5_eq m c hlb b r s

/-! ## The per-speaker quantity -/

theorem g6_eq (b : Fin 32) (r : Fin 4) :
    KFinal.g6 m c b r = Diar.T2 (KTerm.a0 m c) (KTerm.a4 m c) b r := by
  unfold KFinal.g6
  rw [Finset.sum_range]
  have hk : ∀ k : Fin 16, KAcc.M6 m c (16 * (b.val / 16) + k.val) (ix2 (KFinal.lo b) r)
      = Diar.step2 (KTerm.a0 m c) (KTerm.a4 m c) b r k := by
    intro k
    have h := KTerm.M6_apply m c (hi b) k (KFinal.lo b) r
    rw [row_hi_lo] at h
    exact h
  rw [Finset.sum_congr rfl fun k _ => hk k]
  show Ideal.ofBits .f32 0x00000000#32 + _ = _
  rw [Ideal.ofBits_zero_f32, zero_add, ← Diar.accF_eq_sum]
  exact Diar.acc_step2 _ _ b r

theorem e2 :
    KFinal.G6 m c = Cert.ReferenceIdeal.RefValue.t2 (F := Ideal) (KTerm.a0 m c) (KTerm.a4 m c) := by
  funext i
  obtain ⟨b, r, rfl⟩ : ∃ b r, i = ix2 b r := ⟨i 0, i 1, eq_ix2 i⟩
  rw [Cert.ReferenceIdeal.RefValue.t2_apply]
  exact g6_eq m c b r

/-! ## The counted frames of a row -/

theorem e3 (hlen : ∀ i, 0 ≤ (KTerm.a4 m c i).toInt ∧ (KTerm.a4 m c i).toInt ≤ 65536) :
    (sitofp .f32 (KTerm.a4 m c) : FVec Ideal S32 .f32)
      = Cert.ReferenceIdeal.RefValue.mm (F := Ideal) (KTerm.a4 m c) := by
  funext i
  obtain ⟨b, rfl⟩ : ∃ b, i = ix1 b := ⟨i 0, eq_ix1 i⟩
  rw [Cert.ReferenceIdeal.RefValue.mm_apply, Diar.Mm_eq _ b (hlen _).1 (hlen _).2]
  rfl

/-! ## The voice-activity numerator -/

theorem g7_eq (b : Fin 32) :
    KFinal.g7 m c b = ∑ t : Fin 65536, Diar.bce (KTerm.a3 m c (ix2 b t)) (KTerm.a1 m c (ix2 b t))
      * Diar.msk (KTerm.a4 m c (ix1 b)) t.val := by
  unfold KFinal.g7
  rw [Finset.sum_range]
  have hk : ∀ k : Fin 16, KAcc.M7 m c (16 * (b.val / 16) + k.val) (ix2 (KFinal.lo b) (0 : Fin 1))
      = Diar.step3 (KTerm.a1 m c) (KTerm.a3 m c) (KTerm.a4 m c) b k := by
    intro k
    have h := KTerm.M7_apply m c (hi b) k (KFinal.lo b)
    rw [row_hi_lo] at h
    exact h
  rw [Finset.sum_congr rfl fun k _ => hk k]
  show Ideal.ofBits .f32 0x00000000#32 + _ = _
  rw [Ideal.ofBits_zero_f32, zero_add, ← Diar.accF_eq_sum]
  exact Diar.acc_step3 _ _ _ b

theorem e4 {h : S32x1.ReducesTo [0, 1] S_} {hu : 0 < S_.numel} :
    Host.reduceAdd (F := Ideal) (KFinal.G7 m c) (constant (F := Ideal) S_ .f32 0x00000000#32) h hu
      = Cert.ReferenceIdeal.RefValue.nn (F := Ideal) (KTerm.a1 m c) (KTerm.a3 m c) (KTerm.a4 m c) := by
  funext i
  obtain rfl : i = ix0 := eq_ix0 i
  rw [Cert.ReferenceIdeal.RefValue.nn_apply, hostReduceAdd_apply,
    Ideal.hostReduceAdd_total _ (fun b => b.elim0)]
  show Ideal.ofBits .f32 0x00000000#32 + _ = _
  rw [Ideal.ofBits_zero_f32, zero_add, sum_idx2]
  unfold Diar.Nn
  refine Finset.sum_congr rfl fun b _ => ?_
  rw [Fin.sum_univ_one]
  exact g7_eq m c b

/-! ## The counted frames of all rows -/

theorem e5 (hlen : ∀ i, 0 ≤ (KTerm.a4 m c i).toInt ∧ (KTerm.a4 m c i).toInt ≤ 65536)
    {h : S32.ReducesTo [0] S_} {hu : 0 < S_.numel} :
    Host.reduceAdd (F := Ideal) (sitofp .f32 (KTerm.a4 m c)) (constant (F := Ideal) S_ .f32 0x00000000#32) h hu
      = Cert.ReferenceIdeal.RefValue.dd (F := Ideal) (KTerm.a4 m c) := by
  funext i
  obtain rfl : i = ix0 := eq_ix0 i
  rw [Cert.ReferenceIdeal.RefValue.dd_apply, hostReduceAdd_apply,
    Ideal.hostReduceAdd_total _ (fun b => b.elim0)]
  show Ideal.ofBits .f32 0x00000000#32 + _ = _
  rw [Ideal.ofBits_zero_f32, zero_add, sum_idx1]
  unfold Diar.Dd
  refine Finset.sum_congr rfl fun b _ => ?_
  rw [Diar.Mm_eq _ b (hlen _).1 (hlen _).2]
  rfl

end Cert.Bridge

end
-- ==== Proof.RefRunOps.lean ====
/- The reference program's @main as a list of its one hundred host operations, in program order (the two
   calls of the outlined clip written out over the call records' buffers), and the run read back from the
   list: every weakly fair execution terminates, the arguments unchanged. -/
import proofs.«107530_j17386027614816_1_alg».proof.Proof.Gen.ReferenceIdeal
import Idealize.ShloMosaic.Lib.StableHlo.Run
import Idealize.ShloMosaic.Lib.Pipeline.Frame

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of @main's first window (statements 1 … 60): sixty-five, the clip of the first argument six of them. -/
abbrev ops0 : List (HloOp τ sig (Elt F)) :=
  [ StableHlo.nullary main_c (fun i => lit0 (S24x4.rowMajor i)),
    StableHlo.nullary main_v0 (iotaInDim S65536 32 0),
    StableHlo.unary main_v0 main_v1 (broadcastInDim S1x65536 ![1] bcast_S65536_S1x65536_1 : (⟨S65536, .i32⟩ : BufTy).Contents (Elt F) → (⟨S1x65536, .i32⟩ : BufTy).Contents (Elt F)),
    StableHlo.unary main_arg4 main_v2 (broadcastInDim S32x1 ![0] bcast_S32_S32x1_0 : (⟨S32, .i32⟩ : BufTy).Contents (Elt F) → (⟨S32x1, .i32⟩ : BufTy).Contents (Elt F)),
    StableHlo.unary main_v1 main_v3 (broadcastInDim S32x65536 ![0, 1] bcast_S1x65536_S32x65536_0_1 : (⟨S1x65536, .i32⟩ : BufTy).Contents (Elt F) → (⟨S32x65536, .i32⟩ : BufTy).Contents (Elt F)),
    StableHlo.unary main_v2 main_v4 (broadcastInDim S32x65536 ![0, 1] bcast_S32x1_S32x65536_0_1 : (⟨S32x1, .i32⟩ : BufTy).Contents (Elt F) → (⟨S32x65536, .i32⟩ : BufTy).Contents (Elt F)),
    StableHlo.binary main_v3 main_v4 main_v5 (cmpi .slt : (⟨S32x65536, .i32⟩ : BufTy).Contents (Elt F) → (⟨S32x65536, .i32⟩ : BufTy).Contents (Elt F) → (⟨S32x65536, .i1⟩ : BufTy).Contents (Elt F)),
    StableHlo.unary main_v5 main_v6 (uitofp .f32 : (⟨S32x65536, .i1⟩ : BufTy).Contents (Elt F) → (⟨S32x65536, .f32⟩ : BufTy).Contents (Elt F)),
    StableHlo.nullary main_cst (constant S_ .f32 0x00000000#32),
    StableHlo.binary main_v6 main_cst main_v7 ((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F)),
    StableHlo.nullary main_cst_0 (constant S_ .f32 0x33D6BF95#32),
    StableHlo.nullary main_cst_1 (constant S_ .f32 0x3F7FFFFE#32),
    StableHlo.TRef.unary (.of main_cst_0) main_call0.v0 id,
    StableHlo.TRef.unary main_call0.v0 main_call0.v1 (broadcastInDim S32x65536x4 ![] bcast_S_S32x65536x4),
    StableHlo.TRef.binary main_call0.v1 (.of main_arg0) main_call0.v2 maximumf,
    StableHlo.TRef.unary (.of main_cst_1) main_call0.v3 id,
    StableHlo.TRef.unary main_call0.v3 main_call0.v4 (broadcastInDim S32x65536x4 ![] bcast_S_S32x65536x4),
    StableHlo.TRef.binary main_call0.v4 main_call0.v2 main_call0.v5 minimumf,
    StableHlo.unary main_v8 main_v9 (Host.log : (⟨S32x65536x4, .f32⟩ : BufTy).Contents (Elt F) → (⟨S32x65536x4, .f32⟩ : BufTy).Contents (Elt F)),
    StableHlo.unary main_v8 main_v10 (Host.negf : (⟨S32x65536x4, .f32⟩ : BufTy).Contents (Elt F) → (⟨S32x65536x4, .f32⟩ : BufTy).Contents (Elt F)),
    StableHlo.unary main_v10 main_v11 (Host.log1p : (⟨S32x65536x4, .f32⟩ : BufTy).Contents (Elt F) → (⟨S32x65536x4, .f32⟩ : BufTy).Contents (Elt F)),
    StableHlo.unary main_v6 main_v12 (broadcastInDim S32x65536x1 ![0, 1] bcast_S32x65536_S32x65536x1_0_1 : (⟨S32x65536, .f32⟩ : BufTy).Contents (Elt F) → (⟨S32x65536x1, .f32⟩ : BufTy).Contents (Elt F)),
    StableHlo.unary main_v12 main_v13 (broadcastInDim S32x65536x4 ![0, 1, 2] bcast_S32x65536x1_S32x65536x4_0_1_2 : (⟨S32x65536x1, .f32⟩ : BufTy).Contents (Elt F) → (⟨S32x65536x4, .f32⟩ : BufTy).Contents (Elt F)),
    StableHlo.binary main_arg2 main_v13 main_v14 (mulf : (⟨S32x65536x4, .f32⟩ : BufTy).Contents (Elt F) → (⟨S32x65536x4, .f32⟩ : BufTy).Contents (Elt F) → (⟨S32x65536x4, .f32⟩ : BufTy).Contents (Elt F)),
    StableHlo.binary main_v9 main_v11 main_v15 (subf : (⟨S32x65536x4, .f32⟩ : BufTy).Contents (Elt F) → (⟨S32x65536x4, .f32⟩ : BufTy).Contents (Elt F) → (⟨S32x65536x4, .f32⟩ : BufTy).Contents (Elt F)),
    StableHlo.binary main_v15 main_v14 main_v16 ((fun l r => Host.dotGeneral dot_S32x65536x4_S32x65536x4_S32x4x4_1_1_2_2_0_0 none l r) : (⟨S32x65536x4, .f32⟩ : BufTy).Contents (Elt F) → (⟨S32x65536x4, .f32⟩ : BufTy).Contents (Elt F) → (⟨S32x4x4, .f32⟩ : BufTy).Contents (Elt F)),
    StableHlo.unary main_v16 main_v17 (Host.negf : (⟨S32x4x4, .f32⟩ : BufTy).Contents (Elt F) → (⟨S32x4x4, .f32⟩ : BufTy).Contents (Elt F)),
    StableHlo.unary main_v6 main_v18 (broadcastInDim S32x65536x1 ![0, 1] bcast_S32x65536_S32x65536x1_0_1 : (⟨S32x65536, .f32⟩ : BufTy).Contents (Elt F) → (⟨S32x65536x1, .f32⟩ : BufTy).Contents (Elt F)),
    StableHlo.unary main_v18 main_v19 (broadcastInDim S32x65536x4 ![0, 1, 2] bcast_S32x65536x1_S32x65536x4_0_1_2 : (⟨S32x65536x1, .f32⟩ : BufTy).Contents (Elt F) → (⟨S32x65536x4, .f32⟩ : BufTy).Contents (Elt F)),
    StableHlo.binary main_v11 main_v19 main_v20 (mulf : (⟨S32x65536x4, .f32⟩ : BufTy).Contents (Elt F) → (⟨S32x65536x4, .f32⟩ : BufTy).Contents (Elt F) → (⟨S32x65536x4, .f32⟩ : BufTy).Contents (Elt F)),
    StableHlo.nullary main_cst_2 (constant S_ .f32 0x00000000#32),
    StableHlo.binary main_v20 main_cst_2 main_v21 ((fun x v => Host.reduceAdd x v reducesTo_S32x65536x4_S32x4_d1 h_S_) : (⟨S32x65536x4, .f32⟩ : BufTy).Contents (Elt F) → (⟨S_, .f32⟩ : BufTy).Contents (Elt F) → (⟨S32x4, .f32⟩ : BufTy).Contents (Elt F)),
    StableHlo.unary main_v21 main_v22 (Host.negf : (⟨S32x4, .f32⟩ : BufTy).Contents (Elt F) → (⟨S32x4, .f32⟩ : BufTy).Contents (Elt F)),
    StableHlo.unary main_v22 main_v23 (broadcastInDim S32x4x1 ![0, 1] bcast_S32x4_S32x4x1_0_1 : (⟨S32x4, .f32⟩ : BufTy).Contents (Elt F) → (⟨S32x4x1, .f32⟩ : BufTy).Contents (Elt F)),
    StableHlo.unary main_v23 main_v24 (broadcastInDim S32x4x4 ![0, 1, 2] bcast_S32x4x1_S32x4x4_0_1_2 : (⟨S32x4x1, .f32⟩ : BufTy).Contents (Elt F) → (⟨S32x4x4, .f32⟩ : BufTy).Contents (Elt F)),
    StableHlo.binary main_v17 main_v24 main_v25 (addf : (⟨S32x4x4, .f32⟩ : BufTy).Contents (Elt F) → (⟨S32x4x4, .f32⟩ : BufTy).Contents (Elt F) → (⟨S32x4x4, .f32⟩ : BufTy).Contents (Elt F)),
    StableHlo.unary main_v7 main_v26 (broadcastInDim S32x1x1 ![0] bcast_S32_S32x1x1_0 : (⟨S32, .f32⟩ : BufTy).Contents (Elt F) → (⟨S32x1x1, .f32⟩ : BufTy).Contents (Elt F)),
    StableHlo.unary main_v26 main_v27 (broadcastInDim S32x4x4 ![0, 1, 2] bcast_S32x1x1_S32x4x4_0_1_2 : (⟨S32x1x1, .f32⟩ : BufTy).Contents (Elt F) → (⟨S32x4x4, .f32⟩ : BufTy).Contents (Elt F)),
    StableHlo.binary main_v25 main_v27 main_v28 (Host.divf : (⟨S32x4x4, .f32⟩ : BufTy).Contents (Elt F) → (⟨S32x4x4, .f32⟩ : BufTy).Contents (Elt F) → (⟨S32x4x4, .f32⟩ : BufTy).Contents (Elt F)),
    StableHlo.nullary main_v29 (iotaInDim S4 32 0),
    StableHlo.unary main_v29 main_v30 (broadcastInDim S1x4 ![1] bcast_S4_S1x4_1 : (⟨S4, .i32⟩ : BufTy).Contents (Elt F) → (⟨S1x4, .i32⟩ : BufTy).Contents (Elt F)),
    StableHlo.nullary main_c_3 (constantI S_ 32 0#32),
    StableHlo.unary main_c_3 main_v31 (broadcastInDim S1x4 ![] bcast_S_S1x4 : (⟨S_, .i32⟩ : BufTy).Contents (Elt F) → (⟨S1x4, .i32⟩ : BufTy).Contents (Elt F)),
    StableHlo.binary main_v30 main_v31 main_v32 (cmpi .slt : (⟨S1x4, .i32⟩ : BufTy).Contents (Elt F) → (⟨S1x4, .i32⟩ : BufTy).Contents (Elt F) → (⟨S1x4, .i1⟩ : BufTy).Contents (Elt F)),
    StableHlo.nullary main_c_4 (constantI S_ 32 4#32),
    StableHlo.unary main_c_4 main_v33 (broadcastInDim S1x4 ![] bcast_S_S1x4 : (⟨S_, .i32⟩ : BufTy).Contents (Elt F) → (⟨S1x4, .i32⟩ : BufTy).Contents (Elt F)),
    StableHlo.binary main_v30 main_v33 main_v34 (addi : (⟨S1x4, .i32⟩ : BufTy).Contents (Elt F) → (⟨S1x4, .i32⟩ : BufTy).Contents (Elt F) → (⟨S1x4, .i32⟩ : BufTy).Contents (Elt F)),
    StableHlo.ternary main_v32 main_v34 main_v30 main_v35 (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F)),
    StableHlo.nullary main_c_5 (constantI S_ 32 0#32),
    StableHlo.unary main_c_5 main_v36 (broadcastInDim S24x4 ![] bcast_S_S24x4 : (⟨S_, .i32⟩ : BufTy).Contents (Elt F) → (⟨S24x4, .i32⟩ : BufTy).Contents (Elt F)),
    StableHlo.binary main_c main_v36 main_v37 (cmpi .slt : (⟨S24x4, .i32⟩ : BufTy).Contents (Elt F) → (⟨S24x4, .i32⟩ : BufTy).Contents (Elt F) → (⟨S24x4, .i1⟩ : BufTy).Contents (Elt F)),
    StableHlo.nullary main_c_6 (constantI S_ 32 4#32),
    StableHlo.unary main_c_6 main_v38 (broadcastInDim S24x4 ![] bcast_S_S24x4 : (⟨S_, .i32⟩ : BufTy).Contents (Elt F) → (⟨S24x4, .i32⟩ : BufTy).Contents (Elt F)),
    StableHlo.binary main_c main_v38 main_v39 (addi : (⟨S24x4, .i32⟩ : BufTy).Contents (Elt F) → (⟨S24x4, .i32⟩ : BufTy).Contents (Elt F) → (⟨S24x4, .i32⟩ : BufTy).Contents (Elt F)),
    StableHlo.ternary main_v37 main_v39 main_c main_v40 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    StableHlo.unary main_v35 main_v41 (broadcastInDim S24x4 ![0, 1] bcast_S1x4_S24x4_0_1 : (⟨S1x4, .i32⟩ : BufTy).Contents (Elt F) → (⟨S24x4, .i32⟩ : BufTy).Contents (Elt F)),
    StableHlo.unary main_v41 main_v42 (broadcastInDim S24x4x1 ![0, 1] bcast_S24x4_S24x4x1_0_1 : (⟨S24x4, .i32⟩ : BufTy).Contents (Elt F) → (⟨S24x4x1, .i32⟩ : BufTy).Contents (Elt F)),
    StableHlo.unary main_v40 main_v43 (broadcastInDim S24x4x1 ![0, 1] bcast_S24x4_S24x4x1_0_1 : (⟨S24x4, .i32⟩ : BufTy).Contents (Elt F) → (⟨S24x4x1, .i32⟩ : BufTy).Contents (Elt F)),
    StableHlo.binary main_v42 main_v43 main_v44 ((fun a b => concatenate S24x4x2 2 [⟨S24x4x1, a⟩, ⟨S24x4x1, b⟩] concatenates_S24x4x1_S24x4x1_S24x4x2_d2) : (⟨S24x4x1, .i32⟩ : BufTy).Contents (Elt F) → (⟨S24x4x1, .i32⟩ : BufTy).Contents (Elt F) → (⟨S24x4x2, .i32⟩ : BufTy).Contents (Elt F)),
    StableHlo.binary main_v28 main_v44 main_v45 ((fun x i => Host.gather gather_S32x4x4_S24x4x2_S32x24x4_0_12_n_n_12_2_3211 x i) : (⟨S32x4x4, .f32⟩ : BufTy).Contents (Elt F) → (⟨S24x4x2, .i32⟩ : BufTy).Contents (Elt F) → (⟨S32x24x4, .f32⟩ : BufTy).Contents (Elt F)),
    StableHlo.nullary main_cst_7 (constant S_ .f32 0x00000000#32),
    StableHlo.binary main_v45 main_cst_7 main_v46 ((fun x v => Host.reduceAdd x v reducesTo_S32x24x4_S32x24_d2 h_S_) : (⟨S32x24x4, .f32⟩ : BufTy).Contents (Elt F) → (⟨S_, .f32⟩ : BufTy).Contents (Elt F) → (⟨S32x24, .f32⟩ : BufTy).Contents (Elt F)),
    StableHlo.nullary main_cst_8 (constant S_ .f32 0x40800000#32),
    StableHlo.unary main_cst_8 main_v47 (broadcastInDim S32x24 ![] bcast_S_S32x24 : (⟨S_, .f32⟩ : BufTy).Contents (Elt F) → (⟨S32x24, .f32⟩ : BufTy).Contents (Elt F)),
    StableHlo.binary main_v46 main_v47 main_v48 (Host.divf : (⟨S32x24, .f32⟩ : BufTy).Contents (Elt F) → (⟨S32x24, .f32⟩ : BufTy).Contents (Elt F) → (⟨S32x24, .f32⟩ : BufTy).Contents (Elt F)) ]

/-- The operations of @main's second window (statements 61 … 91): thirty-five, the clip of the second argument six of them. -/
abbrev ops1 : List (HloOp τ sig (Elt F)) :=
  [ StableHlo.nullary main_cst_9 (constant S_ .f32 0x7F800000#32),
    StableHlo.binary main_v48 main_cst_9 main_v49 ((fun x v => Host.reduce FloatOps.minimumf x v reducesTo_S32x24_S32_d1 h_S_) : (⟨S32x24, .f32⟩ : BufTy).Contents (Elt F) → (⟨S_, .f32⟩ : BufTy).Contents (Elt F) → (⟨S32, .f32⟩ : BufTy).Contents (Elt F)),
    StableHlo.nullary main_cst_10 (constant S_ .f32 0x00000000#32),
    StableHlo.binary main_v49 main_cst_10 main_v50 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_11 (constant S_ .f32 0x42000000#32),
    StableHlo.binary main_v50 main_cst_11 main_v51 (Host.divf : (⟨S_, .f32⟩ : BufTy).Contents (Elt F) → (⟨S_, .f32⟩ : BufTy).Contents (Elt F) → (⟨S_, .f32⟩ : BufTy).Contents (Elt F)),
    StableHlo.nullary main_cst_12 (constant S_ .f32 0x33D6BF95#32),
    StableHlo.nullary main_cst_13 (constant S_ .f32 0x3F7FFFFE#32),
    StableHlo.TRef.unary (.of main_cst_12) main_call1.v0 id,
    StableHlo.TRef.unary main_call1.v0 main_call1.v1 (broadcastInDim S32x65536 ![] bcast_S_S32x65536),
    StableHlo.TRef.binary main_call1.v1 (.of main_arg1) main_call1.v2 maximumf,
    StableHlo.TRef.unary (.of main_cst_13) main_call1.v3 id,
    StableHlo.TRef.unary main_call1.v3 main_call1.v4 (broadcastInDim S32x65536 ![] bcast_S_S32x65536),
    StableHlo.TRef.binary main_call1.v4 main_call1.v2 main_call1.v5 minimumf,
    StableHlo.unary main_v52 main_v53 (Host.log : (⟨S32x65536, .f32⟩ : BufTy).Contents (Elt F) → (⟨S32x65536, .f32⟩ : BufTy).Contents (Elt F)),
    StableHlo.binary main_arg3 main_v53 main_v54 (mulf : (⟨S32x65536, .f32⟩ : BufTy).Contents (Elt F) → (⟨S32x65536, .f32⟩ : BufTy).Contents (Elt F) → (⟨S32x65536, .f32⟩ : BufTy).Contents (Elt F)),
    StableHlo.nullary main_cst_14 (constant S_ .f32 0x3F800000#32),
    StableHlo.unary main_cst_14 main_v55 (broadcastInDim S32x65536 ![] bcast_S_S32x65536 : (⟨S_, .f32⟩ : BufTy).Contents (Elt F) → (⟨S32x65536, .f32⟩ : BufTy).Contents (Elt F)),
    StableHlo.binary main_v55 main_arg3 main_v56 (subf : (⟨S32x65536, .f32⟩ : BufTy).Contents (Elt F) → (⟨S32x65536, .f32⟩ : BufTy).Contents (Elt F) → (⟨S32x65536, .f32⟩ : BufTy).Contents (Elt F)),
    StableHlo.unary main_v52 main_v57 (Host.negf : (⟨S32x65536, .f32⟩ : BufTy).Contents (Elt F) → (⟨S32x65536, .f32⟩ : BufTy).Contents (Elt F)),
    StableHlo.unary main_v57 main_v58 (Host.log1p : (⟨S32x65536, .f32⟩ : BufTy).Contents (Elt F) → (⟨S32x65536, .f32⟩ : BufTy).Contents (Elt F)),
    StableHlo.binary main_v56 main_v58 main_v59 (mulf : (⟨S32x65536, .f32⟩ : BufTy).Contents (Elt F) → (⟨S32x65536, .f32⟩ : BufTy).Contents (Elt F) → (⟨S32x65536, .f32⟩ : BufTy).Contents (Elt F)),
    StableHlo.binary main_v54 main_v59 main_v60 (addf : (⟨S32x65536, .f32⟩ : BufTy).Contents (Elt F) → (⟨S32x65536, .f32⟩ : BufTy).Contents (Elt F) → (⟨S32x65536, .f32⟩ : BufTy).Contents (Elt F)),
    StableHlo.unary main_v60 main_v61 (Host.negf : (⟨S32x65536, .f32⟩ : BufTy).Contents (Elt F) → (⟨S32x65536, .f32⟩ : BufTy).Contents (Elt F)),
    StableHlo.binary main_v61 main_v6 main_v62 (mulf : (⟨S32x65536, .f32⟩ : BufTy).Contents (Elt F) → (⟨S32x65536, .f32⟩ : BufTy).Contents (Elt F) → (⟨S32x65536, .f32⟩ : BufTy).Contents (Elt F)),
    StableHlo.nullary main_cst_15 (constant S_ .f32 0x00000000#32),
    StableHlo.binary main_v62 main_cst_15 main_v63 ((fun x v => Host.reduceAdd x v reducesTo_S32x65536_S_d0_1 h_S_) : (⟨S32x65536, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.binary main_v6 main_cst_16 main_v64 ((fun x v => Host.reduceAdd x v reducesTo_S32x65536_S_d0_1 h_S_) : (⟨S32x65536, .f32⟩ : BufTy).Contents (Elt F) → (⟨S_, .f32⟩ : BufTy).Contents (Elt F) → (⟨S_, .f32⟩ : BufTy).Contents (Elt F)),
    StableHlo.binary main_v63 main_v64 main_v65 (Host.divf : (⟨S_, .f32⟩ : BufTy).Contents (Elt F) → (⟨S_, .f32⟩ : BufTy).Contents (Elt F) → (⟨S_, .f32⟩ : BufTy).Contents (Elt F)),
    StableHlo.nullary main_cst_17 (constant S_ .f32 0x3F800000#32),
    StableHlo.binary main_cst_17 main_v51 main_v66 (mulf : (⟨S_, .f32⟩ : BufTy).Contents (Elt F) → (⟨S_, .f32⟩ : BufTy).Contents (Elt F) → (⟨S_, .f32⟩ : BufTy).Contents (Elt F)),
    StableHlo.nullary main_cst_18 (constant S_ .f32 0x3F000000#32),
    StableHlo.binary main_cst_18 main_v65 main_v67 (mulf : (⟨S_, .f32⟩ : BufTy).Contents (Elt F) → (⟨S_, .f32⟩ : BufTy).Contents (Elt F) → (⟨S_, .f32⟩ : BufTy).Contents (Elt F)),
    StableHlo.binary main_v66 main_v67 main_v68 (addf : (⟨S_, .f32⟩ : BufTy).Contents (Elt F) → (⟨S_, .f32⟩ : BufTy).Contents (Elt F) → (⟨S_, .f32⟩ : BufTy).Contents (Elt F)) ]

/-- @main's one hundred operations, in order. -/
abbrev ops : List (HloOp τ sig (Elt F)) := ops0 ++ ops1

-- each window of @main is the straight line of its operations: both sides compute to the same chain of steps
set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
/-- @main, the two windows in a row, is the straight line of the hundred operations. -/
theorem main_eq (c : Dev nD) : main (F := F) c = seq ops := by
  simp only [ops, seq_append, ← main_part0_eq c, ← main_part1_eq c]
  rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops0_sub : (ops0 : List (HloOp τ sig (Elt F))).Forall fun op => op.bufs ⊆ tcRefs τ sig :=
  ⟨nullary_bufs_sub .., nullary_bufs_sub .., unary_bufs_sub .., unary_bufs_sub .., unary_bufs_sub .., unary_bufs_sub .., binary_bufs_sub .., unary_bufs_sub .., nullary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., unary_bufs_sub .., unary_bufs_sub .., binary_bufs_sub .., binary_bufs_sub .., binary_bufs_sub .., unary_bufs_sub .., unary_bufs_sub .., unary_bufs_sub .., binary_bufs_sub .., nullary_bufs_sub .., binary_bufs_sub .., unary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., unary_bufs_sub .., binary_bufs_sub ..⟩
set_option maxRecDepth 8192 in
theorem ops1_sub : (ops1 : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- The buffer contents after the first window, and after both. -/
def val1 (V0 : Valuation τ sig (Elt F)) : Valuation τ sig (Elt F) := after ops0 V0
def val2 (V0 : Valuation τ sig (Elt F)) : Valuation τ sig (Elt F) := after ops1 (val1 V0)

theorem after_ops (V0 : Valuation τ sig (Elt F)) : after ops V0 = val2 V0 := by
  simp only [ops, after_append]
  rfl

end Cert.ReferenceIdeal.RefValue

end
-- ==== Proof.RefRun.lean ====
/- The reference program's run read back: every weakly fair execution of its main function terminates with
   the result buffer at the composition of the program's operations applied to the arguments' launch
   contents (written with the named sub-terms), and the five arguments unchanged. The hundred operations
   are evaluated window by window: the first window's values that the second reads are the frame mask
   and the per-permutation averaged cost. -/
import proofs.«107530_j17386027614816_1_alg».proof.Proof.RefRunOps
import proofs.«107530_j17386027614816_1_alg».proof.Proof.RefTerms

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The arguments are written by no operation -/

set_option maxRecDepth 8192 in
theorem val1_main_arg0 (V0 : Valuation τ sig (Elt F)) : val1 V0 (no_index (Proc.devRef .tc main_arg0)) = V0 (Proc.devRef .tc main_arg0) := by
  unfold val1
  after_results_simp
set_option maxRecDepth 8192 in
theorem val2_main_arg0 (V0 : Valuation τ sig (Elt F)) : val2 V0 (no_index (Proc.devRef .tc main_arg0)) = V0 (Proc.devRef .tc main_arg0) := by
  unfold val2
  after_results_simp
  exact val1_main_arg0 V0

set_option maxRecDepth 8192 in
theorem val1_main_arg1 (V0 : Valuation τ sig (Elt F)) : val1 V0 (no_index (Proc.devRef .tc main_arg1)) = V0 (Proc.devRef .tc main_arg1) := by
  unfold val1
  after_results_simp
set_option maxRecDepth 8192 in
theorem val2_main_arg1 (V0 : Valuation τ sig (Elt F)) : val2 V0 (no_index (Proc.devRef .tc main_arg1)) = V0 (Proc.devRef .tc main_arg1) := by
  unfold val2
  after_results_simp
  exact val1_main_arg1 V0

set_option maxRecDepth 8192 in
theorem val1_main_arg2 (V0 : Valuation τ sig (Elt F)) : val1 V0 (no_index (Proc.devRef .tc main_arg2)) = V0 (Proc.devRef .tc main_arg2) := by
  unfold val1
  after_results_simp
set_option maxRecDepth 8192 in
theorem val2_main_arg2 (V0 : Valuation τ sig (Elt F)) : val2 V0 (no_index (Proc.devRef .tc main_arg2)) = V0 (Proc.devRef .tc main_arg2) := by
  unfold val2
  after_results_simp
  exact val1_main_arg2 V0

set_option maxRecDepth 8192 in
theorem val1_main_arg3 (V0 : Valuation τ sig (Elt F)) : val1 V0 (no_index (Proc.devRef .tc main_arg3)) = V0 (Proc.devRef .tc main_arg3) := by
  unfold val1
  after_results_simp
set_option maxRecDepth 8192 in
theorem val2_main_arg3 (V0 : Valuation τ sig (Elt F)) : val2 V0 (no_index (Proc.devRef .tc main_arg3)) = V0 (Proc.devRef .tc main_arg3) := by
  unfold val2
  after_results_simp
  exact val1_main_arg3 V0

set_option maxRecDepth 8192 in
theorem val1_main_arg4 (V0 : Valuation τ sig (Elt F)) : val1 V0 (no_index (Proc.devRef .tc main_arg4)) = V0 (Proc.devRef .tc main_arg4) := by
  unfold val1
  after_results_simp
set_option maxRecDepth 8192 in
theorem val2_main_arg4 (V0 : Valuation τ sig (Elt F)) : val2 V0 (no_index (Proc.devRef .tc main_arg4)) = V0 (Proc.devRef .tc main_arg4) := by
  unfold val2
  after_results_simp
  exact val1_main_arg4 V0

/-! ## The values -/

/-- Value 48: for each row and each of the 24 permutations, the mean over the four speakers of the gathered costs. -/
def permCost (C : FVec F S32x4x4 .f32) : FVec F S32x24 .f32 :=
  Host.divf
    (Host.reduceAdd (Host.gather gather_S32x4x4_S24x4x2_S32x24x4_0_12_n_n_12_2_3211 C gidx)
      (constant (F := F) S_ .f32 0x00000000#32) reducesTo_S32x24x4_S32x24_d2 h_S_)
    (broadcastInDim S32x24 ![] bcast_S_S32x24 (constant (F := F) S_ .f32 0x40800000#32))

set_option maxRecDepth 8192 in
set_option maxHeartbeats 2000000 in
/-- After the first window the mask buffer holds the frame mask of the lengths. -/
theorem val1_main_v6 (V0 : Valuation τ sig (Elt F)) :
    val1 V0 (no_index (Proc.devRef .tc main_v6)) = mask (V0 (Proc.devRef .tc main_arg4)) := by
  unfold val1
  after_results_simp
  rfl

set_option maxRecDepth 8192 in
set_option maxHeartbeats 2000000 in
/-- After the first window buffer 48 holds the averaged gathered costs of the pairwise cost built from the five quantities. -/
theorem val1_main_v48 (V0 : Valuation τ sig (Elt F)) :
    val1 V0 (no_index (Proc.devRef .tc main_v48))
      = permCost (cost (t1 (V0 (Proc.devRef .tc main_arg0)) (V0 (Proc.devRef .tc main_arg2)) (V0 (Proc.devRef .tc main_arg4))) (t2 (V0 (Proc.devRef .tc main_arg0)) (V0 (Proc.devRef .tc main_arg4))) (mm (V0 (Proc.devRef .tc main_arg4)))) := by
  unfold val1
  after_results_simp
  rfl

set_option maxRecDepth 8192 in
set_option maxHeartbeats 2000000 in
/-- After both windows the result buffer holds the closing arithmetic of the five quantities. -/
theorem val2_main_v68 (V0 : Valuation τ sig (Elt F)) :
    val2 V0 (no_index (Proc.devRef .tc main_v68))
      = closing (t1 (V0 (Proc.devRef .tc main_arg0)) (V0 (Proc.devRef .tc main_arg2)) (V0 (Proc.devRef .tc main_arg4))) (t2 (V0 (Proc.devRef .tc main_arg0)) (V0 (Proc.devRef .tc main_arg4))) (mm (V0 (Proc.devRef .tc main_arg4))) (nn (V0 (Proc.devRef .tc main_arg1)) (V0 (Proc.devRef .tc main_arg3)) (V0 (Proc.devRef .tc main_arg4))) (dd (V0 (Proc.devRef .tc main_arg4))) := by
  unfold val2
  after_results_simp
  simp only [val1_main_v48, val1_main_v6, val1_main_arg1, val1_main_arg3]
  rfl

/-- On every device, for any float values, from any memory with zero counters: every weakly fair execution of the
    main function terminates with the five arguments unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (h c main_arg0).trans (by simp only [after_ops]; exact val2_main_arg0 (launchContents m c)),
      (h c main_arg1).trans (by simp only [after_ops]; exact val2_main_arg1 (launchContents m c)),
      (h c main_arg2).trans (by simp only [after_ops]; exact val2_main_arg2 (launchContents m c)),
      (h c main_arg3).trans (by simp only [after_ops]; exact val2_main_arg3 (launchContents m c)),
      (h c main_arg4).trans (by simp only [after_ops]; exact val2_main_arg4 (launchContents m c))⟩)
    (run_seq scopedRefs_eq scopedSems_eq defs main (fun _ => ops) main_eq (fun _ => ops_sub) m ρ)

/-- On every device, for any float values, from any memory with zero counters: every weakly fair execution of the
    main function terminates with the result buffer at the closing arithmetic of the five quantities of the
    arguments' launch contents, and the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
        = closing (t1 (m ((c.tc : Thread nD τ).loc main_arg0)) (m ((c.tc : Thread nD τ).loc main_arg2)) (m ((c.tc : Thread nD τ).loc main_arg4))) (t2 (m ((c.tc : Thread nD τ).loc main_arg0)) (m ((c.tc : Thread nD τ).loc main_arg4))) (mm (m ((c.tc : Thread nD τ).loc main_arg4))) (nn (m ((c.tc : Thread nD τ).loc main_arg1)) (m ((c.tc : Thread nD τ).loc main_arg3)) (m ((c.tc : Thread nD τ).loc main_arg4))) (dd (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (h c main_v68).trans (by simp only [after_ops]; exact val2_main_v68 (launchContents m c)),
      (h c main_arg0).trans (by simp only [after_ops]; exact val2_main_arg0 (launchContents m c)),
      (h c main_arg1).trans (by simp only [after_ops]; exact val2_main_arg1 (launchContents m c)),
      (h c main_arg2).trans (by simp only [after_ops]; exact val2_main_arg2 (launchContents m c)),
      (h c main_arg3).trans (by simp only [after_ops]; exact val2_main_arg3 (launchContents m c)),
      (h c main_arg4).trans (by simp only [after_ops]; exact val2_main_arg4 (launchContents m c))⟩)
    (run_seq scopedRefs_eq scopedSems_eq defs main (fun _ => ops) main_eq (fun _ => ops_sub) m ρ)

end Cert.ReferenceIdeal.RefValue

end
-- ==== Proof.PreFacts.lean ====
/-
  What the precondition gives. The precondition is a conjunction of six "all entries" tests joined by `and`: each of the
  four float arguments has every entry of absolute value below +∞, and every length word is at least 0 and at most
  65536 (signed). A conjunction that is 1 has every conjunct 1; an "all entries" reduction by `and` that is 1 had a 1 at
  every entry; an extended real whose absolute value `max x (-x)` is strictly below +∞ is neither infinity, so it is a
  real number; a signed comparison that is 1 is the order of the signed values.
-/
import proofs.«107530_j17386027614816_1_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.PreFacts

open Idealize.ShloMosaic Idealize.ShloMosaic.ValueIdx

/-- The rank-0 shape has at most one index. -/
instance : Subsingleton Cert.Pre_finite_inputs.S_.Idx := ⟨fun a b => funext fun d => d.elim0⟩

/-- An extended real whose absolute value tests strictly below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

theorem of_pre [Cert.Pre_finite_inputs.Facts]
    (a0 : FVec Ideal Cert.Pre_finite_inputs.S32x65536x4 .f32) (a1 : FVec Ideal Cert.Pre_finite_inputs.S32x65536 .f32)
    (a2 : FVec Ideal Cert.Pre_finite_inputs.S32x65536x4 .f32) (a3 : FVec Ideal Cert.Pre_finite_inputs.S32x65536 .f32)
    (a4 : IVec Cert.Pre_finite_inputs.S32 32)
    (h : Cert.Pre_finite_inputs.fn (F := Ideal) a0 a1 a2 a3 a4 = fun _ => 1#1) :
    (∀ i, ∃ r : ℝ, a2 i = (r : EReal)) ∧ (∀ i, 0 ≤ (a4 i).toInt ∧ (a4 i).toInt ≤ 65536) := by
  have e := congrFun h ValueIdx.ix0
  dsimp only [Cert.Pre_finite_inputs.fn, Cert.Pre_finite_inputs.fn_part1] at e
  obtain ⟨e5, h25⟩ := IntOp.andi_eq_one.1 e
  obtain ⟨e4, h21⟩ := IntOp.andi_eq_one.1 e5
  obtain ⟨e3, -⟩ := IntOp.andi_eq_one.1 e4
  obtain ⟨-, h12⟩ := IntOp.andi_eq_one.1 e3
  have hfin := Host.reduce_andi_all _ _ _ _ _ h12
  have hge := Host.reduce_andi_all _ _ _ _ _ h21
  have hle := Host.reduce_andi_all _ _ _ _ _ h25
  refine ⟨fun i => real_of_abs_lt (a2 i) (hfin i), fun i => ⟨?_, ?_⟩⟩
  · have h0 : (0#32 : BitVec 32).toInt ≤ (a4 i).toInt := IntOp.cmpi_sge.1 (hge i)
    have z : (0#32 : BitVec 32).toInt = 0 := by decide
    rw [z] at h0
    exact h0
  · have h1 : (a4 i).toInt ≤ (65536#32 : BitVec 32).toInt := IntOp.cmpi_sle.1 (hle i)
    have z : (65536#32 : BitVec 32).toInt = 65536 := by decide
    rw [z] at h1
    exact h1

end Cert.PreFacts

end
-- ==== Proof.lean ====
/-
  The diarization loss: a permutation-invariant speaker cross-entropy plus a voice-activity cross-entropy over
  the frames `t < len[b]` of each batch row. Kernel and reference both reduce the arguments to five quantities
  and apply the same closing arithmetic to them: the pairwise costs `T1[b,i,j] = -∑ₜ (log p - log(1-p))(ps[b,t,i]) ·
  (lb[b,t,j] · msk[b,t])`, the per-speaker costs `T2[b,i] = -∑ₜ log(1-p)(ps[b,t,i]) · msk[b,t]`, the counted
  frames `M[b]`, the voice-activity numerator `N = ∑_{b,t} bce · msk` and the denominator `D = ∑_b M[b]`.

  The kernel accumulates `T1`, `T2` and the rows of `N` over sixteen time blocks per row, each block adding
  `0 - (block sum)`; on the extended reals the negation distributes over the blocks because every summand is
  a real number: the clipped logarithms always are, the mask is 0 or 1, and the labels are finite by the
  precondition. The kernel takes `M[b]` to be the length word converted to a float where the reference counts
  the frames below it: the two agree because the precondition bounds the lengths by `0 ≤ len ≤ 65536`.
  With the five quantities equal, the two results are the same closing arithmetic of the same arguments.
-/
import proofs.«107530_j17386027614816_1_alg».proof.Defs
import proofs.«107530_j17386027614816_1_alg».proof.Proof.Gen.Kernel
import proofs.«107530_j17386027614816_1_alg».proof.Proof.Gen.Kernel.Frame
import proofs.«107530_j17386027614816_1_alg».proof.Proof.Gen.KernelIdeal
import proofs.«107530_j17386027614816_1_alg».proof.Proof.Gen.KernelIdeal.Frame
import proofs.«107530_j17386027614816_1_alg».proof.Proof.Gen.ReferenceIdeal
import proofs.«107530_j17386027614816_1_alg».proof.Proof.Gen.Pre_finite_inputs
import proofs.«107530_j17386027614816_1_alg».proof.Proof.KTail
import proofs.«107530_j17386027614816_1_alg».proof.Proof.KFinal
import proofs.«107530_j17386027614816_1_alg».proof.Proof.Bridge
import proofs.«107530_j17386027614816_1_alg».proof.Proof.RefRun
import proofs.«107530_j17386027614816_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel and its idealization run, fault-free, with their arguments unchanged. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
/-- The reference runs with its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => Cert.ReferenceIdeal.RefValue.run_frame (F := Ideal) m ρ

/-- Both programs end at the closing arithmetic of the five quantities of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefValue.closing (F := Ideal)
      (Cert.ReferenceIdeal.RefValue.t1 (Cert.KernelIdeal.KTerm.a0 m c) (Cert.KernelIdeal.KTerm.a2 m c) (Cert.KernelIdeal.KTerm.a4 m c)) (Cert.ReferenceIdeal.RefValue.t2 (Cert.KernelIdeal.KTerm.a0 m c) (Cert.KernelIdeal.KTerm.a4 m c))
      (Cert.ReferenceIdeal.RefValue.mm (Cert.KernelIdeal.KTerm.a4 m c)) (Cert.ReferenceIdeal.RefValue.nn (Cert.KernelIdeal.KTerm.a1 m c) (Cert.KernelIdeal.KTerm.a3 m c) (Cert.KernelIdeal.KTerm.a4 m c)) (Cert.ReferenceIdeal.RefValue.dd (Cert.KernelIdeal.KTerm.a4 m c)), ?_, ?_⟩
  · refine (θ_run Cert.KernelIdeal.defs _ _).mono (fun r h c => ⟨(h c).1.trans ?_, (h c).2⟩) (Cert.KernelIdeal.KTail.run m ρ)
    obtain ⟨hlb, hlen⟩ := Cert.PreFacts.of_pre _ _ _ _ _ (hpre c)
    rw [Cert.KernelIdeal.KFinal.final5, Cert.KernelIdeal.KFinal.final6, Cert.KernelIdeal.KFinal.final7, Cert.Bridge.e1 m c hlb, Cert.Bridge.e2 m c, Cert.Bridge.e5 m c hlen,
      Cert.Bridge.e4 m c, Cert.Bridge.e3 m c hlen]
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
